-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1 : Shape := ⟨2, ![2048, 1]⟩
abbrev S2048x96 : Shape := ⟨2, ![2048, 96]⟩
abbrev S64x65536 : Shape := ⟨2, ![64, 65536]⟩
abbrev S2080x32 : Shape := ⟨2, ![2080, 32]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel
  bcast_S_S2048x96 : S_.BroadcastsInDim S2048x96 (![] : Fin 0 → Fin S2048x96.rank)
  reducesTo_S2048x96_S_d0_1 : S2048x96.ReducesTo [0, 1] S_
  bcast_S_S64x65536 : S_.BroadcastsInDim S64x65536 (![] : Fin 0 → Fin S64x65536.rank)
  reducesTo_S64x65536_S_d0_1 : S64x65536.ReducesTo [0, 1] S_
  bcast_S_S2080x32 : S_.BroadcastsInDim S2080x32 (![] : Fin 0 → Fin S2080x32.rank)
  reducesTo_S2080x32_S_d0_1 : S2080x32.ReducesTo [0, 1] S_

variable [Facts]

def fn_part1 {F : FTy → Type} [FloatOps F] (main_v13 : IVec S_ 1) (main_v16 : IVec S2080x32 1) : IVec S_ 1 :=
  let main_c_5 : IVec S_ 1 := constantI S_ 1 1#1
  let main_v17 : IVec S_ 1 := (fun x v => Host.reduce IntOp.andi x v reducesTo_S2080x32_S_d0_1 h_S_) main_v16 main_c_5
  let main_v18 : IVec S_ 1 := andi main_v13 main_v17
  main_v18

def fn {F : FTy → Type} [FloatOps F] (main_arg0 : FVec F S2048x1 .f32) (main_arg1 : FVec F S2048x96 .f32) (main_arg2 : FVec F S64x65536 .f32) (main_arg3 : FVec F S2080x32 .f32) : IVec S_ 1 :=
  let main_v0 : FVec F S2048x1 .f32 := Host.absf main_arg0
  let main_cst : FVec F S_ .f32 := constant S_ .f32 0x7F800000#32
  let main_v1 : FVec F S2048x1 .f32 := broadcastInDim S2048x1 ![] bcast_S_S2048x1 main_cst
  let main_v2 : IVec S2048x1 1 := cmpf .olt main_v0 main_v1
  let main_c : IVec S_ 1 := constantI S_ 1 1#1
  let main_v3 : IVec S_ 1 := (fun x v => Host.reduce IntOp.andi x v reducesTo_S2048x1_S_d0_1 h_S_) main_v2 main_c
  let main_v4 : FVec F S2048x96 .f32 := Host.absf main_arg1
  let main_cst_0 : FVec F S_ .f32 := constant S_ .f32 0x7F800000#32
  let main_v5 : FVec F S2048x96 .f32 := broadcastInDim S2048x96 ![] bcast_S_S2048x96 main_cst_0
  let main_v6 : IVec S2048x96 1 := cmpf .olt main_v4 main_v5
  let main_c_1 : IVec S_ 1 := constantI S_ 1 1#1
  let main_v7 : IVec S_ 1 := (fun x v => Host.reduce IntOp.andi x v reducesTo_S2048x96_S_d0_1 h_S_) main_v6 main_c_1
  let main_v8 : IVec S_ 1 := andi main_v3 main_v7
  let main_v9 : FVec F S64x65536 .f32 := Host.absf main_arg2
  let main_cst_2 : FVec F S_ .f32 := constant S_ .f32 0x7F800000#32
  let main_v10 : FVec F S64x65536 .f32 := broadcastInDim S64x65536 ![] bcast_S_S64x65536 main_cst_2
  let main_v11 : IVec S64x65536 1 := cmpf .olt main_v9 main_v10
  let main_c_3 : IVec S_ 1 := constantI S_ 1 1#1
  let main_v12 : IVec S_ 1 := (fun x v => Host.reduce IntOp.andi x v reducesTo_S64x65536_S_d0_1 h_S_) main_v11 main_c_3
  let main_v13 : IVec S_ 1 := andi main_v8 main_v12
  let main_v14 : FVec F S2080x32 .f32 := Host.absf main_arg3
  let main_cst_4 : FVec F S_ .f32 := constant S_ .f32 0x7F800000#32
  let main_v15 : FVec F S2080x32 .f32 := broadcastInDim S2080x32 ![] bcast_S_S2080x32 main_cst_4
  let main_v16 : IVec S2080x32 1 := cmpf .olt main_v14 main_v15
  fn_part1 (F := F) main_v13 main_v16
-- ==== Kernel.lean ====
abbrev S2048x1 : Shape := ⟨2, ![2048, 1]⟩
abbrev S2048x96 : Shape := ⟨2, ![2048, 96]⟩
abbrev S64x65536 : Shape := ⟨2, ![64, 65536]⟩
abbrev S2080x32 : Shape := ⟨2, ![2080, 32]⟩
abbrev S2080 : Shape := ⟨1, ![2080]⟩
abbrev S_ : Shape := ⟨0, ![]⟩
abbrev S64x64x32 : Shape := ⟨3, ![64, 64, 32]⟩
abbrev S2080x1 : Shape := ⟨2, ![2080, 1]⟩
abbrev S2080x2 : Shape := ⟨2, ![2080, 2]⟩
abbrev S64x64 : Shape := ⟨2, ![64, 64]⟩
abbrev S64x64x1 : Shape := ⟨3, ![64, 64, 1]⟩
abbrev S64x32x64 : Shape := ⟨3, ![64, 32, 64]⟩
abbrev S2048x64 : Shape := ⟨2, ![2048, 64]⟩
abbrev S2048x65536 : Shape := ⟨2, ![2048, 65536]⟩
abbrev S64x512 : Shape := ⟨2, ![64, 512]⟩
abbrev S2048x512 : Shape := ⟨2, ![2048, 512]⟩
abbrev S64x32x512 : Shape := ⟨3, ![64, 32, 512]⟩
abbrev S64x1x512 : Shape := ⟨3, ![64, 1, 512]⟩
abbrev S32x512 : Shape := ⟨2, ![32, 512]⟩
abbrev S96x512 : Shape := ⟨2, ![96, 512]⟩

abbrev nBuf : Space → Nat
  | .hbm => 68
  | .vmem => 7
  | .smem => 0
  | _ => 0

abbrev bufTy : (tb : Table) → Fin (tcTables nBuf tb) → BufTy
  | .hbm, ⟨0, _⟩ => ⟨S2048x1, .f32⟩
  | .hbm, ⟨1, _⟩ => ⟨S2048x96, .f32⟩
  | .hbm, ⟨2, _⟩ => ⟨S64x65536, .f32⟩
  | .hbm, ⟨3, _⟩ => ⟨S2080x32, .f32⟩
  | .hbm, ⟨4, _⟩ => ⟨S2080, .i32⟩
  | .hbm, ⟨5, _⟩ => ⟨S2080, .i32⟩
  | .hbm, ⟨6, _⟩ => ⟨S_, .f32⟩
  | .hbm, ⟨7, _⟩ => ⟨S64x64x32, .f32⟩
  | .hbm, ⟨8, _⟩ => ⟨S_, .i32⟩
  | .hbm, ⟨9, _⟩ => ⟨S2080, .i32⟩
  | .hbm, ⟨10, _⟩ => ⟨S2080, .i1⟩
  | .hbm, ⟨11, _⟩ => ⟨S_, .i32⟩
  | .hbm, ⟨12, _⟩ => ⟨S2080, .i32⟩
  | .hbm, ⟨13, _⟩ => ⟨S2080, .i32⟩
  | .hbm, ⟨14, _⟩ => ⟨S2080, .i32⟩
  | .hbm, ⟨15, _⟩ => ⟨S_, .i32⟩
  | .hbm, ⟨16, _⟩ => ⟨S2080, .i32⟩
  | .hbm, ⟨17, _⟩ => ⟨S2080, .i1⟩
  | .hbm, ⟨18, _⟩ => ⟨S_, .i32⟩
  | .hbm, ⟨19, _⟩ => ⟨S2080, .i32⟩
  | .hbm, ⟨20, _⟩ => ⟨S2080, .i32⟩
  | .hbm, ⟨21, _⟩ => ⟨S2080, .i32⟩
  | .hbm, ⟨22, _⟩ => ⟨S2080x1, .i32⟩
  | .hbm, ⟨23, _⟩ => ⟨S2080x1, .i32⟩
  | .hbm, ⟨24, _⟩ => ⟨S2080x2, .i32⟩
  | .hbm, ⟨25, _⟩ => ⟨S64x64x32, .f32⟩
  | .hbm, ⟨26, _⟩ => ⟨S_, .i32⟩
  | .hbm, ⟨27, _⟩ => ⟨S2080, .i32⟩
  | .hbm, ⟨28, _⟩ => ⟨S2080, .i1⟩
  | .hbm, ⟨29, _⟩ => ⟨S_, .i32⟩
  | .hbm, ⟨30, _⟩ => ⟨S2080, .i32⟩
  | .hbm, ⟨31, _⟩ => ⟨S2080, .i32⟩
  | .hbm, ⟨32, _⟩ => ⟨S2080, .i32⟩
  | .hbm, ⟨33, _⟩ => ⟨S_, .i32⟩
  | .hbm, ⟨34, _⟩ => ⟨S2080, .i32⟩
  | .hbm, ⟨35, _⟩ => ⟨S2080, .i1⟩
  | .hbm, ⟨36, _⟩ => ⟨S_, .i32⟩
  | .hbm, ⟨37, _⟩ => ⟨S2080, .i32⟩
  | .hbm, ⟨38, _⟩ => ⟨S2080, .i32⟩
  | .hbm, ⟨39, _⟩ => ⟨S2080, .i32⟩
  | .hbm, ⟨40, _⟩ => ⟨S2080x1, .i32⟩
  | .hbm, ⟨41, _⟩ => ⟨S2080x1, .i32⟩
  | .hbm, ⟨42, _⟩ => ⟨S2080x2, .i32⟩
  | .hbm, ⟨43, _⟩ => ⟨S64x64x32, .f32⟩
  | .hbm, ⟨44, _⟩ => ⟨S_, .f32⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .i32⟩
  | .hbm, ⟨50, _⟩ => ⟨S64x64, .i32⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i1⟩
  | .hbm, ⟨55, _⟩ => ⟨S64x64, .f32⟩
  | .hbm, ⟨56, _⟩ => ⟨S_, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64x1, .f32⟩
  | .hbm, ⟨61, _⟩ => ⟨S64x64x32, .f32⟩
  | .hbm, ⟨62, _⟩ => ⟨S64x64x32, .f32⟩
  | .hbm, ⟨63, _⟩ => ⟨S64x32x64, .f32⟩
  | .hbm, ⟨64, _⟩ => ⟨S2048x64, .f32⟩
  | .hbm, ⟨65, _⟩ => ⟨S2048x64, .bf16⟩
  | .hbm, ⟨66, _⟩ => ⟨S2048x96, .bf16⟩
  | .hbm, ⟨67, _⟩ => ⟨S2048x65536, .f32⟩
  | .local _ .vmem, ⟨0, _⟩ => ⟨S64x512, .f32⟩
  | .local _ .vmem, ⟨1, _⟩ => ⟨S64x512, .f32⟩
  | .local _ .vmem, ⟨2, _⟩ => ⟨S2048x64, .bf16⟩
  | .local _ .vmem, ⟨3, _⟩ => ⟨S2048x96, .bf16⟩
  | .local _ .vmem, ⟨4, _⟩ => ⟨S2048x1, .f32⟩
  | .local _ .vmem, ⟨5, _⟩ => ⟨S2048x512, .f32⟩
  | .local _ .vmem, ⟨6, _⟩ => ⟨S2048x512, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_3 : Ref sig .tc := ⟨.hbm, 15, rfl⟩
abbrev main_v6 : Ref sig .tc := ⟨.hbm, 16, rfl⟩
abbrev main_v7 : Ref sig .tc := ⟨.hbm, 17, rfl⟩
abbrev main_c_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_7 : Ref sig .tc := ⟨.hbm, 33, rfl⟩
abbrev main_v20 : Ref sig .tc := ⟨.hbm, 34, rfl⟩
abbrev main_v21 : Ref sig .tc := ⟨.hbm, 35, rfl⟩
abbrev main_c_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x64x32 : S_.BroadcastsInDim S64x64x32 (![] : Fin 0 → Fin S64x64x32.rank)
  bcast_S_S2080 : S_.BroadcastsInDim S2080 (![] : Fin 0 → Fin S2080.rank)
  bcast_S2080_S2080x1_0 : S2080.BroadcastsInDim S2080x1 (![0] : Fin 1 → Fin S2080x1.rank)
  concatenates_S2080x1_S2080x1_S2080x2_d1 : Shape.Concatenates [S2080x1, S2080x1] S2080x2 1
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x32_0_1_2 : S64x64x1.BroadcastsInDim S64x64x32 (![0, 1, 2] : Fin 3 → Fin S64x64x32.rank)
  transposes_S64x64x32_S64x32x64_0_2_1 : S64x64x32.Transposes [0, 2, 1] S64x32x64
  shapeCasts_S64x32x64_S2048x64 : S64x32x64.ShapeCasts S2048x64
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S2048x512_S64x32x512 : S2048x512.ShapeCasts S64x32x512
  shapeCasts_S64x512_S64x1x512 : S64x512.ShapeCasts S64x1x512
  broadcasts_S64x1x512_S64x32x512 : S64x1x512.Broadcasts S64x32x512
  reduces_S64x32x512_S32x512 : S64x32x512.Reduces [0] S32x512
  concatenates_S64x512_S32x512_S96x512_d0 : Shape.Concatenates [S64x512, S32x512] S96x512 0
  inb_S2048x96_S2048x96_0_0 : ∀ a, (![0, 0] : Fin 2 → Nat) a + S2048x96.size a ≤ S2048x96.size a
  h_S2048x96 : 0 < S2048x96.numel
  shapeCasts_S2048x96_S2048x96 : S2048x96.ShapeCasts S2048x96
  inb_S2048x1_S2048x1_0_0 : ∀ a, (![0, 0] : Fin 2 → Nat) a + S2048x1.size a ≤ S2048x1.size a
  h_S2048x1 : 0 < S2048x1.numel
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  scatter_S64x64x32_S2080x2_S2080x32_1_01_01_1_wf : ScatterDims.WF S64x64x32 S2080x2 S2080x32 [1] [0, 1] [0, 1] 1
  dot_S2048x64_S64x512_S2048x512_1_0_0_1_n_n_wf : DotDims.WF S2048x64 S64x512 S2048x512 [1] [0] [0] [1] [] []
  dot_S2048x96_S96x512_S2048x512_1_0_0_1_n_n_wf : DotDims.WF S2048x96 S96x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x65536.size a
  hwx0_0 : ∀ i : grid0.Coords, EltTy.bits .f32 = 32 ∨ (Rect.block (s := S64x65536) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x96.size a ≤ S2048x96.size a
  hwx0_2 : ∀ i : grid0.Coords, EltTy.bits .bf16 = 32 ∨ (Rect.block (s := S2048x96) S2048x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2048x1.size a
  hwx0_3 : ∀ i : grid0.Coords, EltTy.bits .f32 = 32 ∨ (Rect.block (s := S2048x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x65536.size a
  hwx0_4 : ∀ i : grid0.Coords, EltTy.bits .f32 = 32 ∨ (Rect.block (s := S2048x65536) S2048x512.size (cc0_transform_4 i) (hinb0_4 i)).WholeWords (EltTy.packing .f32)

variable [Facts₀]

def scatter_S64x64x32_S2080x2_S2080x32_1_01_01_1 : ScatterDims S64x64x32 S2080x2 S2080x32 where
  updateWindowDims := [1]
  insertedWindowDims := [0, 1]
  scatterDimsToOperandDims := [0, 1]
  indexVectorDim := 1
  wf := scatter_S64x64x32_S2080x2_S2080x32_1_01_01_1_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x96_S96x512_S2048x512_1_0_0_1_n_n : DotDims S2048x96 S96x512 S2048x512 where
  lhsContracting := [1]
  rhsContracting := [0]
  lhsNonContracting := [0]
  rhsNonContracting := [1]
  lhsBatch := []
  rhsBatch := []
  wf := dot_S2048x96_S96x512_S2048x512_1_0_0_1_n_n_wf

abbrev win0_0 : Pipeline.Window sig grid0 :=
  Pipeline.Window.ofSpec (Memref.whole main_arg2) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S2048x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x1 : Shape := ⟨2, ![2048, 1]⟩
abbrev S2048x96 : Shape := ⟨2, ![2048, 96]⟩
abbrev S64x65536 : Shape := ⟨2, ![64, 65536]⟩
abbrev S2080x32 : Shape := ⟨2, ![2080, 32]⟩
abbrev S_ : Shape := ⟨0, ![]⟩
abbrev S64x64 : Shape := ⟨2, ![64, 64]⟩
abbrev S4096 : Shape := ⟨1, ![4096]⟩
abbrev S2080 : Shape := ⟨1, ![2080]⟩
abbrev S4096x1 : Shape := ⟨2, ![4096, 1]⟩
abbrev S2080x1 : Shape := ⟨2, ![2080, 1]⟩
abbrev S2080x65536 : Shape := ⟨2, ![2080, 65536]⟩
abbrev S32x2080 : Shape := ⟨2, ![32, 2080]⟩
abbrev S32x65536 : Shape := ⟨2, ![32, 65536]⟩
abbrev S96x65536 : Shape := ⟨2, ![96, 65536]⟩
abbrev S2048x65536 : Shape := ⟨2, ![2048, 65536]⟩

abbrev nBuf : Space → Nat
  | .hbm => 146
  | .vmem => 0
  | .smem => 0
  | _ => 0

abbrev hbmTy0_0 (i : Nat) : BufTy := match i % 128 with
  | 0 => ⟨S2048x1, .f32⟩
  | 1 => ⟨S2048x96, .f32⟩
  | 2 => ⟨S64x65536, .f32⟩
  | 3 => ⟨S2080x32, .f32⟩
  | 4 => ⟨S_, .f32⟩
  | 5 => ⟨S64x64, .f32⟩
  | 6 => ⟨S64x64, .i32⟩
  | 7 => ⟨S_, .i32⟩
  | 8 => ⟨S64x64, .i32⟩
  | 9 => ⟨S64x64, .i32⟩
  | 10 => ⟨S64x64, .i32⟩
  | 11 => ⟨S64x64, .i1⟩
  | 12 => ⟨S_, .f32⟩
  | 13 => ⟨S64x64, .f32⟩
  | 14 => ⟨S64x64, .f32⟩
  | 15 => ⟨S_, .f32⟩
  | 16 => ⟨S64x64, .f32⟩
  | 17 => ⟨S64x64, .i1⟩
  | 18 => ⟨S4096, .i1⟩
  | 19 => ⟨S4096, .i32⟩
  | 20 => ⟨S_, .i32⟩
  | 21 => ⟨S_, .i32⟩
  | 22 => ⟨S4096, .i32⟩
  | 23 => ⟨S_, .i32⟩
  | 24 => ⟨S2080, .i32⟩
  | 25 => ⟨S_, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S_, .i32⟩
  | 38 => ⟨S4096, .i32⟩
  | 39 => ⟨S2080, .i32⟩
  | 40 => ⟨S_, .i32⟩
  | 41 => ⟨S_, .i32⟩
  | 42 => ⟨S2080, .i32⟩
  | 43 => ⟨S_, .i32⟩
  | 44 => ⟨S2080, .i32⟩
  | 45 => ⟨S2080, .i32⟩
  | 46 => ⟨S2080, .i32⟩
  | 47 => ⟨S_, .i32⟩
  | 48 => ⟨S2080, .i32⟩
  | 49 => ⟨S2080, .i1⟩
  | 50 => ⟨S2080, .i32⟩
  | 51 => ⟨S2080, .i32⟩
  | 52 => ⟨S_, .i32⟩
  | 53 => ⟨S2080, .i32⟩
  | 54 => ⟨S2080, .i1⟩
  | 55 => ⟨S2080, .i1⟩
  | 56 => ⟨S_, .i32⟩
  | 57 => ⟨S2080, .i32⟩
  | 58 => ⟨S2080, .i32⟩
  | 59 => ⟨S2080, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S2080, .i32⟩
  | 67 => ⟨S2080, .i32⟩
  | 68 => ⟨S_, .i32⟩
  | 69 => ⟨S2080, .i32⟩
  | 70 => ⟨S2080, .i1⟩
  | 71 => ⟨S_, .i32⟩
  | 72 => ⟨S2080, .i32⟩
  | 73 => ⟨S2080, .i1⟩
  | 74 => ⟨S_, .i32⟩
  | 75 => ⟨S_, .i1⟩
  | 76 => ⟨S2080, .i1⟩
  | 77 => ⟨S2080, .i1⟩
  | 78 => ⟨S2080, .i1⟩
  | 79 => ⟨S2080, .i32⟩
  | 80 => ⟨S2080, .i32⟩
  | 81 => ⟨S2080, .i32⟩
  | 82 => ⟨S_, .i32⟩
  | 83 => ⟨S2080, .i32⟩
  | 84 => ⟨S2080, .i32⟩
  | 85 => ⟨S2080, .i32⟩
  | 86 => ⟨S_, .i32⟩
  | 87 => ⟨S2080, .i32⟩
  | 88 => ⟨S2080, .i1⟩
  | 89 => ⟨S2080, .i32⟩
  | 90 => ⟨S2080, .i32⟩
  | 91 => ⟨S_, .i32⟩
  | 92 => ⟨S2080, .i32⟩
  | 93 => ⟨S2080, .i1⟩
  | 94 => ⟨S2080, .i1⟩
  | 95 => ⟨S_, .i32⟩
  | 96 => ⟨S2080, .i32⟩
  | 97 => ⟨S2080, .i32⟩
  | 98 => ⟨S2080, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S2080, .i32⟩
  | 106 => ⟨S2080, .i32⟩
  | 107 => ⟨S_, .i32⟩
  | 108 => ⟨S2080, .i32⟩
  | 109 => ⟨S2080, .i1⟩
  | 110 => ⟨S_, .i32⟩
  | 111 => ⟨S2080, .i32⟩
  | 112 => ⟨S2080, .i1⟩
  | 113 => ⟨S_, .i32⟩
  | 114 => ⟨S_, .i1⟩
  | 115 => ⟨S2080, .i1⟩
  | 116 => ⟨S2080, .i1⟩
  | 117 => ⟨S2080, .i1⟩
  | 118 => ⟨S2080, .i32⟩
  | 119 => ⟨S2080, .i32⟩
  | 120 => ⟨S2080, .i32⟩
  | 121 => ⟨S_, .i32⟩
  | 122 => ⟨S2080, .i32⟩
  | 123 => ⟨S2080, .i1⟩
  | 124 => ⟨S_, .i32⟩
  | 125 => ⟨S2080, .i32⟩
  | 126 => ⟨S2080, .i32⟩
  | 127 => ⟨S2080, .i32⟩
  | _ => ⟨S2048x1, .f32⟩

abbrev hbmTy0_1 (i : Nat) : BufTy := match i % 128 with
  | 0 => ⟨S2080x1, .i32⟩
  | 1 => ⟨S2080x65536, .f32⟩
  | 2 => ⟨S_, .i32⟩
  | 3 => ⟨S2080, .i32⟩
  | 4 => ⟨S2080, .i1⟩
  | 5 => ⟨S_, .i32⟩
  | 6 => ⟨S2080, .i32⟩
  | 7 => ⟨S2080, .i32⟩
  | 8 => ⟨S2080, .i32⟩
  | 9 => ⟨S2080x1, .i32⟩
  | 10 => ⟨S2080x65536, .f32⟩
  | 11 => ⟨S2080x65536, .f32⟩
  | 12 => ⟨S32x2080, .f32⟩
  | 13 => ⟨S32x65536, .f32⟩
  | 14 => ⟨S96x65536, .f32⟩
  | 15 => ⟨S2048x65536, .f32⟩
  | 16 => ⟨S2048x65536, .f32⟩
  | 17 => ⟨S2048x65536, .f32⟩
  | _ => ⟨S2048x1, .f32⟩

abbrev hbmTy (i : Nat) : BufTy := match i / 128 with
  | 0 => hbmTy0_0 i
  | 1 => hbmTy0_1 i
  | _ => ⟨S2048x1, .f32⟩

abbrev bufTy : (tb : Table) → Fin (tcTables nBuf tb) → BufTy
  | .hbm, ⟨i, _⟩ => hbmTy i
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_call1_v0 : Ref sig .tc := ⟨.hbm, 18, rfl⟩
abbrev main_call1_v1 : Ref sig .tc := ⟨.hbm, 19, rfl⟩
abbrev main_call1_call0_c : Ref sig .tc := ⟨.hbm, 20, rfl⟩
abbrev main_call1_call0_v0 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_c_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_4 : Ref sig .tc := ⟨.hbm, 37, rfl⟩
abbrev main_v13 : Ref sig .tc := ⟨.hbm, 38, rfl⟩
abbrev main_v14 : Ref sig .tc := ⟨.hbm, 39, rfl⟩
abbrev main_call3_call0_c : Ref sig .tc := ⟨.hbm, 40, rfl⟩
abbrev main_call3_call0_v0 : Ref sig .tc := ⟨.hbm, 41, rfl⟩
abbrev main_v15 : Ref sig .tc := ⟨.hbm, 42, rfl⟩
abbrev main_c_5 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_v7 : Ref sig .tc := ⟨.hbm, 51, rfl⟩
abbrev main_call4_c : Ref sig .tc := ⟨.hbm, 52, rfl⟩
abbrev main_call4_v8 : Ref sig .tc := ⟨.hbm, 53, rfl⟩
abbrev main_call4_v9 : Ref sig .tc := ⟨.hbm, 54, rfl⟩
abbrev main_call4_v10 : Ref sig .tc := ⟨.hbm, 55, rfl⟩
abbrev main_call4_c_0 : Ref sig .tc := ⟨.hbm, 56, rfl⟩
abbrev main_call4_v11 : Ref sig .tc := ⟨.hbm, 57, rfl⟩
abbrev main_call4_v12 : Ref sig .tc := ⟨.hbm, 58, rfl⟩
abbrev main_v16 : Ref sig .tc := ⟨.hbm, 59, rfl⟩
abbrev main_c_6 : Ref sig .tc := ⟨.hbm, 60, rfl⟩
abbrev main_call5_v0 : Ref sig .tc := ⟨.hbm, 61, rfl⟩
abbrev main_call5_c : Ref sig .tc := ⟨.hbm, 62, rfl⟩
abbrev main_call5_v1 : Ref sig .tc := ⟨.hbm, 63, rfl⟩
abbrev main_call5_c_0 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_c_1 : Ref sig .tc := ⟨.hbm, 68, rfl⟩
abbrev main_call5_v5 : Ref sig .tc := ⟨.hbm, 69, rfl⟩
abbrev main_call5_v6 : Ref sig .tc := ⟨.hbm, 70, rfl⟩
abbrev main_call5_c_2 : Ref sig .tc := ⟨.hbm, 71, rfl⟩
abbrev main_call5_v7 : Ref sig .tc := ⟨.hbm, 72, rfl⟩
abbrev main_call5_v8 : Ref sig .tc := ⟨.hbm, 73, rfl⟩
abbrev main_call5_c_3 : Ref sig .tc := ⟨.hbm, 74, rfl⟩
abbrev main_call5_v9 : Ref sig .tc := ⟨.hbm, 75, rfl⟩
abbrev main_call5_v10 : Ref sig .tc := ⟨.hbm, 76, rfl⟩
abbrev main_call5_v11 : Ref sig .tc := ⟨.hbm, 77, rfl⟩
abbrev main_call5_v12 : Ref sig .tc := ⟨.hbm, 78, rfl⟩
abbrev main_call5_v13 : Ref sig .tc := ⟨.hbm, 79, rfl⟩
abbrev main_call5_v14 : Ref sig .tc := ⟨.hbm, 80, rfl⟩
abbrev main_v17 : Ref sig .tc := ⟨.hbm, 81, rfl⟩
abbrev main_c_7 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_v5 : Ref sig .tc := ⟨.hbm, 88, rfl⟩
abbrev main_call6_v6 : Ref sig .tc := ⟨.hbm, 89, rfl⟩
abbrev main_call6_v7 : Ref sig .tc := ⟨.hbm, 90, rfl⟩
abbrev main_call6_c : Ref sig .tc := ⟨.hbm, 91, rfl⟩
abbrev main_call6_v8 : Ref sig .tc := ⟨.hbm, 92, rfl⟩
abbrev main_call6_v9 : Ref sig .tc := ⟨.hbm, 93, rfl⟩
abbrev main_call6_v10 : Ref sig .tc := ⟨.hbm, 94, rfl⟩
abbrev main_call6_c_0 : Ref sig .tc := ⟨.hbm, 95, rfl⟩
abbrev main_call6_v11 : Ref sig .tc := ⟨.hbm, 96, rfl⟩
abbrev main_call6_v12 : Ref sig .tc := ⟨.hbm, 97, rfl⟩
abbrev main_v18 : Ref sig .tc := ⟨.hbm, 98, rfl⟩
abbrev main_c_8 : Ref sig .tc := ⟨.hbm, 99, rfl⟩
abbrev main_call7_v0 : Ref sig .tc := ⟨.hbm, 100, rfl⟩
abbrev main_call7_c : Ref sig .tc := ⟨.hbm, 101, rfl⟩
abbrev main_call7_v1 : Ref sig .tc := ⟨.hbm, 102, rfl⟩
abbrev main_call7_c_0 : Ref sig .tc := ⟨.hbm, 103, rfl⟩
abbrev main_call7_v2 : Ref sig .tc := ⟨.hbm, 104, rfl⟩
abbrev main_call7_v3 : Ref sig .tc := ⟨.hbm, 105, rfl⟩
abbrev main_call7_v4 : Ref sig .tc := ⟨.hbm, 106, rfl⟩
abbrev main_call7_c_1 : Ref sig .tc := ⟨.hbm, 107, rfl⟩
abbrev main_call7_v5 : Ref sig .tc := ⟨.hbm, 108, rfl⟩
abbrev main_call7_v6 : Ref sig .tc := ⟨.hbm, 109, rfl⟩
abbrev main_call7_c_2 : Ref sig .tc := ⟨.hbm, 110, rfl⟩
abbrev main_call7_v7 : Ref sig .tc := ⟨.hbm, 111, rfl⟩
abbrev main_call7_v8 : Ref sig .tc := ⟨.hbm, 112, rfl⟩
abbrev main_call7_c_3 : Ref sig .tc := ⟨.hbm, 113, rfl⟩
abbrev main_call7_v9 : Ref sig .tc := ⟨.hbm, 114, rfl⟩
abbrev main_call7_v10 : Ref sig .tc := ⟨.hbm, 115, rfl⟩
abbrev main_call7_v11 : Ref sig .tc := ⟨.hbm, 116, rfl⟩
abbrev main_call7_v12 : Ref sig .tc := ⟨.hbm, 117, rfl⟩
abbrev main_call7_v13 : Ref sig .tc := ⟨.hbm, 118, rfl⟩
abbrev main_call7_v14 : Ref sig .tc := ⟨.hbm, 119, rfl⟩
abbrev main_v19 : Ref sig .tc := ⟨.hbm, 120, rfl⟩
abbrev main_c_9 : Ref sig .tc := ⟨.hbm, 121, rfl⟩
abbrev main_v20 : Ref sig .tc := ⟨.hbm, 122, rfl⟩
abbrev main_v21 : Ref sig .tc := ⟨.hbm, 123, rfl⟩
abbrev main_c_10 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_c_11 : Ref sig .tc := ⟨.hbm, 130, rfl⟩
abbrev main_v27 : Ref sig .tc := ⟨.hbm, 131, rfl⟩
abbrev main_v28 : Ref sig .tc := ⟨.hbm, 132, rfl⟩
abbrev main_c_12 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2080 : S_.BroadcastsInDim S2080 (![] : Fin 0 → Fin S2080.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2080_S2080_w2080s1p2079_0 : S2080.ReduceWindows (![2080] : Fin 1 → Nat) ![1] ![2079] ![0] S2080
  bcast_S2080_S2080x1_0 : S2080.BroadcastsInDim S2080x1 (![0] : Fin 1 → Fin S2080x1.rank)
  transposes_S2080x32_S32x2080_1_0 : S2080x32.Transposes [1, 0] S32x2080
  concatenates_S64x65536_S32x65536_S96x65536_d0 : Shape.Concatenates [S64x65536, S32x65536] S96x65536 0
  bcast_S2048x1_S2048x65536_0_1 : S2048x1.BroadcastsInDim S2048x65536 (![0, 1] : Fin 2 → Fin S2048x65536.rank)
  scatter_S2080_S4096x1_S4096_n_0_0_1_wf : ScatterDims.WF S2080 S4096x1 S4096 [] [0] [0] 1
  gather_S64x65536_S2080x1_S2080x65536_1_0_n_n_0_1_165536_wf : GatherDims.WF S64x65536 S2080x1 S2080x65536 [1] [0] [] [0] [] 1 ![1, 65536]
  dot_S32x2080_S2080x65536_S32x65536_1_0_0_1_n_n_wf : DotDims.WF S32x2080 S2080x65536 S32x65536 [1] [0] [0] [1] [] []
  dot_S2048x96_S96x65536_S2048x65536_1_0_0_1_n_n_wf : DotDims.WF S2048x96 S96x65536 S2048x65536 [1] [0] [0] [1] [] []

variable [Facts₀]

def scatter_S2080_S4096x1_S4096_n_0_0_1 : ScatterDims S2080 S4096x1 S4096 where
  updateWindowDims := []
  insertedWindowDims := [0]
  scatterDimsToOperandDims := [0]
  indexVectorDim := 1
  wf := scatter_S2080_S4096x1_S4096_n_0_0_1_wf
def gather_S64x65536_S2080x1_S2080x65536_1_0_n_n_0_1_165536 : GatherDims S64x65536 S2080x1 S2080x65536 where
  offsetDims := [1]
  collapsedSliceDims := [0]
  operandBatchingDims := []
  startIndicesBatchingDims := []
  startIndexMap := [0]
  indexVectorDim := 1
  sliceSizes := ![1, 65536]
  wf := gather_S64x65536_S2080x1_S2080x65536_1_0_n_n_0_1_165536_wf
def dot_S32x2080_S2080x65536_S32x65536_1_0_0_1_n_n : DotDims S32x2080 S2080x65536 S32x65536 where
  lhsContracting := [1]
  rhsContracting := [0]
  lhsNonContracting := [0]
  rhsNonContracting := [1]
  lhsBatch := []
  rhsBatch := []
  wf := dot_S32x2080_S2080x65536_S32x65536_1_0_0_1_n_n_wf
def dot_S2048x96_S96x65536_S2048x65536_1_0_0_1_n_n : DotDims S2048x96 S96x65536 S2048x65536 where
  lhsContracting := [1]
  rhsContracting := [0]
  lhsNonContracting := [0]
  rhsNonContracting := [1]
  lhsBatch := []
  rhsBatch := []
  wf := dot_S2048x96_S96x65536_S2048x65536_1_0_0_1_n_n_wf

class Facts : Prop extends Facts₀ where

variable [Facts]
-- ==== Proof.KerHost.lean ====
/-
  What the region finds in the batched-weights array, step by step through the host operations that build it:
  two overwriting scatters of theta at the listed (row, column) and (column, row) positions into a zero
  [64, 64, 32] array, a mask that is 1 on the diagonal and 1/2 off it, their product, a transpose to [64, 32, 64]
  and a reshape to [2048, 64].
-/
import proofs.«166319_j26499948216761_1_alg».proof.Proof.Gen.KernelIdeal.Frame
import Idealize.ShloMosaic.Lib.StableHlo.Run
import Idealize.ShloMosaic.PureOps.Ideal

noncomputable section

namespace Cert.KernelIdeal.KerHost

open Cert.KernelIdeal Cert.KernelIdeal.Gen Idealize.ShloMosaic Idealize.SL.Sem
open Idealize.ShloMosaic.StableHlo

attribute [local instance] Cert.KernelIdeal.Gen.facts

variable (m : (ℓ : Loc nD τ sig) → Buf (Elt Ideal) ℓ) (c : Dev nD)

/-- A listed index below zero is counted from the end (64 added); otherwise it is kept. -/
def wrap (x : (⟨S2080, .i32⟩ : BufTy).Contents (Elt Ideal)) : (⟨S2080, .i32⟩ : BufTy).Contents (Elt Ideal) :=
  select (cmpi .slt x (broadcastInDim S2080 ![] Facts₀.bcast_S_S2080 (constantI S_ 32 0#32)))
    (addi x (broadcastInDim S2080 ![] Facts₀.bcast_S_S2080 (constantI S_ 32 64#32))) x

/-- The first literal array (the rows). -/
def rowsLit : (⟨S2080, .i32⟩ : BufTy).Contents (Elt Ideal) := fun i => lit0 (S2080.rowMajor i)
/-- The second literal array (the columns). -/
def colsLit : (⟨S2080, .i32⟩ : BufTy).Contents (Elt Ideal) := fun i => lit1 (S2080.rowMajor i)

set_option maxHeartbeats 4000000 in
theorem V_v5 : (V m c main_v5 : (⟨S2080, .i32⟩ : BufTy).Contents (Elt Ideal)) = wrap rowsLit := by
  dsimp only [Gen.V, Gen.hostOps0]
  after_results_simp
  rfl

/-- The zero [64, 64, 32] array the scatters start from. -/
def zeros3 : (⟨S64x64x32, .f32⟩ : BufTy).Contents (Elt Ideal) :=
  broadcastInDim S64x64x32 ![] Facts₀.bcast_S_S64x64x32 (constant (F := Ideal) S_ .f32 0x00000000#32)

/-- A vector [2080] as a column [2080, 1]. -/
def asCol (x : (⟨S2080, .i32⟩ : BufTy).Contents (Elt Ideal)) : (⟨S2080x1, .i32⟩ : BufTy).Contents (Elt Ideal) :=
  broadcastInDim S2080x1 ![0] Facts₀.bcast_S2080_S2080x1_0 x

/-- Two index columns side by side: the [2080, 2] array of index pairs. -/
def pairs (a b : (⟨S2080x1, .i32⟩ : BufTy).Contents (Elt Ideal)) : (⟨S2080x2, .i32⟩ : BufTy).Contents (Elt Ideal) :=
  concatenate S2080x2 1 [⟨S2080x1, a⟩, ⟨S2080x1, b⟩] Facts₀.concatenates_S2080x1_S2080x1_S2080x2_d1

/-- The mask: 1/2 · 1 + 1/2 · [i = j]. -/
def mask : (⟨S64x64, .f32⟩ : BufTy).Contents (Elt Ideal) :=
  addf (mulf (broadcastInDim S64x64 ![] Facts₀.bcast_S_S64x64 (constant (F := Ideal) S_ .f32 0x3F000000#32))
             (broadcastInDim S64x64 ![] Facts₀.bcast_S_S64x64 (constant (F := Ideal) S_ .f32 0x3F800000#32)))
       (mulf (broadcastInDim S64x64 ![] Facts₀.bcast_S_S64x64 (constant (F := Ideal) S_ .f32 0x3F000000#32))
             (uitofp (F := Ideal) .f32 (cmpi .eq (addi (iotaInDim S64x64 32 0) (broadcastInDim S64x64 ![] Facts₀.bcast_S_S64x64 (constantI S_ 32 0#32)))
                (iotaInDim S64x64 32 1))))

set_option maxHeartbeats 4000000 in
theorem V_v10 : (V m c main_v10 : (⟨S2080, .i32⟩ : BufTy).Contents (Elt Ideal)) = wrap colsLit := by
  dsimp only [Gen.V, Gen.hostOps0]
  after_results_simp
  rfl

set_option maxHeartbeats 4000000 in
theorem V_v19 : (V m c main_v19 : (⟨S2080, .i32⟩ : BufTy).Contents (Elt Ideal)) = wrap colsLit := by
  dsimp only [Gen.V, Gen.hostOps0]
  after_results_simp
  rfl

set_option maxHeartbeats 4000000 in
theorem V_v24 : (V m c main_v24 : (⟨S2080, .i32⟩ : BufTy).Contents (Elt Ideal)) = wrap rowsLit := by
  dsimp only [Gen.V, Gen.hostOps0]
  after_results_simp
  rfl

set_option maxHeartbeats 4000000 in
theorem V_v13 : (V m c main_v13 : (⟨S2080x2, .i32⟩ : BufTy).Contents (Elt Ideal))
    = pairs (asCol (V m c main_v5)) (asCol (V m c main_v10)) := by
  dsimp only [Gen.V, Gen.hostOps0]
  after_results_simp
  rfl

set_option maxHeartbeats 4000000 in
theorem V_v27 : (V m c main_v27 : (⟨S2080x2, .i32⟩ : BufTy).Contents (Elt Ideal))
    = pairs (asCol (V m c main_v19)) (asCol (V m c main_v24)) := by
  dsimp only [Gen.V, Gen.hostOps0]
  after_results_simp
  rfl

set_option maxHeartbeats 4000000 in
theorem V_v14 : (V m c main_v14 : (⟨S64x64x32, .f32⟩ : BufTy).Contents (Elt Ideal))
    = Host.scatter scatter_S64x64x32_S2080x2_S2080x32_1_01_01_1 (fun _ b => b) zeros3 (V m c main_v13) (V m c main_arg3) := by
  dsimp only [Gen.V, Gen.hostOps0]
  after_results_simp
  rfl

set_option maxHeartbeats 4000000 in
theorem V_v28 : (V m c main_v28 : (⟨S64x64x32, .f32⟩ : BufTy).Contents (Elt Ideal))
    = Host.scatter scatter_S64x64x32_S2080x2_S2080x32_1_01_01_1 (fun _ b => b) (V m c main_v14) (V m c main_v27) (V m c main_arg3) := by
  dsimp only [Gen.V, Gen.hostOps0]
  after_results_simp
  rfl

set_option maxHeartbeats 4000000 in
theorem V_v40 : (V m c main_v40 : (⟨S64x64, .f32⟩ : BufTy).Contents (Elt Ideal)) = mask := by
  dsimp only [Gen.V, Gen.hostOps0]
  after_results_simp
  rfl

set_option maxHeartbeats 4000000 in
theorem V_v46 : @Eq ((⟨S2048x64, .bf16⟩ : BufTy).Contents (Elt Ideal)) (V m c main_v46)
    (truncf (F := Ideal) .bf16 (fun i => shapeCast S2048x64
        (transpose S64x32x64 [0, 2, 1]
          (mulf (V m c main_v28 : (⟨S64x64x32, .f32⟩ : BufTy).Contents (Elt Ideal))
            (broadcastInDim S64x64x32 ![0, 1, 2] Facts₀.bcast_S64x64x1_S64x64x32_0_1_2
              (broadcastInDim S64x64x1 ![0, 1] Facts₀.bcast_S64x64_S64x64x1_0_1 (V m c main_v40))))
          Facts₀.transposes_S64x64x32_S64x32x64_0_2_1)
        Facts₀.shapeCasts_S64x32x64_S2048x64 i) Facts₀.bitsLt_bf16_f32) := by
  dsimp only [Gen.V, Gen.hostOps0]
  after_results_simp
  rfl

set_option maxHeartbeats 4000000 in
theorem V_v47 : @Eq ((⟨S2048x96, .bf16⟩ : BufTy).Contents (Elt Ideal)) (V m c main_v47)
    (truncf (F := Ideal) .bf16 (V m c main_arg1 : (⟨S2048x96, .f32⟩ : BufTy).Contents (Elt Ideal)) Facts₀.bitsLt_bf16_f32) := by
  dsimp only [Gen.V, Gen.hostOps0]
  after_results_simp

end Cert.KernelIdeal.KerHost

end
-- ==== Proof.LibScatterSet.lean ====
import Idealize.ShloMosaic.PureOps

/-!
# Reading a scatter that overwrites

`Host.scatter d f x idx upd` is a left fold over the update indices in row-major order; with
`f = fun _ b => b` each step that lands inside the operand overwrites one element by the update's.
Two facts about one element `i` of the result:

* if exactly one update index lands at `i`, the result there is that update's element;
* if no update index lands at `i`, the result there is the operand's element.

Both are proved by induction on the list the fold runs over, for an arbitrary accumulator.
-/

namespace Cert.LibScatterSet

open Idealize.ShloMosaic

variable {α : Type} {s si u : Shape} {w : Nat}

/-- One step of the overwriting scatter: update number `n` (row-major) replaces the element it lands
    at, when it lands inside the operand, and changes nothing otherwise. -/
def step (d : ScatterDims s si u) (idx : IVec si w) (upd : u.Idx → α) (r : s.Idx → α) (n : Fin u.numel) :
    s.Idx → α :=
  match d.resultIdx? (u.rowMajor.symm n) idx with
  | some i => fun i' => if i' = i then (fun (_ : α) (b : α) => b) (r i) (upd (u.rowMajor.symm n)) else r i'
  | none => r

/-- The overwriting scatter is the left fold of `step` over all update numbers. -/
theorem scatter_eq_foldl (d : ScatterDims s si u) (x : s.Idx → α) (idx : IVec si w) (upd : u.Idx → α) :
    Host.scatter d (fun _ b => b) x idx upd = (List.finRange u.numel).foldl (step d idx upd) x := rfl

/-- A step whose update lands at `i` leaves the update's element at `i`. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  simp

/-- A step whose update does not land at `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  cases hr : d.resultIdx? (u.rowMajor.symm n) idx with
  | none => rfl
  | some i0 =>
    have hne : i ≠ i0 := fun e => h (by rw [hr, e])
    simp [hne]

/-- Folding steps none of which lands at `i` leaves the element at `i` as it was. -/
theorem foldl_miss (d : ScatterDims s si u) (idx : IVec si w) (upd : u.Idx → α) (i : s.Idx)
    (l : List (Fin u.numel)) (h : ∀ n ∈ l, d.resultIdx? (u.rowMajor.symm n) idx ≠ some i) (acc : s.Idx → α) :
    l.foldl (step d idx upd) acc i = acc i := by
  induction l generalizing acc with
  | nil => rfl
  | cons a l ih =>
    rw [List.foldl_cons, ih (fun n hn => h n (List.mem_cons_of_mem _ hn))]
    exact step_miss d idx upd acc a i (h a List.mem_cons_self)

/-- Folding steps of which only number `n0` lands at `i`: when `n0` is still in the list, or the
    accumulator already holds update `n0`'s element at `i`, the result holds it at `i`. -/
theorem foldl_hit (d : ScatterDims s si u) (idx : IVec si w) (upd : u.Idx → α) (i : s.Idx) (n0 : Fin u.numel)
    (h0 : d.resultIdx? (u.rowMajor.symm n0) idx = some i)
    (l : List (Fin u.numel)) (huniq : ∀ n ∈ l, d.resultIdx? (u.rowMajor.symm n) idx = some i → n = n0)
    (acc : s.Idx → α) (hinv : n0 ∈ l ∨ acc i = upd (u.rowMajor.symm n0)) :
    l.foldl (step d idx upd) acc i = upd (u.rowMajor.symm n0) := by
  induction l generalizing acc with
  | nil =>
    rcases hinv with hmem | hacc
    · exact absurd hmem (List.not_mem_nil)
    · exact hacc
  | cons a l ih =>
    rw [List.foldl_cons]
    apply ih (fun n hn => huniq n (List.mem_cons_of_mem _ hn))
    by_cases ha : a = n0
    · right
      rw [ha]
      exact step_hit d idx upd acc n0 i h0
    · have hmiss : d.resultIdx? (u.rowMajor.symm a) idx ≠ some i := fun e => ha (huniq a List.mem_cons_self e)
      rcases hinv with hmem | hacc
      · left
        rcases List.mem_cons.1 hmem with e | hm
        · exact absurd e.symm ha
        · exact hm
      · right
        rw [step_miss d idx upd acc a i hmiss]
        exact hacc

/-- An update index `j` lands at `i` exactly when, on every operand axis, its window's start plus its window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have e := Option.some.inj h
      have ea : (i a).val = (d.start j idx a + (d.window j a : Int)).toNat := by rw [← e]
      have := (hb a).1
      omega
    · exact absurd h (by simp)
  · intro h
    have hb : ∀ a, 0 ≤ d.start j idx a + (d.window j a : Int) ∧ d.start j idx a + (d.window j a : Int) < s.size a := by
      intro a
      rw [h a]
      have := (i a).isLt
      omega
    rw [dif_pos hb]
    congr 1
    funext a
    apply Fin.ext
    show (d.start j idx a + (d.window j a : Int)).toNat = (i a).val
    rw [h a]
    exact Int.toNat_natCast _

/-- (hit) If update index `j` lands at `i` and it is the only update index that does, the overwriting
    scatter holds the update's element `upd j` at `i`. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  have h0 : d.resultIdx? (u.rowMajor.symm (u.rowMajor j)) idx = some i := by
    rw [Equiv.symm_apply_apply]; exact hj
  have := foldl_hit d idx upd i (u.rowMajor j) h0 (List.finRange u.numel)
    (fun n _ hn => by
      have e := huniq _ hn
      rw [← e, Equiv.apply_symm_apply])
    x (Or.inl (List.mem_finRange _))
  rw [this, Equiv.symm_apply_apply]

/-- (miss) If no update index lands at `i`, the overwriting scatter holds the operand's element at `i`. -/
theorem scatter_set_miss (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_miss d idx upd i _ (fun n _ => hnone _) x

end Cert.LibScatterSet
-- ==== Proof.KerScatter.lean ====
/-
  Where an update of the two overwriting scatters lands: update (r, k) of the [2080, 32] array goes to entry
  (a, b, k) of the [64, 64, 32] array, where (a, b) is the r-th index pair read as signed numbers, and is dropped
  when that is outside the array.
-/
import proofs.«166319_j26499948216761_1_alg».proof.Proof.Gen.KernelIdeal
import proofs.«166319_j26499948216761_1_alg».proof.Proof.LibScatterSet
import Idealize.ShloMosaic.Lib.ValueIdx

noncomputable section

namespace Cert.KernelIdeal.KerScatter

open Cert.KernelIdeal Idealize.ShloMosaic Idealize.ShloMosaic.ValueIdx

attribute [local instance] Cert.KernelIdeal.Gen.facts

local notation "dsc" => scatter_S64x64x32_S2080x2_S2080x32_1_01_01_1

theorem start0 (idx : IVec S2080x2 32) (r : Fin 2080) (k : Fin 32) :
    ScatterDims.start dsc (ix2 r k) idx (0 : Fin 3) = (idx (ix2 r (0 : Fin 2))).toInt := by
  unfold ScatterDims.start
  split
  · refine congrArg (fun t => (idx t).toInt) ?_
    funext b
    match b with
    | ⟨0, _⟩ => rfl
    | ⟨1, _⟩ => rfl
  · rename_i h; exact absurd (by decide) h

theorem start1 (idx : IVec S2080x2 32) (r : Fin 2080) (k : Fin 32) :
    ScatterDims.start dsc (ix2 r k) idx (1 : Fin 3) = (idx (ix2 r (1 : Fin 2))).toInt := by
  unfold ScatterDims.start
  split
  · refine congrArg (fun t => (idx t).toInt) ?_
    funext b
    match b with
    | ⟨0, _⟩ => rfl
    | ⟨1, _⟩ => rfl
  · rename_i h; exact absurd (by decide) h

theorem start2 (idx : IVec S2080x2 32) (r : Fin 2080) (k : Fin 32) :
    ScatterDims.start dsc (ix2 r k) idx (2 : Fin 3) = 0 := by
  unfold ScatterDims.start
  split
  · rename_i h; exact absurd h (by decide)
  · rfl

theorem window0 (r : Fin 2080) (k : Fin 32) : ScatterDims.window dsc (ix2 r k) (0 : Fin 3) = 0 := by
  unfold ScatterDims.window
  split
  · rename_i h; exact absurd h (by decide)
  · rfl
theorem window1 (r : Fin 2080) (k : Fin 32) : ScatterDims.window dsc (ix2 r k) (1 : Fin 3) = 0 := by
  unfold ScatterDims.window
  split
  · rename_i h; exact absurd h (by decide)
  · rfl
theorem window2 (r : Fin 2080) (k : Fin 32) : ScatterDims.window dsc (ix2 r k) (2 : Fin 3) = k.val := by
  unfold ScatterDims.window
  split
  · rfl
  · rename_i h; exact absurd (by decide) h

/-- Update (r, k) lands at (a, b, k') exactly when the r-th index pair, read signed, is (a, b) and k = k'. -/
theorem lands_iff (idx : IVec S2080x2 32) (r : Fin 2080) (k : Fin 32) (a b : Fin 64) (k' : Fin 32) :
    ScatterDims.resultIdx? dsc (ix2 r k) idx = some (ix3 a b k')
      ↔ (idx (ix2 r (0 : Fin 2))).toInt = (a.val : Int) ∧ (idx (ix2 r (1 : Fin 2))).toInt = (b.val : Int) ∧ k = k' := by
  rw [Cert.LibScatterSet.resultIdx?_eq_some_iff]
  constructor
  · intro h
    have h0 := h (0 : Fin 3)
    have h1 := h (1 : Fin 3)
    have h2 := h (2 : Fin 3)
    rw [start0, window0] at h0
    rw [start1, window1] at h1
    rw [start2, window2] at h2
    refine ⟨?_, ?_, ?_⟩
    · have : (((ix3 a b k') (0 : Fin 3)).val : Int) = (a.val : Int) := rfl
      omega
    · have : (((ix3 a b k') (1 : Fin 3)).val : Int) = (b.val : Int) := rfl
      omega
    · have : (((ix3 a b k') (2 : Fin 3)).val : Int) = (k'.val : Int) := rfl
      apply Fin.ext
      omega
  · rintro ⟨h0, h1, rfl⟩ x
    match x with
    | ⟨0, _⟩ =>
      show ScatterDims.start dsc (ix2 r k) idx (0 : Fin 3) + (ScatterDims.window dsc (ix2 r k) (0 : Fin 3) : Int) = _
      rw [start0, window0, h0]; show (a.val : Int) + ((0 : ℕ) : Int) = (a.val : Int); omega
    | ⟨1, _⟩ =>
      show ScatterDims.start dsc (ix2 r k) idx (1 : Fin 3) + (ScatterDims.window dsc (ix2 r k) (1 : Fin 3) : Int) = _
      rw [start1, window1, h1]; show (b.val : Int) + ((0 : ℕ) : Int) = (b.val : Int); omega
    | ⟨2, _⟩ =>
      show ScatterDims.start dsc (ix2 r k) idx (2 : Fin 3) + (ScatterDims.window dsc (ix2 r k) (2 : Fin 3) : Int) = _
      rw [start2, window2]; show (0 : Int) + (k.val : Int) = (k.val : Int); omega

end Cert.KernelIdeal.KerScatter

end
-- ==== Proof.KerIndexLit.lean ====
/-
  The kernel's two literal index arrays, entry by entry: rows and columns below 64, each row at most its column,
  and the row-major positions 64·row + column strictly increasing along the list.
-/
import proofs.«166319_j26499948216761_1_alg».proof.KernelIdeal

namespace Cert.KernelIdeal.KerIndex

open Cert.KernelIdeal

/-- The r-th listed row, as a natural. -/
def rowN (r : Fin 2080) : ℕ := (lit0 r).toNat
/-- The r-th listed column, as a natural. -/
def colN (r : Fin 2080) : ℕ := (lit1 r).toNat
/-- The r-th listed pair's row-major position in the 64 × 64 array. -/
def litPos (r : Fin 2080) : ℕ := 64 * rowN r + colN r

theorem rowN_lt : ∀ r : Fin 2080, rowN r < 64 := by decide +kernel
theorem colN_lt : ∀ r : Fin 2080, colN r < 64 := by decide +kernel
theorem rowN_le_colN : ∀ r : Fin 2080, rowN r ≤ colN r := by decide +kernel
theorem litPos_lt_succ : ∀ r : Fin 2079, litPos r.castSucc < litPos r.succ := by decide +kernel

end Cert.KernelIdeal.KerIndex
-- ==== Proof.LibTriu.lean ====
/-
  The upper-triangular positions of a 64 × 64 array in row-major order, and the fact that identifies two
  enumerations of them: a finite set of k naturals has exactly one strictly increasing enumeration by `Fin k`.
-/
import Mathlib.Data.Finset.Sort
import Mathlib.Order.Fin.Basic

namespace Cert.LibTriu

/-- Two strictly increasing maps from `Fin k` into a set of `k` naturals are the same map: each is the set's
    enumeration in increasing order. -/
theorem strictMono_enum_unique {s : Finset ℕ} {k : ℕ} (h : s.card = k) {f g : Fin k → ℕ}
    (hf : StrictMono f) (hg : StrictMono g) (hfs : ∀ r, f r ∈ s) (hgs : ∀ r, g r ∈ s) : f = g :=
  (Finset.orderEmbOfFin_unique h hfs hf).trans (Finset.orderEmbOfFin_unique h hgs hg).symm

/-- A strictly increasing map from `Fin k` into a set of `k` naturals reaches every element of the set. -/
theorem strictMono_enum_surj {s : Finset ℕ} {k : ℕ} (h : s.card = k) {f : Fin k → ℕ}
    (hf : StrictMono f) (hfs : ∀ r, f r ∈ s) {p : ℕ} (hp : p ∈ s) : ∃ r, f r = p := by
  have e := Finset.orderEmbOfFin_unique h hfs hf
  have : p ∈ Set.range (s.orderEmbOfFin h) := by rw [Finset.range_orderEmbOfFin]; exact hp
  obtain ⟨r, hr⟩ := this
  exact ⟨r, by rw [e]; exact hr⟩

/-- The row-major positions p = 64·i + j of the entries on or above the diagonal (i ≤ j) of a 64 × 64 array. -/
def upper : Finset ℕ := (Finset.range 4096).filter fun p => p / 64 ≤ p % 64

theorem mem_upper {p : ℕ} : p ∈ upper ↔ p < 4096 ∧ p / 64 ≤ p % 64 := by
  simp [upper]

/-- There are 64·65/2 = 2080 of them. -/
theorem card_upper : upper.card = 2080 := by decide +kernel

/-- A strictly increasing enumeration of the upper-triangular positions by `Fin 2080` is unique. -/
theorem upper_enum_unique {f g : Fin 2080 → ℕ} (hf : StrictMono f) (hg : StrictMono g)
    (hfs : ∀ r, f r < 4096 ∧ f r / 64 ≤ f r % 64) (hgs : ∀ r, g r < 4096 ∧ g r / 64 ≤ g r % 64) : f = g :=
  strictMono_enum_unique card_upper hf hg (fun r => mem_upper.2 (hfs r)) (fun r => mem_upper.2 (hgs r))

/-- A strictly increasing enumeration of the upper-triangular positions reaches every pair i ≤ j. -/
theorem upper_enum_surj {f : Fin 2080 → ℕ} (hf : StrictMono f)
    (hfs : ∀ r, f r < 4096 ∧ f r / 64 ≤ f r % 64) {i j : ℕ} (hi : i < 64) (hj : j < 64) (hij : i ≤ j) :
    ∃ r, f r = 64 * i + j :=
  strictMono_enum_surj card_upper hf (fun r => mem_upper.2 (hfs r))
    (mem_upper.2 ⟨by omega, by omega⟩)

end Cert.LibTriu
-- ==== Proof.KerIndex.lean ====
/-
  The kernel's two literal index arrays list the upper-triangular pairs (i ≤ j) of 0..63 in row-major order:
  entry r of the first is the row i, of the second the column j, and r ↦ 64·i + j is strictly increasing.
-/
import proofs.«166319_j26499948216761_1_alg».proof.Proof.KerIndexLit
import proofs.«166319_j26499948216761_1_alg».proof.Proof.LibTriu

namespace Cert.KernelIdeal.KerIndex

open Cert.KernelIdeal

theorem litPos_strictMono : StrictMono litPos := Fin.strictMono_iff_lt_succ.2 litPos_lt_succ

theorem litPos_div (r : Fin 2080) : litPos r / 64 = rowN r := by
  have := colN_lt r; unfold litPos; omega
theorem litPos_mod (r : Fin 2080) : litPos r % 64 = colN r := by
  have := colN_lt r; unfold litPos; omega
theorem litPos_lt (r : Fin 2080) : litPos r < 4096 := by
  have := colN_lt r; have := rowN_lt r; unfold litPos; omega
theorem litPos_upper (r : Fin 2080) : litPos r / 64 ≤ litPos r % 64 := by
  rw [litPos_div, litPos_mod]; exact rowN_le_colN r

/-- Any strictly increasing enumeration of the upper-triangular positions is the literal one. -/
theorem eq_litPos {f : Fin 2080 → ℕ} (hf : StrictMono f) (hfs : ∀ r, f r < 4096 ∧ f r / 64 ≤ f r % 64) : f = litPos :=
  Cert.LibTriu.upper_enum_unique hf litPos_strictMono hfs (fun r => ⟨litPos_lt r, litPos_upper r⟩)

/-- The r-th pair's row and column as indices below 64. -/
def row (r : Fin 2080) : Fin 64 := ⟨rowN r, rowN_lt r⟩
def col (r : Fin 2080) : Fin 64 := ⟨colN r, colN_lt r⟩

theorem row_le_col (r : Fin 2080) : row r ≤ col r := rowN_le_colN r

/-- Two listed pairs with the same row and column are the same entry. -/
theorem pair_inj (r s : Fin 2080) (h1 : row r = row s) (h2 : col r = col s) : r = s := by
  apply litPos_strictMono.injective
  have h1' : (row r).val = (row s).val := by rw [h1]
  have h2' : (col r).val = (col s).val := by rw [h2]
  change rowN r = rowN s at h1'
  change colN r = colN s at h2'
  unfold litPos; rw [h1', h2']

/-- Every pair i ≤ j is listed. -/
theorem pair_surj (i j : Fin 64) (hij : i ≤ j) : ∃ r, row r = i ∧ col r = j := by
  obtain ⟨r, hr⟩ := Cert.LibTriu.upper_enum_surj litPos_strictMono
    (fun r => ⟨litPos_lt r, litPos_upper r⟩) i.isLt j.isLt hij
  have hc := colN_lt r
  have hjl := j.isLt
  refine ⟨r, Fin.ext ?_, Fin.ext ?_⟩
  · show rowN r = i.val
    unfold litPos at hr; omega
  · show colN r = j.val
    unfold litPos at hr; omega

end Cert.KernelIdeal.KerIndex
-- ==== Proof.LibConcatCols.lean ====
/-
  Two matrices laid side by side, read at an entry.

  The concatenation along the column axis of a `[K, C₁]` and a `[K, C₂]` array into `[K, D]` reads, at `(k, d)`,
  the first array at `(k, d)` when `d` is one of its columns, and the second at `(k, d − C₁)` otherwise. Stated with
  the column of the piece given and the column of the whole tied to it by an equation, so that both fit whatever way
  a program numbers its columns.
-/
import Idealize.ShloMosaic.Lib.Pipeline.Value
import Idealize.ShloMosaic.Lib.ValueIdx

namespace Cert.LibConcatCols

open Idealize.ShloMosaic Idealize.ShloMosaic.ValueIdx

variable {α : Type}

/-- Column `d` of the whole is column `c` of the LEFT piece (`d = c`): the whole at `(k, d)` is the left piece at
    `(k, c)`. -/
theorem concat_cols_left {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₁) (d : Fin D)
    (hd : d.val = c.val) :
    concatenate ⟨2, ![K, D]⟩ 1 [⟨⟨2, ![K, C₁]⟩, x₁⟩, ⟨⟨2, ![K, C₂]⟩, x₂⟩] h (ix2 k d) = x₁ (ix2 k c) :=
  concatenate_pair_apply_left 1 x₁ x₂ h (ix2 k d) rfl (ix2 k c) fun b =>
    match b with
    | ⟨0, _⟩ => rfl
    | ⟨1, _⟩ => hd.symm

/-- Column `d` of the whole is column `c` of the RIGHT piece (`d = C₁ + c`): the whole at `(k, d)` is the right piece
    at `(k, c)`. -/
theorem concat_cols_right {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₂) (d : Fin D)
    (hd : d.val = C₁ + c.val) :
    concatenate ⟨2, ![K, D]⟩ 1 [⟨⟨2, ![K, C₁]⟩, x₁⟩, ⟨⟨2, ![K, C₂]⟩, x₂⟩] h (ix2 k d) = x₂ (ix2 k c) :=
  concatenate_pair_apply_right 1 x₁ x₂ h (ix2 k d) rfl rfl (ix2 k c)
    (fun b hb =>
      match b, hb with
      | ⟨0, _⟩, _ => rfl
      | ⟨1, _⟩, hb => absurd rfl hb)
    (by show c.val + C₁ = d.val; omega)

end Cert.LibConcatCols
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.KerWeights.lean ====
/-
  The symmetric [64, 64, 32] array the two overwriting scatters build: entry (i, j, k) holds theta[r, k] for the
  listed pair r with {row r, col r} = {i, j}. The first scatter writes the upper triangle (row r, col r), the
  second the lower one (col r, row r); a diagonal position is written by both, with the same value.
-/
import proofs.«166319_j26499948216761_1_alg».proof.Proof.KerHost
import proofs.«166319_j26499948216761_1_alg».proof.Proof.KerScatter
import proofs.«166319_j26499948216761_1_alg».proof.Proof.KerIndex
import proofs.«166319_j26499948216761_1_alg».proof.Proof.LibScatterSet
import proofs.«166319_j26499948216761_1_alg».proof.Proof.LibConcatCols
import proofs.«166319_j26499948216761_1_alg».proof.Proof.LibColumn
import Idealize.ShloMosaic.Lib.ValueLayout

noncomputable section

namespace Cert.KernelIdeal.KerWeights

open Cert.KernelIdeal Cert.KernelIdeal.Gen Cert.KernelIdeal.KerHost Cert.KernelIdeal.KerIndex Cert.KernelIdeal.KerScatter
open Idealize.ShloMosaic Idealize.SL.Sem Idealize.ShloMosaic.ValueIdx

attribute [local instance] Cert.KernelIdeal.Gen.facts

local notation "dsc" => scatter_S64x64x32_S2080x2_S2080x32_1_01_01_1

/-! ## Generic: an overwriting scatter whose index rows denote pairs (a r, b r), injectively -/

section Generic

variable (θ : S2080x32.Idx → EReal) (x : S64x64x32.Idx → EReal) (idx : IVec S2080x2 32)
variable (a b : Fin 2080 → Fin 64)

theorem scatter_hit_of
    (h0 : ∀ r, (idx (ix2 r (0 : Fin 2))).toInt = ((a r).val : Int))
    (h1 : ∀ r, (idx (ix2 r (1 : Fin 2))).toInt = ((b r).val : Int))
    (hinj : ∀ r s, a r = a s → b r = b s → r = s) (r : Fin 2080) (k : Fin 32) :
    Host.scatter dsc (fun _ v => v) x idx θ (ix3 (a r) (b r) k) = θ (ix2 r k) := by
  refine Cert.LibScatterSet.scatter_set_hit dsc x idx θ (ix3 (a r) (b r) k) (ix2 r k) ?_ ?_
  · exact (lands_iff idx r k (a r) (b r) k).2 ⟨h0 r, h1 r, rfl⟩
  · intro j' hj'
    obtain ⟨r', k', rfl⟩ : ∃ (r' : Fin 2080) (k' : Fin 32), j' = ix2 r' k' := ⟨j' 0, j' 1, eq_ix2 j'⟩
    obtain ⟨e0, e1, rfl⟩ := (lands_iff idx r' k' (a r) (b r) k).1 hj'
    have ea : a r' = a r := Fin.ext (by have := h0 r'; omega)
    have eb : b r' = b r := Fin.ext (by have := h1 r'; omega)
    rw [hinj r' r ea eb]

theorem scatter_miss_of
    (h0 : ∀ r, (idx (ix2 r (0 : Fin 2))).toInt = ((a r).val : Int))
    (h1 : ∀ r, (idx (ix2 r (1 : Fin 2))).toInt = ((b r).val : Int))
    (i j : Fin 64) (k : Fin 32) (hno : ∀ r, ¬ (a r = i ∧ b r = j)) :
    Host.scatter dsc (fun _ v => v) x idx θ (ix3 i j k) = x (ix3 i j k) := by
  refine Cert.LibScatterSet.scatter_set_miss dsc x idx θ (ix3 i j k) ?_
  intro j' hj'
  obtain ⟨r', k', rfl⟩ : ∃ (r' : Fin 2080) (k' : Fin 32), j' = ix2 r' k' := ⟨j' 0, j' 1, eq_ix2 j'⟩
  obtain ⟨e0, e1, _⟩ := (lands_iff idx r' k' i j k).1 hj'
  exact hno r' ⟨Fin.ext (by have := h0 r'; omega), Fin.ext (by have := h1 r'; omega)⟩

end Generic

/-! ## The index arrays -/

/-- A word below 64 reads, signed, as itself. -/
theorem toInt_of_lt (w : BitVec 32) (h : w.toNat < 64) : w.toInt = (w.toNat : Int) := by
  rw [BitVec.toInt_eq_toNat_cond, if_pos (by omega)]

/-- A word below 64 is not negative, so the wrap keeps it. -/
theorem wrap_small (x : (⟨S2080, .i32⟩ : BufTy).Contents (Elt Ideal)) (i : S2080.Idx) (h : (x i).toNat < 64) :
    wrap x i = x i := by
  unfold wrap
  rw [select_apply]
  have hc : cmpi .slt x (broadcastInDim S2080 ![] Facts₀.bcast_S_S2080 (constantI S_ 32 0#32)) i = 0#1 := by
    show BitVec.ofBool ((x i).slt ((broadcastInDim S2080 ![] Facts₀.bcast_S_S2080 (constantI S_ 32 0#32)) i)) = 0#1
    rw [Cert.LibColumn.bcastInDim_scalar_apply _ _ i ix0, constantI_apply]
    have e := toInt_of_lt _ h
    have hn : ¬ (((x i).toNat : Int) < 0) := by omega
    simp [BitVec.slt, e, hn]
  rw [hc, select_zero]

theorem rowsLit_apply (r : Fin 2080) : rowsLit (ix1 r) = lit0 r := by
  unfold rowsLit
  exact congrArg lit0 (Fin.ext (Shape.rowMajor_val_one (ix1 r)))

theorem colsLit_apply (r : Fin 2080) : colsLit (ix1 r) = lit1 r := by
  unfold colsLit
  exact congrArg lit1 (Fin.ext (Shape.rowMajor_val_one (ix1 r)))

theorem wrap_rows (r : Fin 2080) : wrap rowsLit (ix1 r) = lit0 r := by
  rw [wrap_small _ _ (by rw [rowsLit_apply]; exact rowN_lt r), rowsLit_apply]

theorem wrap_cols (r : Fin 2080) : wrap colsLit (ix1 r) = lit1 r := by
  rw [wrap_small _ _ (by rw [colsLit_apply]; exact colN_lt r), colsLit_apply]

theorem pairs_left (u v : (⟨S2080, .i32⟩ : BufTy).Contents (Elt Ideal)) (r : Fin 2080) :
    pairs (asCol u) (asCol v) (ix2 r (0 : Fin 2)) = u (ix1 r) := by
  unfold pairs asCol
  rw [Cert.LibConcatCols.concat_cols_left (K := 2080) (C₁ := 1) (C₂ := 1) (D := 2) _ _ _ r (0 : Fin 1) (0 : Fin 2) rfl]
  exact Cert.LibColumn.bcastInDim_a_a1_apply u _ r 0

theorem pairs_right (u v : (⟨S2080, .i32⟩ : BufTy).Contents (Elt Ideal)) (r : Fin 2080) :
    pairs (asCol u) (asCol v) (ix2 r (1 : Fin 2)) = v (ix1 r) := by
  unfold pairs asCol
  rw [Cert.LibConcatCols.concat_cols_right (K := 2080) (C₁ := 1) (C₂ := 1) (D := 2) _ _ _ r (0 : Fin 1) (1 : Fin 2) rfl]
  exact Cert.LibColumn.bcastInDim_a_a1_apply v _ r 0

theorem lit0_toInt (r : Fin 2080) : (lit0 r).toInt = ((row r).val : Int) := toInt_of_lt _ (rowN_lt r)
theorem lit1_toInt (r : Fin 2080) : (lit1 r).toInt = ((col r).val : Int) := toInt_of_lt _ (colN_lt r)

/-! ## The two scatters of this program -/

section Program

variable (m : (ℓ : Loc nD τ sig) → Buf (Elt Ideal) ℓ) (c : Dev nD)

theorem idxA0 (r : Fin 2080) :
    ((V m c main_v13 : (⟨S2080x2, .i32⟩ : BufTy).Contents (Elt Ideal)) (ix2 r (0 : Fin 2))).toInt = ((row r).val : Int) := by
  rw [V_v13, pairs_left, V_v5, wrap_rows]; exact lit0_toInt r
theorem idxA1 (r : Fin 2080) :
    ((V m c main_v13 : (⟨S2080x2, .i32⟩ : BufTy).Contents (Elt Ideal)) (ix2 r (1 : Fin 2))).toInt = ((col r).val : Int) := by
  rw [V_v13, pairs_right, V_v10, wrap_cols]; exact lit1_toInt r
theorem idxB0 (r : Fin 2080) :
    ((V m c main_v27 : (⟨S2080x2, .i32⟩ : BufTy).Contents (Elt Ideal)) (ix2 r (0 : Fin 2))).toInt = ((col r).val : Int) := by
  rw [V_v27, pairs_left, V_v19, wrap_cols]; exact lit1_toInt r
theorem idxB1 (r : Fin 2080) :
    ((V m c main_v27 : (⟨S2080x2, .i32⟩ : BufTy).Contents (Elt Ideal)) (ix2 r (1 : Fin 2))).toInt = ((row r).val : Int) := by
  rw [V_v27, pairs_right, V_v24, wrap_rows]; exact lit0_toInt r

/-- Below the diagonal (and on it) the second scatter's value stands: entry (col r, row r, k) is theta[r, k]. -/
theorem sym_lower (r : Fin 2080) (k : Fin 32) :
    (V m c main_v28 : (⟨S64x64x32, .f32⟩ : BufTy).Contents (Elt Ideal)) (ix3 (col r) (row r) k)
      = (V m c main_arg3 : (⟨S2080x32, .f32⟩ : BufTy).Contents (Elt Ideal)) (ix2 r k) := by
  rw [V_v28]
  exact scatter_hit_of _ _ _ col row (idxB0 m c) (idxB1 m c) (fun r s h1 h2 => pair_inj r s h2 h1) r k

/-- Strictly above the diagonal the second scatter writes nothing and the first scatter's value stands. -/
theorem sym_upper_of_lt (r : Fin 2080) (k : Fin 32) (h : row r < col r) :
    (V m c main_v28 : (⟨S64x64x32, .f32⟩ : BufTy).Contents (Elt Ideal)) (ix3 (row r) (col r) k)
      = (V m c main_arg3 : (⟨S2080x32, .f32⟩ : BufTy).Contents (Elt Ideal)) (ix2 r k) := by
  rw [V_v28]
  refine (scatter_miss_of _ _ _ col row (idxB0 m c) (idxB1 m c) (row r) (col r) k (fun r' hr' => by
    have h1 := row_le_col r'
    rw [hr'.1, hr'.2] at h1
    exact absurd h (not_lt.2 h1))).trans ?_
  rw [V_v14]
  exact scatter_hit_of _ _ _ row col (idxA0 m c) (idxA1 m c) pair_inj r k

/-- Entry (row r, col r, k) of the symmetric array is theta[r, k]. -/
theorem sym_upper (r : Fin 2080) (k : Fin 32) :
    (V m c main_v28 : (⟨S64x64x32, .f32⟩ : BufTy).Contents (Elt Ideal)) (ix3 (row r) (col r) k)
      = (V m c main_arg3 : (⟨S2080x32, .f32⟩ : BufTy).Contents (Elt Ideal)) (ix2 r k) := by
  rcases lt_or_eq_of_le (row_le_col r) with h | h
  · exact sym_upper_of_lt m c r k h
  · have e : (ix3 (row r) (col r) k : S64x64x32.Idx) = ix3 (col r) (row r) k := by rw [h]
    rw [e]; exact sym_lower m c r k

end Program

end Cert.KernelIdeal.KerWeights

end
-- ==== Proof.Spec.lean ====
/-
  The two programs' results as functions of the argument arrays, entry by entry, over the extended reals.

  Both compute  out[p, n] = c[p] + Σ_m Q[p, m] · z[m, n]  with  z = (phi stacked over quad),  quad[k, n] a quadratic
  form in column n of phi with coefficients theta[·, k] over the upper-triangular pairs (i ≤ j) of 0..63.
  The kernel reads the quadratic form through a dense batched weight array Wb[i·32 + k, j] (a symmetric matrix per k);
  the reference sums theta[r, k] · phi[row r, n] · phi[col r, n] over the 2080 pairs r.
-/
import Idealize.ShloMosaic.PureOps.Ideal
import Idealize.ShloMosaic.Lib.ValueIdx

noncomputable section

open scoped BigOperators

namespace Cert.Spec

open Idealize.ShloMosaic Idealize.ShloMosaic.ValueIdx

/-- Row `32·i + k` of the batched weights, as an index below 2048. -/
def wrow (i : Fin 64) (k : Fin 32) : Fin 2048 := ⟨i.val * 32 + k.val, by omega⟩

/-- The quadratic form through the batched weights: Σ_i phi[i,n] · (Σ_j Wb[32·i + k, j] · phi[j,n]). -/
def quadKer (phi : (⟨2, ![64, 65536]⟩ : Shape).Idx → EReal) (Wb : (⟨2, ![2048, 64]⟩ : Shape).Idx → EReal)
    (k : Fin 32) (n : Fin 65536) : EReal :=
  ∑ i : Fin 64, phi (ix2 i n) * ∑ j : Fin 64, Wb (ix2 (wrow i k) j) * phi (ix2 j n)

/-- The quadratic form over the listed pairs: Σ_r theta[r,k] · (phi[row r, n] · phi[col r, n]). -/
def quadRef (phi : (⟨2, ![64, 65536]⟩ : Shape).Idx → EReal) (theta : (⟨2, ![2080, 32]⟩ : Shape).Idx → EReal)
    (row col : Fin 2080 → Fin 64) (k : Fin 32) (n : Fin 65536) : EReal :=
  ∑ r : Fin 2080, theta (ix2 r k) * (phi (ix2 (row r) n) * phi (ix2 (col r) n))

/-- phi stacked over a [32, 65536] array `q`, read at row `mm` of 96. -/
def stack (phi : (⟨2, ![64, 65536]⟩ : Shape).Idx → EReal) (q : Fin 32 → Fin 65536 → EReal)
    (mm : Fin 96) (n : Fin 65536) : EReal :=
  if h : mm.val < 64 then phi (ix2 ⟨mm.val, h⟩ n) else q ⟨mm.val - 64, by omega⟩ n

/-- The kernel's entry (p, n): the product with the stacked array, then the column c added on the right. -/
def outKer (phi : (⟨2, ![64, 65536]⟩ : Shape).Idx → EReal) (Wb : (⟨2, ![2048, 64]⟩ : Shape).Idx → EReal)
    (Qb : (⟨2, ![2048, 96]⟩ : Shape).Idx → EReal) (cc : (⟨2, ![2048, 1]⟩ : Shape).Idx → EReal)
    (p : Fin 2048) (n : Fin 65536) : EReal :=
  (∑ mm : Fin 96, Qb (ix2 p mm) * stack phi (quadKer phi Wb) mm n) + cc (ix2 p 0)

/-- The reference's entry (p, n): the column c added on the left of the product with the stacked array. -/
def outRef (cc : (⟨2, ![2048, 1]⟩ : Shape).Idx → EReal) (Q : (⟨2, ![2048, 96]⟩ : Shape).Idx → EReal)
    (phi : (⟨2, ![64, 65536]⟩ : Shape).Idx → EReal) (theta : (⟨2, ![2080, 32]⟩ : Shape).Idx → EReal)
    (row col : Fin 2080 → Fin 64) (p : Fin 2048) (n : Fin 65536) : EReal :=
  cc (ix2 p 0) + ∑ mm : Fin 96, Q (ix2 p mm) * stack phi (quadRef phi theta row col) mm n

end Cert.Spec

end
-- ==== Proof.LibQuadForm.lean ====
/-
  A quadratic form read through a symmetric matrix equals the same form summed once over the pairs i ≤ j.

  If the pairs (row r, col r), r < M, list every (i, j) with i ≤ j exactly once, and a symmetric matrix w carries
  the coefficient a r on the diagonal pair r and half of it on each of the two off-diagonal places of pair r, then
  Σ_i x_i · (Σ_j w_ij · x_j) = Σ_r a_r · (x_(row r) · x_(col r)).
-/
import Mathlib.Data.Real.Basic
import Mathlib.Algebra.BigOperators.Ring.Finset
import Mathlib.Algebra.BigOperators.Group.Finset.Sigma
import Mathlib.Data.Fintype.BigOperators
import Mathlib.Tactic.Ring

open scoped BigOperators

namespace Cert.LibQuadForm

/-- A double sum of a symmetric function counts each off-diagonal pair twice: it is the sum over i ≤ j with
weight 1 on the diagonal and 2 off it. -/
theorem sum_sum_symm {N : ℕ} (F : Fin N → Fin N → ℝ) (hF : ∀ i j, F i j = F j i) :
    ∑ i, ∑ j, F i j = ∑ i, ∑ j, (if i ≤ j then F i j * (if i = j then 1 else 2) else 0) := by
  have hsplit : ∀ i j, F i j = (if i ≤ j then F i j else 0) + (if j < i then F i j else 0) := by
    intro i j
    by_cases h : i ≤ j
    · simp [h, not_lt.mpr h]
    · simp [h, not_le.mp h]
  have hswap : ∑ i, ∑ j, (if j < i then F i j else 0) = ∑ i, ∑ j, (if i < j then F i j else 0) := by
    rw [Finset.sum_comm]
    refine Finset.sum_congr rfl (fun i _ => Finset.sum_congr rfl (fun j _ => ?_))
    rw [hF j i]
  calc ∑ i, ∑ j, F i j
      = ∑ i, ∑ j, ((if i ≤ j then F i j else 0) + (if j < i then F i j else 0)) :=
        Finset.sum_congr rfl (fun i _ => Finset.sum_congr rfl (fun j _ => hsplit i j))
    _ = ∑ i, ∑ j, (if i ≤ j then F i j else 0) + ∑ i, ∑ j, (if j < i then F i j else 0) := by
        simp only [Finset.sum_add_distrib]
    _ = ∑ i, ∑ j, (if i ≤ j then F i j else 0) + ∑ i, ∑ j, (if i < j then F i j else 0) := by rw [hswap]
    _ = ∑ i, ∑ j, ((if i ≤ j then F i j else 0) + (if i < j then F i j else 0)) := by
        simp only [Finset.sum_add_distrib]
    _ = ∑ i, ∑ j, (if i ≤ j then F i j * (if i = j then 1 else 2) else 0) := by
        refine Finset.sum_congr rfl (fun i _ => Finset.sum_congr rfl (fun j _ => ?_))
        rcases lt_trichotomy i j with h | h | h
        · simp [h, h.le, h.ne]; ring
        · subst h; simp
        · simp [not_le.mpr h, not_lt.mpr h.le]

/-- The quadratic form through a symmetric matrix with halved off-diagonal coefficients is the form summed once
over the listed pairs i ≤ j. -/
theorem quadForm_eq_sum_pairs {N M : ℕ} (x : Fin N → ℝ) (a : Fin M → ℝ) (row col : Fin M → Fin N)
    (hle : ∀ r, row r ≤ col r)
    (hinj : ∀ r s, row r = row s → col r = col s → r = s)
    (hsurj : ∀ i j : Fin N, i ≤ j → ∃ r, row r = i ∧ col r = j)
    (w : Fin N → Fin N → ℝ)
    (hw : ∀ r, w (row r) (col r) = a r * (if row r = col r then 1 else 1 / 2) ∧
               w (col r) (row r) = a r * (if row r = col r then 1 else 1 / 2)) :
    ∑ i, x i * ∑ j, w i j * x j = ∑ r, a r * (x (row r) * x (col r)) := by
  have hsym : ∀ i j, w i j = w j i := by
    intro i j
    rcases le_total i j with h | h
    · obtain ⟨r, rfl, rfl⟩ := hsurj i j h
      rw [(hw r).1, (hw r).2]
    · obtain ⟨r, rfl, rfl⟩ := hsurj j i h
      rw [(hw r).1, (hw r).2]
  have h1 : ∑ i, x i * ∑ j, w i j * x j = ∑ i, ∑ j, w i j * (x i * x j) := by
    refine Finset.sum_congr rfl (fun i _ => ?_)
    rw [Finset.mul_sum]
    refine Finset.sum_congr rfl (fun j _ => ?_)
    ring
  have h2 := sum_sum_symm (fun i j => w i j * (x i * x j))
    (fun i j => by simp only [hsym i j, mul_comm (x i) (x j)])
  rw [h1, h2, ← Finset.sum_product', ← Finset.sum_filter]
  symm
  refine Finset.sum_bij (fun r _ => (row r, col r)) ?_ ?_ ?_ ?_
  · intro r _
    simp [hle r]
  · intro r _ s _ h
    exact hinj r s (congrArg Prod.fst h) (congrArg Prod.snd h)
  · rintro ⟨i, j⟩ hp
    obtain ⟨r, hr⟩ := hsurj i j (by simpa using hp)
    exact ⟨r, Finset.mem_univ r, by rw [hr.1, hr.2]⟩
  · intro r _
    simp only []
    rw [(hw r).1]
    by_cases h : row r = col r
    · simp [h]
    · simp [h]; ring

end Cert.LibQuadForm
-- ==== Proof.QuadLaw.lean ====
/-
  The algebraic law joining the two programs: the quadratic form read through the dense symmetric weights equals
  the form summed over the 2080 pairs i ≤ j, and hence the two results agree entry by entry.

  All entries involved in the quadratic form are real (finite), so the identity is the real one of LibQuadForm with
  the coercion into the extended reals pushed through the finite sums; the final step only uses commutativity of
  addition, which holds on all of the extended reals.
-/
import Idealize.ShloMosaic.PureOps.Ideal
import Idealize.ShloMosaic.Lib.ValueIdx
import proofs.«166319_j26499948216761_1_alg».proof.Proof.Spec
import proofs.«166319_j26499948216761_1_alg».proof.Proof.LibQuadForm

noncomputable section

open scoped BigOperators

namespace Cert.QuadLaw

open Cert.Spec Idealize.ShloMosaic Idealize.ShloMosaic.ValueIdx

/-- The weight of a pair inside the symmetric matrix: 1 on the diagonal, 1/2 off it. -/
def mcoef (i j : Fin 64) : EReal := if i = j then 1 else ((1 / 2 : ℝ) : EReal)

theorem mcoef_eq_coe (i j : Fin 64) : mcoef i j = (((if i = j then 1 else 1 / 2 : ℝ)) : EReal) := by
  unfold mcoef
  split_ifs <;> simp

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem quadKer_eq_quadRef (phi : (⟨2, ![64, 65536]⟩ : Shape).Idx → EReal)
    (theta : (⟨2, ![2080, 32]⟩ : Shape).Idx → EReal) (Wb : (⟨2, ![2048, 64]⟩ : Shape).Idx → EReal)
    (row col : Fin 2080 → Fin 64)
    (hphi : ∀ idx, ∃ x : ℝ, phi idx = (x : EReal)) (htheta : ∀ idx, ∃ x : ℝ, theta idx = (x : EReal))
    (hle : ∀ r, row r ≤ col r) (hinj : ∀ r s, row r = row s → col r = col s → r = s)
    (hsurj : ∀ i j : Fin 64, i ≤ j → ∃ r, row r = i ∧ col r = j)
    (hW : ∀ (r : Fin 2080) (k : Fin 32),
      Wb (ix2 (wrow (row r) k) (col r)) = theta (ix2 r k) * mcoef (row r) (col r) ∧
      Wb (ix2 (wrow (col r) k) (row r)) = theta (ix2 r k) * mcoef (row r) (col r))
    (k : Fin 32) (n : Fin 65536) : quadKer phi Wb k n = quadRef phi theta row col k n := by
  choose xphi hxphi using hphi
  choose xth hxth using htheta
  -- every weight in a row 32·i + k is real
  have hWreal : ∀ i j : Fin 64, ∃ y : ℝ, Wb (ix2 (wrow i k) j) = (y : EReal) := by
    intro i j
    rcases le_total i j with h | h
    · obtain ⟨r, rfl, rfl⟩ := hsurj i j h
      exact ⟨xth (ix2 r k) * (if row r = col r then 1 else 1 / 2), by
        rw [(hW r k).1, hxth, mcoef_eq_coe, EReal.coe_mul]⟩
    · obtain ⟨r, rfl, rfl⟩ := hsurj j i h
      exact ⟨xth (ix2 r k) * (if row r = col r then 1 else 1 / 2), by
        rw [(hW r k).2, hxth, mcoef_eq_coe, EReal.coe_mul]⟩
  choose w hwc using hWreal
  have hw : ∀ r, w (row r) (col r) = xth (ix2 r k) * (if row r = col r then 1 else 1 / 2) ∧
      w (col r) (row r) = xth (ix2 r k) * (if row r = col r then 1 else 1 / 2) := by
    intro r
    constructor
    · have := (hW r k).1
      rw [hwc, hxth, mcoef_eq_coe, ← EReal.coe_mul] at this
      exact EReal.coe_eq_coe_iff.mp this
    · have := (hW r k).2
      rw [hwc, hxth, mcoef_eq_coe, ← EReal.coe_mul] at this
      exact EReal.coe_eq_coe_iff.mp this
  have hreal := Cert.LibQuadForm.quadForm_eq_sum_pairs (fun i : Fin 64 => xphi (ix2 i n))
    (fun r : Fin 2080 => xth (ix2 r k)) row col hle hinj hsurj w hw
  unfold quadKer quadRef
  simp only [hxphi, hxth, hwc, ← EReal.coe_mul, ← coe_finset_sum]
  exact congrArg _ hreal

theorem outKer_eq_outRef (cc : (⟨2, ![2048, 1]⟩ : Shape).Idx → EReal)
    (Q : (⟨2, ![2048, 96]⟩ : Shape).Idx → EReal)
    (phi : (⟨2, ![64, 65536]⟩ : Shape).Idx → EReal)
    (theta : (⟨2, ![2080, 32]⟩ : Shape).Idx → EReal) (Wb : (⟨2, ![2048, 64]⟩ : Shape).Idx → EReal)
    (Qb : (⟨2, ![2048, 96]⟩ : Shape).Idx → EReal)
    (row col : Fin 2080 → Fin 64)
    (hphi : ∀ idx, ∃ x : ℝ, phi idx = (x : EReal)) (htheta : ∀ idx, ∃ x : ℝ, theta idx = (x : EReal))
    (hle : ∀ r, row r ≤ col r) (hinj : ∀ r s, row r = row s → col r = col s → r = s)
    (hsurj : ∀ i j : Fin 64, i ≤ j → ∃ r, row r = i ∧ col r = j)
    (hW : ∀ (r : Fin 2080) (k : Fin 32),
      Wb (ix2 (wrow (row r) k) (col r)) = theta (ix2 r k) * mcoef (row r) (col r) ∧
      Wb (ix2 (wrow (col r) k) (row r)) = theta (ix2 r k) * mcoef (row r) (col r))
    (hQ : Qb = Q) (p : Fin 2048) (n : Fin 65536) :
    outKer phi Wb Qb cc p n = outRef cc Q phi theta row col p n := by
  have hq : quadKer phi Wb = quadRef phi theta row col := by
    funext k n
    exact quadKer_eq_quadRef phi theta Wb row col hphi htheta hle hinj hsurj hW k n
  unfold outKer outRef
  rw [hq, hQ, add_comm]

end Cert.QuadLaw

end
-- ==== Proof.LibBatchReads.lean ====
/- Arrays [B, n, m] whose leading axis is a batch, read at an index (b, i, j) over the extended reals, any extents:
   the vector-unit sum along the last axis at (b, i) is the plain sum over j, along the middle axis at (b, j) the plain sum
   over i; the sum along axis 1 of a four-axis array [B, C, n, m] at (b, i, j) is the plain sum over the C planes; the host's
   sum over BOTH trailing axes into [B] at b is the initial value plus the double sum over (i, j); a [B, n] array cast to a
   column block [B, n, 1] and a [B, m] array cast to a row block [B, 1, m], and either block repeated to [B, n, m]; a window
   of [B, n, m] shifted along the last or the middle axis; and the host's forms of the single-axis sums and of the blocks.
   Names no program. -/
import Idealize.ShloMosaic.PureOps.Ideal
import Idealize.ShloMosaic.PureOps.Ideal.Laws
import Idealize.ShloMosaic.Lib.Pipeline.Value
import Idealize.ShloMosaic.Lib.ValueIdx
import Mathlib.Algebra.BigOperators.Fin

noncomputable section

namespace Cert.LibBatchReads

open Idealize.ShloMosaic Idealize.ShloMosaic.ValueIdx

variable {B n m : ℕ}

/-! ## Sums along one axis -/

/-- Result index (b, i) of a reduction along the last axis, with the dropped coordinate k put back, is (b, i, k). -/
theorem lift_last (h : (⟨3, ![B, n, m]⟩ : Shape).Reduces [(2 : Fin 3)] ⟨2, ![B, n]⟩) (b : Fin B) (i : Fin n) (k : Fin m) :
    h.lift (ix2 b i) k = ix3 b i k := by
  funext c
  apply Fin.ext
  match c with
  | ⟨0, _⟩ => rfl
  | ⟨1, _⟩ => rfl
  | ⟨2, _⟩ => rfl

/-- The sum along the last axis, at (b, i). -/
theorem sumLast_apply {φ : FTy} (src : FVec Ideal ⟨3, ![B, n, m]⟩ φ) (acc : BitVec φ.bits)
    (h : (⟨3, ![B, n, m]⟩ : Shape).Reduces [(2 : Fin 3)] ⟨2, ![B, n]⟩) (hφ : FKind.Formats φ)
    (hacc : acc = FKind.add.neutral φ hφ) (b : Fin B) (i : Fin n) :
    multiReduction .add [(2 : Fin 3)] ⟨2, ![B, n]⟩ src acc h hφ hacc (ix2 b i) = ∑ k : Fin m, src (ix3 b i k) :=
  (Ideal.multiReduction_add_single src acc h hφ hacc (ix2 b i)).trans
    (Finset.sum_congr rfl fun k _ => congrArg src (lift_last h b i k))

/-- Result index (b, j) of a reduction along the middle axis, with the dropped coordinate k put back, is (b, k, j). -/
theorem lift_mid (h : (⟨3, ![B, n, m]⟩ : Shape).Reduces [(1 : Fin 3)] ⟨2, ![B, m]⟩) (b : Fin B) (j : Fin m) (k : Fin n) :
    h.lift (ix2 b j) k = ix3 b k j := by
  funext c
  apply Fin.ext
  match c with
  | ⟨0, _⟩ => rfl
  | ⟨1, _⟩ => rfl
  | ⟨2, _⟩ => rfl

/-- The sum along the middle axis, at (b, j). -/
theorem sumMid_apply {φ : FTy} (src : FVec Ideal ⟨3, ![B, n, m]⟩ φ) (acc : BitVec φ.bits)
    (h : (⟨3, ![B, n, m]⟩ : Shape).Reduces [(1 : Fin 3)] ⟨2, ![B, m]⟩) (hφ : FKind.Formats φ)
    (hacc : acc = FKind.add.neutral φ hφ) (b : Fin B) (j : Fin m) :
    multiReduction .add [(1 : Fin 3)] ⟨2, ![B, m]⟩ src acc h hφ hacc (ix2 b j) = ∑ k : Fin n, src (ix3 b k j) :=
  (Ideal.multiReduction_add_single src acc h hφ hacc (ix2 b j)).trans
    (Finset.sum_congr rfl fun k _ => congrArg src (lift_mid h b j k))

variable {C : ℕ}

/-- Result index (b, i, j) of a reduction of [B, C, n, m] along axis 1, with the dropped coordinate k put back, is
    (b, k, i, j). -/
theorem lift_planes (h : (⟨4, ![B, C, n, m]⟩ : Shape).Reduces [(1 : Fin 4)] ⟨3, ![B, n, m]⟩) (b : Fin B) (i : Fin n)
    (j : Fin m) (k : Fin C) : h.lift (ix3 b i j) k = ix4 b k i j := by
  funext c
  apply Fin.ext
  match c with
  | ⟨0, _⟩ => rfl
  | ⟨1, _⟩ => rfl
  | ⟨2, _⟩ => rfl
  | ⟨3, _⟩ => rfl

/-- The sum over the C planes, at (b, i, j). -/
theorem sumPlanes_apply {φ : FTy} (src : FVec Ideal ⟨4, ![B, C, n, m]⟩ φ) (acc : BitVec φ.bits)
    (h : (⟨4, ![B, C, n, m]⟩ : Shape).Reduces [(1 : Fin 4)] ⟨3, ![B, n, m]⟩) (hφ : FKind.Formats φ)
    (hacc : acc = FKind.add.neutral φ hφ) (b : Fin B) (i : Fin n) (j : Fin m) :
    multiReduction .add [(1 : Fin 4)] ⟨3, ![B, n, m]⟩ src acc h hφ hacc (ix3 b i j) = ∑ k : Fin C, src (ix4 b k i j) :=
  (Ideal.multiReduction_add_single src acc h hφ hacc (ix3 b i j)).trans
    (Finset.sum_congr rfl fun k _ => congrArg src (lift_planes h b i j k))

/-! ## The host's sum over both trailing axes -/

/-- The host's sum of [B, n, m] over axes 1 and 2 into [B], at b: the initial value plus the double sum over (i, j). -/
theorem hostSumTrailing_apply (h : (⟨3, ![B, n, m]⟩ : Shape).ReducesTo [(1 : Fin 3), (2 : Fin 3)] ⟨1, ![B]⟩)
    (x : (⟨3, ![B, n, m]⟩ : Shape).Idx → EReal) (init : EReal) (b : Fin B) :
    Ideal.hostReduceAdd h x init (ix1 b) = init + ∑ i : Fin n, ∑ j : Fin m, x (ix3 b i j) := by
  unfold Ideal.hostReduceAdd
  refine congrArg (init + ·) ?_
  rw [← Finset.sum_product' (Finset.univ : Finset (Fin n)) (Finset.univ : Finset (Fin m)) (fun i j => x (ix3 b i j))]
  refine Finset.sum_nbij' (fun i => ((i 1 : Fin n), (i 2 : Fin m))) (fun pq => ix3 b pq.1 pq.2) ?_ ?_ ?_ ?_ ?_
  · intro i _; exact Finset.mem_product.2 ⟨Finset.mem_univ _, Finset.mem_univ _⟩
  · intro pq _
    refine Finset.mem_filter.2 ⟨Finset.mem_univ _, ?_⟩
    funext c
    apply Fin.ext
    match c with
    | ⟨0, _⟩ => rfl
  · intro i hi
    have hj := (Finset.mem_filter.1 hi).2
    have h0 : (i 0).val = b.val := congrArg (fun (f : (⟨1, ![B]⟩ : Shape).Idx) => (f 0).val) hj
    funext c
    apply Fin.ext
    match c with
    | ⟨0, _⟩ => exact h0.symm
    | ⟨1, _⟩ => rfl
    | ⟨2, _⟩ => rfl
  · intro pq _; rfl
  · intro i hi
    have hj := (Finset.mem_filter.1 hi).2
    have h0 : (i 0).val = b.val := congrArg (fun (f : (⟨1, ![B]⟩ : Shape).Idx) => (f 0).val) hj
    refine congrArg x ?_
    funext c
    apply Fin.ext
    match c with
    | ⟨0, _⟩ => exact h0
    | ⟨1, _⟩ => rfl
    | ⟨2, _⟩ => rfl

/-- The host's sum of [B, n, m] along the last axis, at (b, i): the initial value plus the plain sum over j. -/
theorem hostSumLast_apply (x : (⟨3, ![B, n, m]⟩ : Shape).Idx → EReal) (init : EReal)
    (h : (⟨3, ![B, n, m]⟩ : Shape).ReducesTo [(2 : Fin 3)] ⟨2, ![B, n]⟩) (b : Fin B) (i : Fin n) :
    Ideal.hostReduceAdd h x init (ix2 b i) = init + ∑ k : Fin m, x (ix3 b i k) := by
  have h' : (⟨3, ![B, n, m]⟩ : Shape).Reduces [(2 : Fin 3)] ⟨2, ![B, n]⟩ :=
    h.elim fun hr hs => ⟨hr, (by decide : 0 < 2), hs⟩
  rw [Ideal.hostReduceAdd_single h h']
  exact congrArg (init + ·) (Finset.sum_congr rfl fun k _ => congrArg x (lift_last h' b i k))

/-- The host's sum of [B, n, m] along the middle axis, at (b, j): the initial value plus the plain sum over i. -/
theorem hostSumMid_apply (x : (⟨3, ![B, n, m]⟩ : Shape).Idx → EReal) (init : EReal)
    (h : (⟨3, ![B, n, m]⟩ : Shape).ReducesTo [(1 : Fin 3)] ⟨2, ![B, m]⟩) (b : Fin B) (j : Fin m) :
    Ideal.hostReduceAdd h x init (ix2 b j) = init + ∑ k : Fin n, x (ix3 b k j) := by
  have h' : (⟨3, ![B, n, m]⟩ : Shape).Reduces [(1 : Fin 3)] ⟨2, ![B, m]⟩ :=
    h.elim fun hr hs => ⟨hr, (by decide : 0 < 2), hs⟩
  rw [Ideal.hostReduceAdd_single h h']
  exact congrArg (init + ·) (Finset.sum_congr rfl fun k _ => congrArg x (lift_mid h' b j k))

/-- The host's sum of [B, C, n, m] over the C planes, at (b, i, j): the initial value plus the plain sum over the planes. -/
theorem hostSumPlanes_apply (x : (⟨4, ![B, C, n, m]⟩ : Shape).Idx → EReal) (init : EReal)
    (h : (⟨4, ![B, C, n, m]⟩ : Shape).ReducesTo [(1 : Fin 4)] ⟨3, ![B, n, m]⟩) (b : Fin B) (i : Fin n) (j : Fin m) :
    Ideal.hostReduceAdd h x init (ix3 b i j) = init + ∑ k : Fin C, x (ix4 b k i j) := by
  have h' : (⟨4, ![B, C, n, m]⟩ : Shape).Reduces [(1 : Fin 4)] ⟨3, ![B, n, m]⟩ :=
    h.elim fun hr hs => ⟨hr, (by decide : 0 < 3), hs⟩
  rw [Ideal.hostReduceAdd_single h h']
  exact congrArg (init + ·) (Finset.sum_congr rfl fun k _ => congrArg x (lift_planes h' b i j k))

/-! ## Column blocks and row blocks -/

variable {α : Type}

/-- A [B, n] array cast to the column block [B, n, 1] reads, at (b, i, u), its entry (b, i). -/
theorem castCol_apply (v : (⟨2, ![B, n]⟩ : Shape).Idx → α) (h : (⟨2, ![B, n]⟩ : Shape).ShapeCasts ⟨3, ![B, n, 1]⟩)
    (b : Fin B) (i : Fin n) (u : Fin 1) : shapeCast ⟨3, ![B, n, 1]⟩ v h (ix3 b i u) = v (ix2 b i) :=
  shapeCast_apply v h _ _ (by
    have hu : u.val = 0 := by omega
    rw [Shape.rowMajor_val_two, Shape.rowMajor_val_three]
    show b.val * n + i.val = (b.val * n + i.val) * 1 + u.val
    rw [hu]; omega)

/-- A [B, m] array cast to the row block [B, 1, m] reads, at (b, u, j), its entry (b, j). -/
theorem castRow_apply (v : (⟨2, ![B, m]⟩ : Shape).Idx → α) (h : (⟨2, ![B, m]⟩ : Shape).ShapeCasts ⟨3, ![B, 1, m]⟩)
    (b : Fin B) (u : Fin 1) (j : Fin m) : shapeCast ⟨3, ![B, 1, m]⟩ v h (ix3 b u j) = v (ix2 b j) :=
  shapeCast_apply v h _ _ (by
    have hu : u.val = 0 := by omega
    rw [Shape.rowMajor_val_two, Shape.rowMajor_val_three]
    show b.val * m + j.val = (b.val * 1 + u.val) * m + j.val
    rw [hu, Nat.mul_one, Nat.add_zero])

/-- A column block [B, n, 1] repeated along the last axis reads, at (b, i, j), its entry (b, i, 0). -/
theorem repeatCol_apply (w : (⟨3, ![B, n, 1]⟩ : Shape).Idx → α) (h : (⟨3, ![B, n, 1]⟩ : Shape).Broadcasts ⟨3, ![B, n, m]⟩)
    (b : Fin B) (i : Fin n) (j : Fin m) : broadcastTo ⟨3, ![B, n, m]⟩ w h (ix3 b i j) = w (ix3 b i (0 : Fin 1)) := by
  refine broadcastTo_apply w h (ix3 b i j) (ix3 b i (0 : Fin 1)) fun ax => ?_
  match ax with
  | ⟨0, _⟩ =>
    show b.val = if B = 1 then 0 else b.val
    split
    · have := b.isLt; omega
    · rfl
  | ⟨1, _⟩ =>
    show i.val = if n = 1 then 0 else i.val
    split
    · have := i.isLt; omega
    · rfl
  | ⟨2, _⟩ => rfl

/-- A row block [B, 1, m] repeated along the middle axis reads, at (b, i, j), its entry (b, 0, j). -/
theorem repeatRow_apply (w : (⟨3, ![B, 1, m]⟩ : Shape).Idx → α) (h : (⟨3, ![B, 1, m]⟩ : Shape).Broadcasts ⟨3, ![B, n, m]⟩)
    (b : Fin B) (i : Fin n) (j : Fin m) : broadcastTo ⟨3, ![B, n, m]⟩ w h (ix3 b i j) = w (ix3 b (0 : Fin 1) j) := by
  refine broadcastTo_apply w h (ix3 b i j) (ix3 b (0 : Fin 1) j) fun ax => ?_
  match ax with
  | ⟨0, _⟩ =>
    show b.val = if B = 1 then 0 else b.val
    split
    · have := b.isLt; omega
    · rfl
  | ⟨1, _⟩ => rfl
  | ⟨2, _⟩ =>
    show j.val = if m = 1 then 0 else j.val
    split
    · have := j.isLt; omega
    · rfl

/-- The host's forms of the same four: a [B, n] array set up as a column block, -/
theorem hostCol_apply (v : (⟨2, ![B, n]⟩ : Shape).Idx → α)
    (h : (⟨2, ![B, n]⟩ : Shape).BroadcastsInDim ⟨3, ![B, n, 1]⟩ ![0, 1]) (b : Fin B) (i : Fin n) (u : Fin 1) :
    broadcastInDim ⟨3, ![B, n, 1]⟩ ![0, 1] h v (ix3 b i u) = v (ix2 b i) := by
  refine broadcastInDim_apply ![0, 1] h v (ix3 b i u) (ix2 b i) fun ax => ?_
  match ax with
  | ⟨0, _⟩ =>
    show b.val = if B = 1 then 0 else b.val
    split
    · have := b.isLt; omega
    · rfl
  | ⟨1, _⟩ =>
    show i.val = if n = 1 then 0 else i.val
    split
    · have := i.isLt; omega
    · rfl

/-- a [B, m] array set up as a row block, -/
theorem hostRow_apply (v : (⟨2, ![B, m]⟩ : Shape).Idx → α)
    (h : (⟨2, ![B, m]⟩ : Shape).BroadcastsInDim ⟨3, ![B, 1, m]⟩ ![0, 2]) (b : Fin B) (u : Fin 1) (j : Fin m) :
    broadcastInDim ⟨3, ![B, 1, m]⟩ ![0, 2] h v (ix3 b u j) = v (ix2 b j) := by
  refine broadcastInDim_apply ![0, 2] h v (ix3 b u j) (ix2 b j) fun ax => ?_
  match ax with
  | ⟨0, _⟩ =>
    show b.val = if B = 1 then 0 else b.val
    split
    · have := b.isLt; omega
    · rfl
  | ⟨1, _⟩ =>
    show j.val = if m = 1 then 0 else j.val
    split
    · have := j.isLt; omega
    · rfl

/-- a column block repeated along the last axis, -/
theorem hostRepeatCol_apply (w : (⟨3, ![B, n, 1]⟩ : Shape).Idx → α)
    (h : (⟨3, ![B, n, 1]⟩ : Shape).BroadcastsInDim ⟨3, ![B, n, m]⟩ ![0, 1, 2]) (b : Fin B) (i : Fin n) (j : Fin m) :
    broadcastInDim ⟨3, ![B, n, m]⟩ ![0, 1, 2] h w (ix3 b i j) = w (ix3 b i (0 : Fin 1)) := by
  refine broadcastInDim_apply ![0, 1, 2] h w (ix3 b i j) (ix3 b i (0 : Fin 1)) fun ax => ?_
  match ax with
  | ⟨0, _⟩ =>
    show b.val = if B = 1 then 0 else b.val
    split
    · have := b.isLt; omega
    · rfl
  | ⟨1, _⟩ =>
    show i.val = if n = 1 then 0 else i.val
    split
    · have := i.isLt; omega
    · rfl
  | ⟨2, _⟩ => rfl

/-- and a row block repeated along the middle axis. -/
theorem hostRepeatRow_apply (w : (⟨3, ![B, 1, m]⟩ : Shape).Idx → α)
    (h : (⟨3, ![B, 1, m]⟩ : Shape).BroadcastsInDim ⟨3, ![B, n, m]⟩ ![0, 1, 2]) (b : Fin B) (i : Fin n) (j : Fin m) :
    broadcastInDim ⟨3, ![B, n, m]⟩ ![0, 1, 2] h w (ix3 b i j) = w (ix3 b (0 : Fin 1) j) := by
  refine broadcastInDim_apply ![0, 1, 2] h w (ix3 b i j) (ix3 b (0 : Fin 1) j) fun ax => ?_
  match ax with
  | ⟨0, _⟩ =>
    show b.val = if B = 1 then 0 else b.val
    split
    · have := b.isLt; omega
    · rfl
  | ⟨1, _⟩ => rfl
  | ⟨2, _⟩ =>
    show j.val = if m = 1 then 0 else j.val
    split
    · have := j.isLt; omega
    · rfl

/-- A scalar repeated (host) over any shape reads its one entry everywhere. -/
theorem hostScalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply ![] h v j ix0 fun ax => ax.elim0

/-! ## Shifted windows -/

variable {n' m' : ℕ}

/-- The window of [B, n, m] that starts at column o, read at (b, i, j): the array at (b, i, o + j). -/
theorem windowLast_apply (o : ℕ) (x : (⟨3, ![B, n, m]⟩ : Shape).Idx → α)
    (h : (⟨3, ![B, n, m]⟩ : Shape).Slices ![0, 0, o] ⟨3, ![B, n, m']⟩) (b : Fin B) (i : Fin n) (j : Fin m') (k : Fin m)
    (hk : k.val = o + j.val) : extractStridedSlice ⟨3, ![B, n, m']⟩ ![0, 0, o] x h (ix3 b i j) = x (ix3 b i k) :=
  extractStridedSlice_apply ![0, 0, o] x h (ix3 b i j) (ix3 b i k) fun a =>
    match a with
    | ⟨0, _⟩ => by show b.val = 0 + b.val; omega
    | ⟨1, _⟩ => by show i.val = 0 + i.val; omega
    | ⟨2, _⟩ => by show k.val = o + j.val; exact hk

/-- The window of [B, n, m] that starts at row o, read at (b, i, j): the array at (b, o + i, j). -/
theorem windowMid_apply (o : ℕ) (x : (⟨3, ![B, n, m]⟩ : Shape).Idx → α)
    (h : (⟨3, ![B, n, m]⟩ : Shape).Slices ![0, o, 0] ⟨3, ![B, n', m]⟩) (b : Fin B) (i : Fin n') (j : Fin m) (k : Fin n)
    (hk : k.val = o + i.val) : extractStridedSlice ⟨3, ![B, n', m]⟩ ![0, o, 0] x h (ix3 b i j) = x (ix3 b k j) :=
  extractStridedSlice_apply ![0, o, 0] x h (ix3 b i j) (ix3 b k j) fun a =>
    match a with
    | ⟨0, _⟩ => by show b.val = 0 + b.val; omega
    | ⟨1, _⟩ => by show k.val = o + i.val; exact hk
    | ⟨2, _⟩ => by show j.val = 0 + j.val; omega

end Cert.LibBatchReads

end
-- ==== Proof.KerWeightRead.lean ====
/-
  The batched weights read at an entry, and the mask's entries.

  The [2048, 64] weight array is the product of a [64, 64, 32] array T with a [64, 64] mask M repeated along the
  last axis, transposed to [64, 32, 64] and reshaped row-major: its entry (32·i + k, j) is entry (i, k, j) of the
  transposed array, that is T[i, j, k] · M[i, j]. The mask is 1/2 · 1 + 1/2 · [i = j]: 1 on the diagonal, 1/2 off it.
-/
import proofs.«166319_j26499948216761_1_alg».proof.Proof.KerHost
import proofs.«166319_j26499948216761_1_alg».proof.Proof.Spec
import proofs.«166319_j26499948216761_1_alg».proof.Proof.QuadLaw
import proofs.«166319_j26499948216761_1_alg».proof.Proof.LibBatchReads
import Idealize.ShloMosaic.Lib.ValueIdx
import Idealize.ShloMosaic.Lib.Pipeline.Value
import Idealize.ShloMosaic.PureOps.Ideal.Laws

noncomputable section

namespace Cert.KernelIdeal.KerWeightRead

open Cert.KernelIdeal Cert.KernelIdeal.Gen Idealize.ShloMosaic Idealize.ShloMosaic.ValueIdx

attribute [local instance] Cert.KernelIdeal.Gen.facts

/-! ## The layout of the batched weights -/

/-- Entry (32·i + k, j) of the weights: the product array's entry (i, j, k), the mask's (i, j) repeated along k. -/
theorem wb_apply (T : (⟨S64x64x32, .f32⟩ : BufTy).Contents (Elt Ideal)) (M : (⟨S64x64, .f32⟩ : BufTy).Contents (Elt Ideal))
    (i j : Fin 64) (k : Fin 32) :
    (truncf (F := Ideal) .bf16 (fun x => shapeCast S2048x64
        (transpose S64x32x64 [0, 2, 1]
          (mulf T
            (broadcastInDim S64x64x32 ![0, 1, 2] Facts₀.bcast_S64x64x1_S64x64x32_0_1_2
              (broadcastInDim S64x64x1 ![0, 1] Facts₀.bcast_S64x64_S64x64x1_0_1 M)))
          Facts₀.transposes_S64x64x32_S64x32x64_0_2_1)
        Facts₀.shapeCasts_S64x32x64_S2048x64 x) Facts₀.bitsLt_bf16_f32) (ix2 (Cert.Spec.wrow i k) j)
      = T (ix3 i j k) * M (ix2 i j) := by
  rw [truncf_apply]
  refine (shapeCast_apply _ Facts₀.shapeCasts_S64x32x64_S2048x64 (ix2 (Cert.Spec.wrow i k) j) (ix3 i k j) (by
    rw [Shape.rowMajor_val_two, Shape.rowMajor_val_three]
    rfl)).trans ?_
  refine (transpose_apply [0, 2, 1] _ Facts₀.transposes_S64x64x32_S64x32x64_0_2_1 (ix3 i k j) (ix3 i j k) (fun b => by
    match b with
    | ⟨0, _⟩ => rfl
    | ⟨1, _⟩ => rfl
    | ⟨2, _⟩ => rfl)).trans ?_
  rw [mulf_apply, LibBatchReads.hostRepeatCol_apply, LibBatchReads.hostCol_apply]

/-! ## The mask -/

/-- The word 0x3F000000 is one half. -/
theorem ofBits_half : Ideal.ofBits .f32 0x3F000000#32 = ((1 / 2 : ℝ) : EReal) := by
  simp [Ideal.ofBits, Ideal.ieee]
  rw [← EReal.coe_mul]
  exact congrArg _ (by norm_num)

/-- The word 0x3F800000 is one. -/
theorem ofBits_one : Ideal.ofBits .f32 0x3F800000#32 = (1 : EReal) := by
  simp [Ideal.ofBits, Ideal.ieee]
  rw [← EReal.coe_mul, ← EReal.coe_one]
  exact congrArg _ (by norm_num)

/-- The comparison of the two coordinates (as 32-bit words, zero added to the first), made a float: 1 when they
    are equal, 0 when not; coordinates below 64 are equal as words exactly when they are equal. -/
theorem bit_eq (i j : Fin 64) :
    (FloatOps.uitofp (F := Ideal) .f32 (IntOp.cmpi .eq (IntOp.addi (BitVec.ofNat 32 i.val) 0#32) (BitVec.ofNat 32 j.val)) : EReal)
      = if i = j then 1 else 0 := by
  show (((BitVec.ofBool (BitVec.ofNat 32 i.val + 0#32 == BitVec.ofNat 32 j.val)).toNat : ℝ) : EReal) = _
  rw [BitVec.add_zero]
  by_cases h : i = j
  · subst h; simp
  · have hne : BitVec.ofNat 32 i.val ≠ BitVec.ofNat 32 j.val := fun e => h (Fin.ext (by
      have := congrArg BitVec.toNat e
      simp only [BitVec.toNat_ofNat] at this
      have hi := i.isLt; have hj := j.isLt
      omega))
    rw [if_neg h]
    simp [hne]

/-- The mask's entry (i, j): 1 on the diagonal, 1/2 off it. -/
theorem mask_apply (i j : Fin 64) : Cert.KernelIdeal.KerHost.mask (ix2 i j) = Cert.QuadLaw.mcoef i j := by
  unfold Cert.KernelIdeal.KerHost.mask
  rw [addf_apply, mulf_apply, mulf_apply, LibBatchReads.hostScalar_apply, LibBatchReads.hostScalar_apply,
    constant_apply, constant_apply, ofBits_half, ofBits_one]
  show ((1 / 2 : ℝ) : EReal) * 1 + ((1 / 2 : ℝ) : EReal)
      * (FloatOps.uitofp (F := Ideal) .f32 (IntOp.cmpi .eq (IntOp.addi (BitVec.ofNat 32 i.val) 0#32) (BitVec.ofNat 32 j.val)) : EReal)
    = _
  rw [bit_eq]
  unfold Cert.QuadLaw.mcoef
  split
  · rw [mul_one, ← EReal.coe_add]
    rw [← EReal.coe_one]
    exact congrArg _ (by norm_num)
  · rw [mul_one, mul_zero, add_zero]

end Cert.KernelIdeal.KerWeightRead

end
-- ==== Proof.KerBridge.lean ====
/-
  The batched weights and the matrix Q as the region finds them, in the form the algebraic law asks.

  For the r-th listed pair (row r ≤ col r) and every k, the weight array's entries (32·row r + k, col r) and
  (32·col r + k, row r) both hold theta[r, k] times the pair's weight (1 on the diagonal, 1/2 off it): the array is
  the symmetric [64, 64, 32] array times the mask, re-laid, and the mask is symmetric. The matrix Q handed to the
  region is the argument itself, the narrowing conversion being the identity over the extended reals.
-/
import proofs.«166319_j26499948216761_1_alg».proof.Proof.KerWeights
import proofs.«166319_j26499948216761_1_alg».proof.Proof.KerWeightRead
import proofs.«166319_j26499948216761_1_alg».proof.Proof.KerHost
import proofs.«166319_j26499948216761_1_alg».proof.Proof.QuadLaw
import proofs.«166319_j26499948216761_1_alg».proof.Proof.Spec

noncomputable section

namespace Cert.KernelIdeal.KerBridge

open Cert.KernelIdeal Cert.KernelIdeal.Gen Cert.KernelIdeal.KerIndex
open Idealize.ShloMosaic Idealize.ShloMosaic.TcCoe Idealize.SL.Sem Idealize.ShloMosaic.ValueIdx

attribute [local instance] Cert.KernelIdeal.Gen.facts

variable (m : (ℓ : Loc nD τ sig) → Buf (Elt Ideal) ℓ) (c : Dev nD)

/-- The pair's weight does not depend on the order of the pair. -/
theorem mcoef_comm (i j : Fin 64) : Cert.QuadLaw.mcoef i j = Cert.QuadLaw.mcoef j i := by
  unfold Cert.QuadLaw.mcoef
  by_cases h : i = j
  · subst h; rfl
  · rw [if_neg h, if_neg (fun e => h e.symm)]

/-- The weight array the region finds, as a function into the extended reals. -/
abbrev wbV : (⟨2, ![2048, 64]⟩ : Shape).Idx → EReal := V m c main_v46
/-- The coefficient array theta the region finds, as a function into the extended reals. -/
abbrev thetaV : (⟨2, ![2080, 32]⟩ : Shape).Idx → EReal := V m c main_arg3

/-- The weights at the two positions of the r-th pair: theta[r, k] times the pair's weight. -/
theorem hW (r : Fin 2080) (k : Fin 32) :
    wbV m c (ix2 (Cert.Spec.wrow (row r) k) (col r)) = thetaV m c (ix2 r k) * Cert.QuadLaw.mcoef (row r) (col r)
    ∧ wbV m c (ix2 (Cert.Spec.wrow (col r) k) (row r)) = thetaV m c (ix2 r k) * Cert.QuadLaw.mcoef (row r) (col r) := by
  unfold wbV thetaV
  constructor
  · rw [KerHost.V_v46, KerWeightRead.wb_apply, KerHost.V_v40, KerWeightRead.mask_apply, KerWeights.sym_upper]
  · rw [KerHost.V_v46, KerWeightRead.wb_apply, KerHost.V_v40, KerWeightRead.mask_apply, KerWeights.sym_lower,
      mcoef_comm (col r) (row r)]

/-- The matrix Q the region finds is the argument. -/
theorem hQ : (V m c main_v47 : (⟨S2048x96, .bf16⟩ : BufTy).Contents (Elt Ideal))
    = (m ((c : Thread nD τ).loc main_arg1) : (⟨S2048x96, .f32⟩ : BufTy).Contents (Elt Ideal)) := by
  rw [KerHost.V_v47, Gen.V_main_arg1]
  rfl

end Cert.KernelIdeal.KerBridge

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.KerBody.lean ====
/-
  The body's arithmetic at an index of its output block [2048, 512].

  With phi the block [64, 512] of the first operand, Wb the batched weights [2048, 64], Qb the matrix [2048, 96] and
  cc the column [2048, 1], the body computes, at (p, q),

      (Σ_mm Qb[p, mm] · z[mm, q]) + cc[p, 0],

  where z is phi stacked over the [32, 512] array  quad[k, q] = Σ_i phi[i, q] · (Σ_j Wb[32·i + k, j] · phi[j, q]).
  The narrowing conversions are identities over the extended reals; the product Wb × phi is read as a [64, 32, 512]
  array whose entry (i, k, q) is row 32·i + k of the product, multiplied by phi[i, q] and summed over i.
-/
import proofs.«166319_j26499948216761_1_alg».proof.Proof.Gen.KernelIdeal.Skeleton
import proofs.«166319_j26499948216761_1_alg».proof.Proof.Spec
import proofs.«166319_j26499948216761_1_alg».proof.Proof.LibMatmulAt
import proofs.«166319_j26499948216761_1_alg».proof.Proof.LibColumn
import proofs.«166319_j26499948216761_1_alg».proof.Proof.LibBatchReads
import Idealize.ShloMosaic.Lib.ValueIdx
import Idealize.ShloMosaic.Lib.Pipeline.Value
import Idealize.ShloMosaic.PureOps.Ideal.Laws

noncomputable section

open scoped BigOperators

namespace Cert.KernelIdeal.KerBody

open Cert.KernelIdeal Cert.KernelIdeal.Gen Idealize.ShloMosaic Idealize.ShloMosaic.ValueIdx

/-! ## The layout operations of the body, read at an index -/

section Layout
variable {α : Type}

/-- A [2048, 512] array viewed as [64, 32, 512] reads, at (i, k, q), its entry (32·i + k, q). -/
theorem cast_rows_apply (x : (⟨2, ![2048, 512]⟩ : Shape).Idx → α)
    (h : (⟨2, ![2048, 512]⟩ : Shape).ShapeCasts ⟨3, ![64, 32, 512]⟩) (i : Fin 64) (k : Fin 32) (q : Fin 512) :
    shapeCast ⟨3, ![64, 32, 512]⟩ x h (ix3 i k q) = x (ix2 (Cert.Spec.wrow i k) q) :=
  shapeCast_apply x h _ _ (by
    rw [Shape.rowMajor_val_two, Shape.rowMajor_val_three]
    rfl)

/-- phi stacked over a [32, 512] array, read at row mm of 96: phi's row mm below 64, the second array's row mm − 64 from 64 on. -/
theorem stack_apply (x₁ : (⟨2, ![64, 512]⟩ : Shape).Idx → α) (x₂ : (⟨2, ![32, 512]⟩ : Shape).Idx → α)
    (h : Shape.Concatenates [(⟨2, ![64, 512]⟩ : Shape), ⟨2, ![32, 512]⟩] ⟨2, ![96, 512]⟩ (0 : Fin 2)) (mm : Fin 96) (q : Fin 512) :
    concatenate ⟨2, ![96, 512]⟩ (0 : Fin 2) [⟨⟨2, ![64, 512]⟩, x₁⟩, ⟨⟨2, ![32, 512]⟩, x₂⟩] h (ix2 mm q)
      = if hm : mm.val < 64 then x₁ (ix2 ⟨mm.val, hm⟩ q) else x₂ (ix2 ⟨mm.val - 64, by omega⟩ q) := by
  split
  · next hm =>
    refine concatenate_pair_apply_left (0 : Fin 2) x₁ x₂ h (ix2 mm q) rfl (ix2 ⟨mm.val, hm⟩ q) fun b => ?_
    match b with
    | ⟨0, _⟩ => rfl
    | ⟨1, _⟩ => rfl
  · next hm =>
    refine concatenate_pair_apply_right (0 : Fin 2) x₁ x₂ h (ix2 mm q) rfl rfl (ix2 ⟨mm.val - 64, by omega⟩ q) (fun b hb => ?_) ?_
    · match b with
      | ⟨0, _⟩ => exact absurd rfl hb
      | ⟨1, _⟩ => rfl
    · show mm.val - 64 + 64 = mm.val
      omega

end Layout

/-- Result index (k, q) of a reduction of [64, 32, 512] along the first axis, with the dropped coordinate i put back, is (i, k, q). -/
theorem lift_first (h : (⟨3, ![64, 32, 512]⟩ : Shape).Reduces [(0 : Fin 3)] ⟨2, ![32, 512]⟩) (k : Fin 32) (q : Fin 512) (i : Fin 64) :
    h.lift (ix2 k q) i = ix3 i k q := by
  funext c
  apply Fin.ext
  match c with
  | ⟨0, _⟩ => rfl
  | ⟨1, _⟩ => rfl
  | ⟨2, _⟩ => rfl

/-- The sum along the first axis of a [64, 32, 512] array from the zero word, at (k, q): the plain sum over the 64 planes.
    The side condition on the initial word is spelt as an equation between the two literal words. -/
theorem sumFirst_apply (src : FVec Ideal ⟨3, ![64, 32, 512]⟩ .f32)
    (h : (⟨3, ![64, 32, 512]⟩ : Shape).Reduces [(0 : Fin 3)] ⟨2, ![32, 512]⟩) (hφ : FKind.Formats .f32)
    (hacc : (0x00000000#32 : BitVec 32) = 0x00000000#32) (k : Fin 32) (q : Fin 512) :
    multiReduction .add [(0 : Fin 3)] ⟨2, ![32, 512]⟩ src 0x00000000#32 h hφ hacc (ix2 k q) = ∑ i : Fin 64, src (ix3 i k q) :=
  (Ideal.multiReduction_add_single src 0x00000000#32 h hφ hacc (ix2 k q)).trans
    (Finset.sum_congr rfl fun i _ => congrArg src (lift_first h k q i))

/-! ## The body's value -/

/-- The quadratic form of column q of the block through the batched weights, for output k. -/
def quadBlk (v0 : FVec Ideal S64x512 .f32) (v2 : FVec Ideal S2048x64 .bf16) (k : Fin 32) (q : Fin 512) : EReal :=
  ∑ i : Fin 64, v0 (ix2 i q) * ∑ j : Fin 64, v2 (ix2 (Cert.Spec.wrow i k) j) * v0 (ix2 j q)

/-- The block stacked over its quadratic forms, read at row mm of 96. -/
def zblk (v0 : FVec Ideal S64x512 .f32) (v2 : FVec Ideal S2048x64 .bf16) (mm : Fin 96) (q : Fin 512) : EReal :=
  if h : mm.val < 64 then v0 (ix2 ⟨mm.val, h⟩ q) else quadBlk v0 v2 ⟨mm.val - 64, by omega⟩ q

/-- THE BODY AT (p, q): the product of row p of Qb with column q of the stacked array, plus the column's entry p. -/
theorem k0_pay1_apply (v0 : FVec Ideal S64x512 .f32) (v2 : FVec Ideal S2048x64 .bf16) (v12 : FVec Ideal S2048x96 .bf16)
    (v15 : FVec Ideal S2048x1 .f32) (p : Fin 2048) (q : Fin 512) :
    k0_pay1 (F := Ideal) v0 v2 v12 v15 (ix2 p q)
      = (∑ mm : Fin 96, v12 (ix2 p mm) * zblk v0 v2 mm q) + v15 (ix2 p (0 : Fin 1)) := by
  unfold k0_pay1
  rw [addf_apply, LibColumn.broadcastTo_a1_ab_apply,
    LibMatmulAt.matmul_zero_apply _ rfl rfl rfl rfl rfl rfl, shapeCast_self]
  refine congrArg (· + v15 (ix2 p (0 : Fin 1))) (Finset.sum_congr rfl fun mm _ => congrArg (v12 (ix2 p mm) * ·) ?_)
  rw [truncf_apply, stack_apply]
  unfold zblk
  split
  · rfl
  · next hm =>
    rw [sumFirst_apply]
    unfold quadBlk
    refine Finset.sum_congr rfl fun i _ => ?_
    rw [mulf_apply, LibBatchReads.repeatRow_apply, LibBatchReads.castRow_apply, cast_rows_apply,
      LibMatmulAt.matmul_zero_apply _ rfl rfl rfl rfl rfl rfl, shapeCast_self]
    rfl

end Cert.KernelIdeal.KerBody

end
-- ==== Proof.KerValue.lean ====
/-
  The kernel's result array, entry by entry.

  Every grid point t writes the column block [2048, 512] at columns 512·t … 512·t + 511 once, with the body's value
  of the blocks it is handed: the block of phi at the same columns, and the batched weights, the matrix Q and the
  column c whole. The body's value at (p, q) of that block is the specification's entry (p, 512·t + q), and column n
  lies in the block of point n / 512, so the blocks cover the array.
-/
import proofs.«166319_j26499948216761_1_alg».proof.Proof.Gen.KernelIdeal.Value
import proofs.«166319_j26499948216761_1_alg».proof.Proof.Spec
import proofs.«166319_j26499948216761_1_alg».proof.Proof.KerBody

noncomputable section

open scoped BigOperators

namespace Cert.KernelIdeal.KerValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body on a column block of phi -/

/-- If the block x0 holds columns 512·tv … of phi, the body's value at (p, q) is the specification's entry
    (p, 512·tv + q): the two spell the same sums, the block's entries being phi's. -/
theorem body_at (phi : (⟨2, ![64, 65536]⟩ : Shape).Idx → EReal) (Wb : (⟨2, ![2048, 64]⟩ : Shape).Idx → EReal)
    (Qb : (⟨2, ![2048, 96]⟩ : Shape).Idx → EReal) (cc : (⟨2, ![2048, 1]⟩ : Shape).Idx → EReal)
    (x0 : FVec Ideal S64x512 .f32) (tv : ℕ) (ht : tv < 128)
    (h0 : ∀ (i : Fin 64) (q : Fin 512), x0 (ix2 i q) = phi (ix2 i (⟨tv * 512 + q.val, by omega⟩ : Fin 65536)))
    (p : Fin 2048) (q : Fin 512) :
    k0_pay1 (F := Ideal) x0 Wb Qb cc (ix2 p q)
      = Cert.Spec.outKer phi Wb Qb cc p (⟨tv * 512 + q.val, by omega⟩ : Fin 65536) := by
  rw [KerBody.k0_pay1_apply]
  unfold Cert.Spec.outKer
  refine congrArg (· + cc (ix2 p (0 : Fin 1))) (Finset.sum_congr rfl fun mm _ => congrArg (Qb (ix2 p mm) * ·) ?_)
  unfold KerBody.zblk Cert.Spec.stack
  split
  · exact h0 _ q
  · unfold KerBody.quadBlk Cert.Spec.quadKer
    simp only [h0]

/-! ## From blocks to the array -/

theorem hz : (![0, 0] : Fin 2 → Nat) = fun _ => 0 := funext fun a => by fin_cases a <;> rfl

/-- The result array as one function of the arrays the region finds: the specification's entry at each index. -/
def G (c : Dev nD) : S2048x65536.Idx → EReal := fun idx =>
  Cert.Spec.outKer (V m c main_arg2) (V m c main_v46) (V m c main_v47) (V m c main_arg0)
    ⟨(idx 0).val, idx2_lt0 idx⟩ ⟨(idx 1).val, idx2_lt1 idx⟩

/-- The printed index maps, decided over the 128 grid points: the block of phi and the output block sit at column
    block t, every other block at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The batched weights' block at any point is the whole array. -/
theorem iblk1_eq (c : Dev nD) (t : Fin cfg0.N) : iblk m c 1 t = V m c main_v46 := by
  obtain ⟨-, -, e10, e11, -⟩ := idx_facts t
  funext y
  show V m c main_v46 (((cfg0.win 1).blk t).view.emb y) = V m c main_v46 y
  refine congrArg (V m c main_v46) (funext fun a => Fin.ext ?_)
  match a with
  | ⟨0, _⟩ => show win0_1.index t (0 : Fin 2) * 2048 + 1 * (y 0).val = (y 0).val; omega
  | ⟨1, _⟩ => show win0_1.index t (1 : Fin 2) * 64 + 1 * (y 1).val = (y 1).val; omega

/-- The matrix Q's block at any point is the whole array. -/
theorem iblk2_eq (c : Dev nD) (t : Fin cfg0.N) : iblk m c 2 t = V m c main_v47 := by
  obtain ⟨-, -, -, -, e20, e21, -⟩ := idx_facts t
  funext y
  show V m c main_v47 (((cfg0.win 2).blk t).view.emb y) = V m c main_v47 y
  refine congrArg (V m c main_v47) (funext fun a => Fin.ext ?_)
  match a with
  | ⟨0, _⟩ => show win0_2.index t (0 : Fin 2) * 2048 + 1 * (y 0).val = (y 0).val; omega
  | ⟨1, _⟩ => show win0_2.index t (1 : Fin 2) * 96 + 1 * (y 1).val = (y 1).val; omega

/-- The column c's block at any point is the whole array. -/
theorem iblk3_eq (c : Dev nD) (t : Fin cfg0.N) : iblk m c 3 t = V m c main_arg0 := by
  obtain ⟨-, -, -, -, -, -, e30, e31, -⟩ := idx_facts t
  funext y
  show V m c main_arg0 (((cfg0.win 3).blk t).view.emb y) = V m c main_arg0 y
  refine congrArg (V m c main_arg0) (funext fun a => Fin.ext ?_)
  match a with
  | ⟨0, _⟩ => show win0_3.index t (0 : Fin 2) * 2048 + 1 * (y 0).val = (y 0).val; omega
  | ⟨1, _⟩ => show win0_3.index t (1 : Fin 2) * 1 + 1 * (y 1).val = (y 1).val; omega

/-- The block of phi at point t holds columns 512·t … 512·t + 511 of phi. -/
theorem iblk0_apply (c : Dev nD) (t : Fin cfg0.N) (ht : t.val < 128) (i : Fin 64) (q : Fin 512) :
    iblk m c 0 t (ix2 i q) = V m c main_arg2 (ix2 i (⟨t.val * 512 + q.val, by omega⟩ : Fin 65536)) := by
  obtain ⟨e00, e01, -⟩ := idx_facts t
  show V m c main_arg2 (((cfg0.win 0).blk t).view.emb (ix2 i q)) = _
  refine congrArg (V m c main_arg2) (funext fun a => Fin.ext ?_)
  match a with
  | ⟨0, _⟩ => show win0_0.index t (0 : Fin 2) * 64 + 1 * i.val = i.val; omega
  | ⟨1, _⟩ => show win0_0.index t (1 : Fin 2) * 512 + 1 * q.val = t.val * 512 + q.val; omega

/-- WHAT POINT t WRITES BACK is block t of the result function. -/
theorem flushed_eq (c : Dev nD) (t : Fin cfg0.N) :
    (dats m 0 c).flushed 4 t = ((cfg0.win 4).blk t).view.read (Elt Ideal) (G m c) := by
  have ht : t.val < 128 := Nat.lt_of_lt_of_eq t.isLt N_0
  rw [flushed4]
  unfold out0_4
  rw [View.canon_unit_zero hz]
  simp only [View.ld_unit_zero (S := S64x512) hz, View.ld_unit_zero (S := S2048x64) hz,
    View.ld_unit_zero (S := S2048x96) hz, View.ld_unit_zero (S := S2048x1) hz]
  rw [iblk1_eq, iblk2_eq, iblk3_eq]
  obtain ⟨-, -, -, -, -, -, -, -, e40, e41⟩ := idx_facts t
  funext j
  show k0_pay1 (F := Ideal) (iblk m c 0 t) (V m c main_v46) (V m c main_v47) (V m c main_arg0) j
    = G m c (((cfg0.win 4).blk t).view.emb j)
  have hj : (j : S2048x512.Idx) = ix2 (j 0) (j 1) := eq_ix2 (n0 := 2048) (n1 := 512) j
  refine (congrArg (k0_pay1 (F := Ideal) (iblk m c 0 t) (V m c main_v46) (V m c main_v47) (V m c main_arg0)) hj).trans
    ((body_at (V m c main_arg2) (V m c main_v46) (V m c main_v47) (V m c main_arg0) (iblk m c 0 t) t.val ht
      (iblk0_apply m c t ht) (j 0) (j 1)).trans ?_)
  unfold G
  have h0 : ((((cfg0.win 4).blk t).view.emb j) 0).val = (j 0).val := by
    show win0_4.index t (0 : Fin 2) * 2048 + 1 * (j 0).val = (j 0).val; omega
  have h1 : ((((cfg0.win 4).blk t).view.emb j) 1).val = t.val * 512 + (j 1).val := by
    show win0_4.index t (1 : Fin 2) * 512 + 1 * (j 1).val = t.val * 512 + (j 1).val; omega
  exact congrArg₂ (Cert.Spec.outKer (V m c main_arg2) (V m c main_v46) (V m c main_v47) (V m c main_arg0))
    (Fin.ext h0.symm) (Fin.ext h1.symm)

/-- An index of the array is in point t's block iff each coordinate is in the block's range on its axis. -/
theorem mem_blk (t : Fin cfg0.N) (i : S2048x65536.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v48).slice (win0_4.rect t)).set ↔ _
  rw [View.set_slice_whole, Rect.mem_set_unit]
  exact Iff.rfl

/-- Column n lies in the block of point n / 512: the blocks cover the array. -/
theorem cover (i : S2048x65536.Idx) :
    ∃ t : Fin cfg0.N, (cfg0.win 4).flush t = true ∧ i ∈ ((cfg0.win 4).blk t).view.set := by
  have hi0 : (i 0).val < 2048 := (i 0).isLt
  have hi1 : (i 1).val < 65536 := (i 1).isLt
  have hN : cfg0.N = 128 := N_0
  refine ⟨⟨(i 1).val / 512, by rw [hN]; omega⟩, flush0_4 _, ?_⟩
  obtain ⟨-, -, -, -, -, -, -, -, e40, e41⟩ := idx_facts ⟨(i 1).val / 512, by rw [hN]; omega⟩
  rw [mem_blk]
  intro a
  match a with
  | ⟨0, _⟩ =>
    show win0_4.index _ (0 : Fin 2) * 2048 ≤ (i 0).val ∧ (i 0).val < win0_4.index _ (0 : Fin 2) * 2048 + 2048
    rw [e40]; omega
  | ⟨1, _⟩ =>
    show win0_4.index _ (1 : Fin 2) * 512 ≤ (i 1).val ∧ (i 1).val < win0_4.index _ (1 : Fin 2) * 512 + 512
    rw [e41]; show (i 1).val / 512 * 512 ≤ (i 1).val ∧ (i 1).val < (i 1).val / 512 * 512 + 512; omega

/-- THE ARRAY after the run is the result function. -/
theorem final (c : Dev nD) : (dats m 0 c).arrAt 4 cfg0.N = G m c :=
  (dats m 0 c).arrAt_eq_of_cover 4 (G m c) (fun t _ => flushed_eq m c t) cover

/-! ## The run, read -/

/-- The kernel's run: the result array holds the specification's entry at every index, the arguments unchanged. -/
theorem run : θ_run (Cert.KernelIdeal.defs (F := Ideal)) (onTc (τ := τ) (main (F := Ideal))) ⟨m, fun _ => 0, ρ⟩ fun r => ∀ c : Dev nD,
      r.2.mem ((c : Thread nD τ).loc main_v48) = (fun idx => Cert.Spec.outKer (V m c main_arg2) (V m c main_v46) (V m c main_v47) (V m c main_arg0) ⟨(idx 0).val, idx2_lt0 idx⟩ ⟨(idx 1).val, idx2_lt1 idx⟩)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KerValue

end
-- ==== Proof.RefStages.lean ====
/-
  The values of the reference program's buffers, one definition per tensor value of @main and of the
  functions it calls (each call's body read at the call's own buffers), in program order: each is
  the printed pure function of its operation applied to the values of its operands. The integer
  chain (the upper-triangular index computation) takes no argument; the float part takes the
  argument arrays it depends on, among c : [2048,1], Q : [2048,96], phi : [64,65536], theta : [2080,32].
  All at the ideal instance (a float an extended real, every operation exact).
-/
import proofs.«166319_j26499948216761_1_alg».proof.ReferenceIdeal
import proofs.«166319_j26499948216761_1_alg».proof.Proof.Gen.ReferenceIdeal
import Idealize.ShloMosaic.PureOps.Ideal

noncomputable section

namespace Cert.ReferenceIdeal.RefStages

open Cert.ReferenceIdeal Cert.ReferenceIdeal.Facts₀ Idealize.ShloMosaic Idealize.SL.Sem

/-- `main_cst`: %cst = stablehlo.constant dense<1.000000e+00> : tensor<f32> -/
def val_cst : (⟨S_, .f32⟩ : BufTy).Contents (Elt Ideal) :=
  (constant (F := Ideal) S_ .f32 0x3F800000#32)

/-- `main_v0`: %0 = stablehlo.broadcast_in_dim %cst, dims = [] : (tensor<f32>) -> tensor<64x64xf32> -/
def val_v0 : (⟨S64x64, .f32⟩ : BufTy).Contents (Elt Ideal) :=
  (broadcastInDim S64x64 ![] bcast_S_S64x64 : (⟨S_, .f32⟩ : BufTy).Contents (Elt Ideal) → (⟨S64x64, .f32⟩ : BufTy).Contents (Elt Ideal)) val_cst

/-- `main_call0_v0`: @triu's %0 = stablehlo.iota dim = 0 : tensor<64x64xi32>, in %1 = func.call @triu(…) (record main_call0) -/
def val_call0_v0 : (⟨S64x64, .i32⟩ : BufTy).Contents (Elt Ideal) :=
  (iotaInDim S64x64 32 0)

/-- `main_call0_c`: @triu's %c = stablehlo.constant dense<-1> : tensor<i32>, in %1 = func.call @triu(…) (record main_call0) -/
def val_call0_c : (⟨S_, .i32⟩ : BufTy).Contents (Elt Ideal) :=
  (constantI S_ 32 4294967295#32)

/-- `main_call0_v1`: @triu's %1 = stablehlo.broadcast_in_dim %c, dims = [] : (tensor<i32>) -> tensor<64x64xi32>, in %1 = func.call @triu(…) (record main_call0) -/
def val_call0_v1 : (⟨S64x64, .i32⟩ : BufTy).Contents (Elt Ideal) :=
  (broadcastInDim S64x64 ![] bcast_S_S64x64) val_call0_c

/-- `main_call0_v2`: @triu's %2 = stablehlo.add %0, %1 : tensor<64x64xi32>, in %1 = func.call @triu(…) (record main_call0) -/
def val_call0_v2 : (⟨S64x64, .i32⟩ : BufTy).Contents (Elt Ideal) :=
  addi val_call0_v0 val_call0_v1

/-- `main_call0_v3`: @triu's %3 = stablehlo.iota dim = 1 : tensor<64x64xi32>, in %1 = func.call @triu(…) (record main_call0) -/
def val_call0_v3 : (⟨S64x64, .i32⟩ : BufTy).Contents (Elt Ideal) :=
  (iotaInDim S64x64 32 1)

/-- `main_call0_v4`: @triu's %4 = stablehlo.compare GE, %2, %3, SIGNED : (tensor<64x64xi32>, tensor<64x64xi32>) -> tensor<64x64xi1>, in %1 = func.call @triu(…) (record main_call0) -/
def val_call0_v4 : (⟨S64x64, .i1⟩ : BufTy).Contents (Elt Ideal) :=
  (cmpi .sge) val_call0_v2 val_call0_v3

/-- `main_call0_cst`: @triu's %cst = stablehlo.constant dense<0.000000e+00> : tensor<f32>, in %1 = func.call @triu(…) (record main_call0) -/
def val_call0_cst : (⟨S_, .f32⟩ : BufTy).Contents (Elt Ideal) :=
  (constant (F := Ideal) S_ .f32 0x00000000#32)

/-- `main_call0_v5`: @triu's %5 = stablehlo.broadcast_in_dim %cst, dims = [] : (tensor<f32>) -> tensor<64x64xf32>, in %1 = func.call @triu(…) (record main_call0) -/
def val_call0_v5 : (⟨S64x64, .f32⟩ : BufTy).Contents (Elt Ideal) :=
  (broadcastInDim S64x64 ![] bcast_S_S64x64) val_call0_cst

/-- `main_v1`: %1 = func.call @triu(…) (record main_call0) result 0: @triu's %6 = stablehlo.select %4, %5, %arg0 : tensor<64x64xi1>, tensor<64x64xf32> -/
def val_v1 : (⟨S64x64, .f32⟩ : BufTy).Contents (Elt Ideal) :=
  select val_call0_v4 val_call0_v5 val_v0

/-- `main_cst_0`: %cst_0 = stablehlo.constant dense<0.000000e+00> : tensor<f32> -/
def val_cst_0 : (⟨S_, .f32⟩ : BufTy).Contents (Elt Ideal) :=
  (constant (F := Ideal) S_ .f32 0x00000000#32)

/-- `main_v2`: %2 = stablehlo.broadcast_in_dim %cst_0, dims = [] : (tensor<f32>) -> tensor<64x64xf32> -/
def val_v2 : (⟨S64x64, .f32⟩ : BufTy).Contents (Elt Ideal) :=
  (broadcastInDim S64x64 ![] bcast_S_S64x64 : (⟨S_, .f32⟩ : BufTy).Contents (Elt Ideal) → (⟨S64x64, .f32⟩ : BufTy).Contents (Elt Ideal)) val_cst_0

/-- `main_v3`: %3 = stablehlo.compare NE, %1, %2, FLOAT : (tensor<64x64xf32>, tensor<64x64xf32>) -> tensor<64x64xi1> -/
def val_v3 : (⟨S64x64, .i1⟩ : BufTy).Contents (Elt Ideal) :=
  (cmpf (F := Ideal) (φ := .f32) .une : (⟨S64x64, .f32⟩ : BufTy).Contents (Elt Ideal) → (⟨S64x64, .f32⟩ : BufTy).Contents (Elt Ideal) → (⟨S64x64, .i1⟩ : BufTy).Contents (Elt Ideal)) val_v1 val_v2

/-- `main_call1_v0`: @cumsum's %0 = stablehlo.reshape %arg0 : (tensor<64x64xi1>) -> tensor<4096xi1>, in %4 = func.call @cumsum(…) (record main_call1) -/
def val_call1_v0 : (⟨S4096, .i1⟩ : BufTy).Contents (Elt Ideal) :=
  shapeCast S4096 val_v3 shapeCasts_S64x64_S4096

/-- `main_call1_v1`: @cumsum's %1 = stablehlo.convert %0 : (tensor<4096xi1>) -> tensor<4096xi32>, in %4 = func.call @cumsum(…) (record main_call1) -/
def val_call1_v1 : (⟨S4096, .i32⟩ : BufTy).Contents (Elt Ideal) :=
  (extui 32 · natLt_1_32) val_call1_v0

/-- `main_call1_call0_c`: @cumsum_0's %c = stablehlo.constant dense<0> : tensor<i32>, in @cumsum's %2 = func.call @cumsum_0(…) (record main_call1_call0) -/
def val_call1_call0_c : (⟨S_, .i32⟩ : BufTy).Contents (Elt Ideal) :=
  (constantI S_ 32 0#32)

/-- `main_call1_call0_v0`: @cumsum_0's %0 = stablehlo.broadcast_in_dim %c, dims = [] : (tensor<i32>) -> tensor<i32>, in @cumsum's %2 = func.call @cumsum_0(…) (record main_call1_call0) -/
def val_call1_call0_v0 : (⟨S_, .i32⟩ : BufTy).Contents (Elt Ideal) :=
  (broadcastInDim S_ ![] bcast_S_S_) val_call1_call0_c

/-- `main_v4`: @cumsum's %2 = func.call @cumsum_0(…) (record main_call1_call0) result 0: @cumsum_0's %1 = "stablehlo.reduce_window"(%arg0, %0) <{base_dilations = array<i64:… -/
def val_v4 : (⟨S4096, .i32⟩ : BufTy).Contents (Elt Ideal) :=
  (fun x v => Host.reduceWindow IntOp.addi ![4096] ![1] ![4095] ![0] x v reduceWindows_S4096_S4096_w4096s1p4095_0 h_S_) val_call1_v1 val_call1_call0_v0

/-- `main_c`: %c = stablehlo.constant dense<0> : tensor<i32> -/
def val_c : (⟨S_, .i32⟩ : BufTy).Contents (Elt Ideal) :=
  (constantI S_ 32 0#32)

/-- `main_v5`: %5 = stablehlo.broadcast_in_dim %c, dims = [] : (tensor<i32>) -> tensor<2080xi32> -/
def val_v5 : (⟨S2080, .i32⟩ : BufTy).Contents (Elt Ideal) :=
  (broadcastInDim S2080 ![] bcast_S_S2080 : (⟨S_, .i32⟩ : BufTy).Contents (Elt Ideal) → (⟨S2080, .i32⟩ : BufTy).Contents (Elt Ideal)) val_c

/-- `main_c_1`: %c_1 = stablehlo.constant dense<0> : tensor<i32> -/
def val_c_1 : (⟨S_, .i32⟩ : BufTy).Contents (Elt Ideal) :=
  (constantI S_ 32 0#32)

/-- `main_call2_v0`: @clip's %0 = stablehlo.convert %arg1 : tensor<i32>, in %6 = func.call @clip(…) (record main_call2) -/
def val_call2_v0 : (⟨S_, .i32⟩ : BufTy).Contents (Elt Ideal) :=
  id val_c_1

/-- `main_call2_v1`: @clip's %1 = stablehlo.broadcast_in_dim %0, dims = [] : (tensor<i32>) -> tensor<4096xi32>, in %6 = func.call @clip(…) (record main_call2) -/
def val_call2_v1 : (⟨S4096, .i32⟩ : BufTy).Contents (Elt Ideal) :=
  (broadcastInDim S4096 ![] bcast_S_S4096) val_call2_v0

/-- `main_v6`: %6 = func.call @clip(…) (record main_call2) result 0: @clip's %2 = stablehlo.maximum %1, %arg0 : tensor<4096xi32> -/
def val_v6 : (⟨S4096, .i32⟩ : BufTy).Contents (Elt Ideal) :=
  maxsi val_call2_v1 val_v4

/-- `main_c_2`: %c_2 = stablehlo.constant dense<0> : tensor<i32> -/
def val_c_2 : (⟨S_, .i32⟩ : BufTy).Contents (Elt Ideal) :=
  (constantI S_ 32 0#32)

/-- `main_v7`: %7 = stablehlo.broadcast_in_dim %c_2, dims = [] : (tensor<i32>) -> tensor<4096xi32> -/
def val_v7 : (⟨S4096, .i32⟩ : BufTy).Contents (Elt Ideal) :=
  (broadcastInDim S4096 ![] bcast_S_S4096 : (⟨S_, .i32⟩ : BufTy).Contents (Elt Ideal) → (⟨S4096, .i32⟩ : BufTy).Contents (Elt Ideal)) val_c_2

/-- `main_v8`: %8 = stablehlo.compare LT, %6, %7, SIGNED : (tensor<4096xi32>, tensor<4096xi32>) -> tensor<4096xi1> -/
def val_v8 : (⟨S4096, .i1⟩ : BufTy).Contents (Elt Ideal) :=
  (cmpi .slt : (⟨S4096, .i32⟩ : BufTy).Contents (Elt Ideal) → (⟨S4096, .i32⟩ : BufTy).Contents (Elt Ideal) → (⟨S4096, .i1⟩ : BufTy).Contents (Elt Ideal)) val_v6 val_v7

/-- `main_c_3`: %c_3 = stablehlo.constant dense<2080> : tensor<i32> -/
def val_c_3 : (⟨S_, .i32⟩ : BufTy).Contents (Elt Ideal) :=
  (constantI S_ 32 2080#32)

/-- `main_v9`: %9 = stablehlo.broadcast_in_dim %c_3, dims = [] : (tensor<i32>) -> tensor<4096xi32> -/
def val_v9 : (⟨S4096, .i32⟩ : BufTy).Contents (Elt Ideal) :=
  (broadcastInDim S4096 ![] bcast_S_S4096 : (⟨S_, .i32⟩ : BufTy).Contents (Elt Ideal) → (⟨S4096, .i32⟩ : BufTy).Contents (Elt Ideal)) val_c_3

/-- `main_v10`: %10 = stablehlo.add %6, %9 : tensor<4096xi32> -/
def val_v10 : (⟨S4096, .i32⟩ : BufTy).Contents (Elt Ideal) :=
  (addi : (⟨S4096, .i32⟩ : BufTy).Contents (Elt Ideal) → (⟨S4096, .i32⟩ : BufTy).Contents (Elt Ideal) → (⟨S4096, .i32⟩ : BufTy).Contents (Elt Ideal)) val_v6 val_v9

/-- `main_v11`: %11 = stablehlo.select %8, %10, %6 : tensor<4096xi1>, tensor<4096xi32> -/
def val_v11 : (⟨S4096, .i32⟩ : BufTy).Contents (Elt Ideal) :=
  (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) val_v8 val_v10 val_v6

/-- `main_v12`: %12 = stablehlo.broadcast_in_dim %11, dims = [0] : (tensor<4096xi32>) -> tensor<4096x1xi32> -/
def val_v12 : (⟨S4096x1, .i32⟩ : BufTy).Contents (Elt Ideal) :=
  (broadcastInDim S4096x1 ![0] bcast_S4096_S4096x1_0 : (⟨S4096, .i32⟩ : BufTy).Contents (Elt Ideal) → (⟨S4096x1, .i32⟩ : BufTy).Contents (Elt Ideal)) val_v11

/-- `main_c_4`: %c_4 = stablehlo.constant dense<1> : tensor<i32> -/
def val_c_4 : (⟨S_, .i32⟩ : BufTy).Contents (Elt Ideal) :=
  (constantI S_ 32 1#32)

/-- `main_v13`: %13 = stablehlo.broadcast_in_dim %c_4, dims = [] : (tensor<i32>) -> tensor<4096xi32> -/
def val_v13 : (⟨S4096, .i32⟩ : BufTy).Contents (Elt Ideal) :=
  (broadcastInDim S4096 ![] bcast_S_S4096 : (⟨S_, .i32⟩ : BufTy).Contents (Elt Ideal) → (⟨S4096, .i32⟩ : BufTy).Contents (Elt Ideal)) val_c_4

/-- `main_v14`: %14 = "stablehlo.scatter"(%5, %12, %13) <{indices_are_sorted = false, scatter_dimension_numbers = #stablehlo.scatter<inserted_window_dims = [0], scatter_dims… -/
def val_v14 : (⟨S2080, .i32⟩ : BufTy).Contents (Elt Ideal) :=
  ((fun x i u => Host.scatter scatter_S2080_S4096x1_S4096_n_0_0_1 IntOp.addi x i u) : (⟨S2080, .i32⟩ : BufTy).Contents (Elt Ideal) → (⟨S4096x1, .i32⟩ : BufTy).Contents (Elt Ideal) → (⟨S4096, .i32⟩ : BufTy).Contents (Elt Ideal) → (⟨S2080, .i32⟩ : BufTy).Contents (Elt Ideal)) val_v5 val_v12 val_v13

/-- `main_call3_call0_c`: @cumsum_2's %c = stablehlo.constant dense<0> : tensor<i32>, in @cumsum_1's %0 = func.call @cumsum_2(…) (record main_call3_call0) -/
def val_call3_call0_c : (⟨S_, .i32⟩ : BufTy).Contents (Elt Ideal) :=
  (constantI S_ 32 0#32)

/-- `main_call3_call0_v0`: @cumsum_2's %0 = stablehlo.broadcast_in_dim %c, dims = [] : (tensor<i32>) -> tensor<i32>, in @cumsum_1's %0 = func.call @cumsum_2(…) (record main_call3_call0) -/
def val_call3_call0_v0 : (⟨S_, .i32⟩ : BufTy).Contents (Elt Ideal) :=
  (broadcastInDim S_ ![] bcast_S_S_) val_call3_call0_c

/-- `main_v15`: @cumsum_1's %0 = func.call @cumsum_2(…) (record main_call3_call0) result 0: @cumsum_2's %1 = "stablehlo.reduce_window"(%arg0, %0) <{base_dilations = array<i6… -/
def val_v15 : (⟨S2080, .i32⟩ : BufTy).Contents (Elt Ideal) :=
  (fun x v => Host.reduceWindow IntOp.addi ![2080] ![1] ![2079] ![0] x v reduceWindows_S2080_S2080_w2080s1p2079_0 h_S_) val_v14 val_call3_call0_v0

/-- `main_c_5`: %c_5 = stablehlo.constant dense<64> : tensor<i32> -/
def val_c_5 : (⟨S_, .i32⟩ : BufTy).Contents (Elt Ideal) :=
  (constantI S_ 32 64#32)

/-- `main_call4_v0`: @floor_divide's %0 = stablehlo.broadcast_in_dim %arg1, dims = [] : (tensor<i32>) -> tensor<2080xi32>, in %16 = func.call @floor_divide(…) (record main_call4) -/
def val_call4_v0 : (⟨S2080, .i32⟩ : BufTy).Contents (Elt Ideal) :=
  (broadcastInDim S2080 ![] bcast_S_S2080) val_c_5

/-- `main_call4_v1`: @floor_divide's %1 = stablehlo.divide %arg0, %0 : tensor<2080xi32>, in %16 = func.call @floor_divide(…) (record main_call4) -/
def val_call4_v1 : (⟨S2080, .i32⟩ : BufTy).Contents (Elt Ideal) :=
  Host.divsi val_v15 val_call4_v0

/-- `main_call4_v2`: @floor_divide's %2 = stablehlo.sign %arg0 : tensor<2080xi32>, in %16 = func.call @floor_divide(…) (record main_call4) -/
def val_call4_v2 : (⟨S2080, .i32⟩ : BufTy).Contents (Elt Ideal) :=
  signi val_v15

/-- `main_call4_v3`: @floor_divide's %3 = stablehlo.sign %arg1 : tensor<i32>, in %16 = func.call @floor_divide(…) (record main_call4) -/
def val_call4_v3 : (⟨S_, .i32⟩ : BufTy).Contents (Elt Ideal) :=
  signi val_c_5

/-- `main_call4_v4`: @floor_divide's %4 = stablehlo.broadcast_in_dim %3, dims = [] : (tensor<i32>) -> tensor<2080xi32>, in %16 = func.call @floor_divide(…) (record main_call4) -/
def val_call4_v4 : (⟨S2080, .i32⟩ : BufTy).Contents (Elt Ideal) :=
  (broadcastInDim S2080 ![] bcast_S_S2080) val_call4_v3

/-- `main_call4_v5`: @floor_divide's %5 = stablehlo.compare NE, %2, %4, SIGNED : (tensor<2080xi32>, tensor<2080xi32>) -> tensor<2080xi1>, in %16 = func.call @floor_divide(…) (rec… -/
def val_call4_v5 : (⟨S2080, .i1⟩ : BufTy).Contents (Elt Ideal) :=
  (cmpi .ne) val_call4_v2 val_call4_v4

/-- `main_call4_v6`: @floor_divide's %6 = stablehlo.broadcast_in_dim %arg1, dims = [] : (tensor<i32>) -> tensor<2080xi32>, in %16 = func.call @floor_divide(…) (record main_call4) -/
def val_call4_v6 : (⟨S2080, .i32⟩ : BufTy).Contents (Elt Ideal) :=
  (broadcastInDim S2080 ![] bcast_S_S2080) val_c_5

/-- `main_call4_v7`: @floor_divide's %7 = stablehlo.remainder %arg0, %6 : tensor<2080xi32>, in %16 = func.call @floor_divide(…) (record main_call4) -/
def val_call4_v7 : (⟨S2080, .i32⟩ : BufTy).Contents (Elt Ideal) :=
  Host.remsi val_v15 val_call4_v6

/-- `main_call4_c`: @floor_divide's %c = stablehlo.constant dense<0> : tensor<i32>, in %16 = func.call @floor_divide(…) (record main_call4) -/
def val_call4_c : (⟨S_, .i32⟩ : BufTy).Contents (Elt Ideal) :=
  (constantI S_ 32 0#32)

/-- `main_call4_v8`: @floor_divide's %8 = stablehlo.broadcast_in_dim %c, dims = [] : (tensor<i32>) -> tensor<2080xi32>, in %16 = func.call @floor_divide(…) (record main_call4) -/
def val_call4_v8 : (⟨S2080, .i32⟩ : BufTy).Contents (Elt Ideal) :=
  (broadcastInDim S2080 ![] bcast_S_S2080) val_call4_c

/-- `main_call4_v9`: @floor_divide's %9 = stablehlo.compare NE, %7, %8, SIGNED : (tensor<2080xi32>, tensor<2080xi32>) -> tensor<2080xi1>, in %16 = func.call @floor_divide(…) (rec… -/
def val_call4_v9 : (⟨S2080, .i1⟩ : BufTy).Contents (Elt Ideal) :=
  (cmpi .ne) val_call4_v7 val_call4_v8

/-- `main_call4_v10`: @floor_divide's %10 = stablehlo.and %5, %9 : tensor<2080xi1>, in %16 = func.call @floor_divide(…) (record main_call4) -/
def val_call4_v10 : (⟨S2080, .i1⟩ : BufTy).Contents (Elt Ideal) :=
  andi val_call4_v5 val_call4_v9

/-- `main_call4_c_0`: @floor_divide's %c_0 = stablehlo.constant dense<1> : tensor<i32>, in %16 = func.call @floor_divide(…) (record main_call4) -/
def val_call4_c_0 : (⟨S_, .i32⟩ : BufTy).Contents (Elt Ideal) :=
  (constantI S_ 32 1#32)

/-- `main_call4_v11`: @floor_divide's %11 = stablehlo.broadcast_in_dim %c_0, dims = [] : (tensor<i32>) -> tensor<2080xi32>, in %16 = func.call @floor_divide(…) (record main_call4) -/
def val_call4_v11 : (⟨S2080, .i32⟩ : BufTy).Contents (Elt Ideal) :=
  (broadcastInDim S2080 ![] bcast_S_S2080) val_call4_c_0

/-- `main_call4_v12`: @floor_divide's %12 = stablehlo.subtract %1, %11 : tensor<2080xi32>, in %16 = func.call @floor_divide(…) (record main_call4) -/
def val_call4_v12 : (⟨S2080, .i32⟩ : BufTy).Contents (Elt Ideal) :=
  subi val_call4_v1 val_call4_v11

/-- `main_v16`: @floor_divide's %13 = func.call @_where(…) (record main_call4_call0) result 0: @_where's %0 = stablehlo.select %arg0, %arg1, %arg2 : tensor<2080xi1>, tensor<… -/
def val_v16 : (⟨S2080, .i32⟩ : BufTy).Contents (Elt Ideal) :=
  select val_call4_v10 val_call4_v12 val_call4_v1

/-- `main_c_6`: %c_6 = stablehlo.constant dense<64> : tensor<i32> -/
def val_c_6 : (⟨S_, .i32⟩ : BufTy).Contents (Elt Ideal) :=
  (constantI S_ 32 64#32)

/-- `main_call5_v0`: @remainder's %0 = stablehlo.convert %arg1 : tensor<i32>, in %17 = func.call @remainder(…) (record main_call5) -/
def val_call5_v0 : (⟨S_, .i32⟩ : BufTy).Contents (Elt Ideal) :=
  id val_c_6

/-- `main_call5_c`: @remainder's %c = stablehlo.constant dense<0> : tensor<i32>, in %17 = func.call @remainder(…) (record main_call5) -/
def val_call5_c : (⟨S_, .i32⟩ : BufTy).Contents (Elt Ideal) :=
  (constantI S_ 32 0#32)

/-- `main_call5_v1`: @remainder's %1 = stablehlo.compare EQ, %0, %c, SIGNED : (tensor<i32>, tensor<i32>) -> tensor<i1>, in %17 = func.call @remainder(…) (record main_call5) -/
def val_call5_v1 : (⟨S_, .i1⟩ : BufTy).Contents (Elt Ideal) :=
  (cmpi .eq) val_call5_v0 val_call5_c

/-- `main_call5_c_0`: @remainder's %c_0 = stablehlo.constant dense<1> : tensor<i32>, in %17 = func.call @remainder(…) (record main_call5) -/
def val_call5_c_0 : (⟨S_, .i32⟩ : BufTy).Contents (Elt Ideal) :=
  (constantI S_ 32 1#32)

/-- `main_call5_v2`: @remainder's %2 = func.call @_where_3(…) (record main_call5_call0) result 0: @_where_3's %0 = stablehlo.select %arg0, %arg1, %arg2 : tensor<i1>, tensor<i32> -/
def val_call5_v2 : (⟨S_, .i32⟩ : BufTy).Contents (Elt Ideal) :=
  select val_call5_v1 val_call5_c_0 val_call5_v0

/-- `main_call5_v3`: @remainder's %3 = stablehlo.broadcast_in_dim %2, dims = [] : (tensor<i32>) -> tensor<2080xi32>, in %17 = func.call @remainder(…) (record main_call5) -/
def val_call5_v3 : (⟨S2080, .i32⟩ : BufTy).Contents (Elt Ideal) :=
  (broadcastInDim S2080 ![] bcast_S_S2080) val_call5_v2

/-- `main_call5_v4`: @remainder's %4 = stablehlo.remainder %arg0, %3 : tensor<2080xi32>, in %17 = func.call @remainder(…) (record main_call5) -/
def val_call5_v4 : (⟨S2080, .i32⟩ : BufTy).Contents (Elt Ideal) :=
  Host.remsi val_v16 val_call5_v3

/-- `main_call5_c_1`: @remainder's %c_1 = stablehlo.constant dense<0> : tensor<i32>, in %17 = func.call @remainder(…) (record main_call5) -/
def val_call5_c_1 : (⟨S_, .i32⟩ : BufTy).Contents (Elt Ideal) :=
  (constantI S_ 32 0#32)

/-- `main_call5_v5`: @remainder's %5 = stablehlo.broadcast_in_dim %c_1, dims = [] : (tensor<i32>) -> tensor<2080xi32>, in %17 = func.call @remainder(…) (record main_call5) -/
def val_call5_v5 : (⟨S2080, .i32⟩ : BufTy).Contents (Elt Ideal) :=
  (broadcastInDim S2080 ![] bcast_S_S2080) val_call5_c_1

/-- `main_call5_v6`: @remainder's %6 = stablehlo.compare NE, %4, %5, SIGNED : (tensor<2080xi32>, tensor<2080xi32>) -> tensor<2080xi1>, in %17 = func.call @remainder(…) (record ma… -/
def val_call5_v6 : (⟨S2080, .i1⟩ : BufTy).Contents (Elt Ideal) :=
  (cmpi .ne) val_call5_v4 val_call5_v5

/-- `main_call5_c_2`: @remainder's %c_2 = stablehlo.constant dense<0> : tensor<i32>, in %17 = func.call @remainder(…) (record main_call5) -/
def val_call5_c_2 : (⟨S_, .i32⟩ : BufTy).Contents (Elt Ideal) :=
  (constantI S_ 32 0#32)

/-- `main_call5_v7`: @remainder's %7 = stablehlo.broadcast_in_dim %c_2, dims = [] : (tensor<i32>) -> tensor<2080xi32>, in %17 = func.call @remainder(…) (record main_call5) -/
def val_call5_v7 : (⟨S2080, .i32⟩ : BufTy).Contents (Elt Ideal) :=
  (broadcastInDim S2080 ![] bcast_S_S2080) val_call5_c_2

/-- `main_call5_v8`: @remainder's %8 = stablehlo.compare LT, %4, %7, SIGNED : (tensor<2080xi32>, tensor<2080xi32>) -> tensor<2080xi1>, in %17 = func.call @remainder(…) (record ma… -/
def val_call5_v8 : (⟨S2080, .i1⟩ : BufTy).Contents (Elt Ideal) :=
  (cmpi .slt) val_call5_v4 val_call5_v7

/-- `main_call5_c_3`: @remainder's %c_3 = stablehlo.constant dense<0> : tensor<i32>, in %17 = func.call @remainder(…) (record main_call5) -/
def val_call5_c_3 : (⟨S_, .i32⟩ : BufTy).Contents (Elt Ideal) :=
  (constantI S_ 32 0#32)

/-- `main_call5_v9`: @remainder's %9 = stablehlo.compare LT, %2, %c_3, SIGNED : (tensor<i32>, tensor<i32>) -> tensor<i1>, in %17 = func.call @remainder(…) (record main_call5) -/
def val_call5_v9 : (⟨S_, .i1⟩ : BufTy).Contents (Elt Ideal) :=
  (cmpi .slt) val_call5_v2 val_call5_c_3

/-- `main_call5_v10`: @remainder's %10 = stablehlo.broadcast_in_dim %9, dims = [] : (tensor<i1>) -> tensor<2080xi1>, in %17 = func.call @remainder(…) (record main_call5) -/
def val_call5_v10 : (⟨S2080, .i1⟩ : BufTy).Contents (Elt Ideal) :=
  (broadcastInDim S2080 ![] bcast_S_S2080) val_call5_v9

/-- `main_call5_v11`: @remainder's %11 = stablehlo.compare NE, %8, %10, UNSIGNED : (tensor<2080xi1>, tensor<2080xi1>) -> tensor<2080xi1>, in %17 = func.call @remainder(…) (record … -/
def val_call5_v11 : (⟨S2080, .i1⟩ : BufTy).Contents (Elt Ideal) :=
  (cmpi .ne) val_call5_v8 val_call5_v10

/-- `main_call5_v12`: @remainder's %12 = stablehlo.and %11, %6 : tensor<2080xi1>, in %17 = func.call @remainder(…) (record main_call5) -/
def val_call5_v12 : (⟨S2080, .i1⟩ : BufTy).Contents (Elt Ideal) :=
  andi val_call5_v11 val_call5_v6

/-- `main_call5_v13`: @remainder's %13 = stablehlo.broadcast_in_dim %2, dims = [] : (tensor<i32>) -> tensor<2080xi32>, in %17 = func.call @remainder(…) (record main_call5) -/
def val_call5_v13 : (⟨S2080, .i32⟩ : BufTy).Contents (Elt Ideal) :=
  (broadcastInDim S2080 ![] bcast_S_S2080) val_call5_v2

/-- `main_call5_v14`: @remainder's %14 = stablehlo.add %4, %13 : tensor<2080xi32>, in %17 = func.call @remainder(…) (record main_call5) -/
def val_call5_v14 : (⟨S2080, .i32⟩ : BufTy).Contents (Elt Ideal) :=
  addi val_call5_v4 val_call5_v13

/-- `main_v17`: %17 = func.call @remainder(…) (record main_call5) result 0: @remainder's %15 = stablehlo.select %12, %14, %4 : tensor<2080xi1>, tensor<2080xi32> -/
def val_v17 : (⟨S2080, .i32⟩ : BufTy).Contents (Elt Ideal) :=
  select val_call5_v12 val_call5_v14 val_call5_v4

/-- `main_c_7`: %c_7 = stablehlo.constant dense<1> : tensor<i32> -/
def val_c_7 : (⟨S_, .i32⟩ : BufTy).Contents (Elt Ideal) :=
  (constantI S_ 32 1#32)

/-- `main_call6_v0`: @floor_divide's %0 = stablehlo.broadcast_in_dim %arg1, dims = [] : (tensor<i32>) -> tensor<2080xi32>, in %18 = func.call @floor_divide(…) (record main_call6) -/
def val_call6_v0 : (⟨S2080, .i32⟩ : BufTy).Contents (Elt Ideal) :=
  (broadcastInDim S2080 ![] bcast_S_S2080) val_c_7

/-- `main_call6_v1`: @floor_divide's %1 = stablehlo.divide %arg0, %0 : tensor<2080xi32>, in %18 = func.call @floor_divide(…) (record main_call6) -/
def val_call6_v1 : (⟨S2080, .i32⟩ : BufTy).Contents (Elt Ideal) :=
  Host.divsi val_v15 val_call6_v0

/-- `main_call6_v2`: @floor_divide's %2 = stablehlo.sign %arg0 : tensor<2080xi32>, in %18 = func.call @floor_divide(…) (record main_call6) -/
def val_call6_v2 : (⟨S2080, .i32⟩ : BufTy).Contents (Elt Ideal) :=
  signi val_v15

/-- `main_call6_v3`: @floor_divide's %3 = stablehlo.sign %arg1 : tensor<i32>, in %18 = func.call @floor_divide(…) (record main_call6) -/
def val_call6_v3 : (⟨S_, .i32⟩ : BufTy).Contents (Elt Ideal) :=
  signi val_c_7

/-- `main_call6_v4`: @floor_divide's %4 = stablehlo.broadcast_in_dim %3, dims = [] : (tensor<i32>) -> tensor<2080xi32>, in %18 = func.call @floor_divide(…) (record main_call6) -/
def val_call6_v4 : (⟨S2080, .i32⟩ : BufTy).Contents (Elt Ideal) :=
  (broadcastInDim S2080 ![] bcast_S_S2080) val_call6_v3

/-- `main_call6_v5`: @floor_divide's %5 = stablehlo.compare NE, %2, %4, SIGNED : (tensor<2080xi32>, tensor<2080xi32>) -> tensor<2080xi1>, in %18 = func.call @floor_divide(…) (rec… -/
def val_call6_v5 : (⟨S2080, .i1⟩ : BufTy).Contents (Elt Ideal) :=
  (cmpi .ne) val_call6_v2 val_call6_v4

/-- `main_call6_v6`: @floor_divide's %6 = stablehlo.broadcast_in_dim %arg1, dims = [] : (tensor<i32>) -> tensor<2080xi32>, in %18 = func.call @floor_divide(…) (record main_call6) -/
def val_call6_v6 : (⟨S2080, .i32⟩ : BufTy).Contents (Elt Ideal) :=
  (broadcastInDim S2080 ![] bcast_S_S2080) val_c_7

/-- `main_call6_v7`: @floor_divide's %7 = stablehlo.remainder %arg0, %6 : tensor<2080xi32>, in %18 = func.call @floor_divide(…) (record main_call6) -/
def val_call6_v7 : (⟨S2080, .i32⟩ : BufTy).Contents (Elt Ideal) :=
  Host.remsi val_v15 val_call6_v6

/-- `main_call6_c`: @floor_divide's %c = stablehlo.constant dense<0> : tensor<i32>, in %18 = func.call @floor_divide(…) (record main_call6) -/
def val_call6_c : (⟨S_, .i32⟩ : BufTy).Contents (Elt Ideal) :=
  (constantI S_ 32 0#32)

/-- `main_call6_v8`: @floor_divide's %8 = stablehlo.broadcast_in_dim %c, dims = [] : (tensor<i32>) -> tensor<2080xi32>, in %18 = func.call @floor_divide(…) (record main_call6) -/
def val_call6_v8 : (⟨S2080, .i32⟩ : BufTy).Contents (Elt Ideal) :=
  (broadcastInDim S2080 ![] bcast_S_S2080) val_call6_c

/-- `main_call6_v9`: @floor_divide's %9 = stablehlo.compare NE, %7, %8, SIGNED : (tensor<2080xi32>, tensor<2080xi32>) -> tensor<2080xi1>, in %18 = func.call @floor_divide(…) (rec… -/
def val_call6_v9 : (⟨S2080, .i1⟩ : BufTy).Contents (Elt Ideal) :=
  (cmpi .ne) val_call6_v7 val_call6_v8

/-- `main_call6_v10`: @floor_divide's %10 = stablehlo.and %5, %9 : tensor<2080xi1>, in %18 = func.call @floor_divide(…) (record main_call6) -/
def val_call6_v10 : (⟨S2080, .i1⟩ : BufTy).Contents (Elt Ideal) :=
  andi val_call6_v5 val_call6_v9

/-- `main_call6_c_0`: @floor_divide's %c_0 = stablehlo.constant dense<1> : tensor<i32>, in %18 = func.call @floor_divide(…) (record main_call6) -/
def val_call6_c_0 : (⟨S_, .i32⟩ : BufTy).Contents (Elt Ideal) :=
  (constantI S_ 32 1#32)

/-- `main_call6_v11`: @floor_divide's %11 = stablehlo.broadcast_in_dim %c_0, dims = [] : (tensor<i32>) -> tensor<2080xi32>, in %18 = func.call @floor_divide(…) (record main_call6) -/
def val_call6_v11 : (⟨S2080, .i32⟩ : BufTy).Contents (Elt Ideal) :=
  (broadcastInDim S2080 ![] bcast_S_S2080) val_call6_c_0

/-- `main_call6_v12`: @floor_divide's %12 = stablehlo.subtract %1, %11 : tensor<2080xi32>, in %18 = func.call @floor_divide(…) (record main_call6) -/
def val_call6_v12 : (⟨S2080, .i32⟩ : BufTy).Contents (Elt Ideal) :=
  subi val_call6_v1 val_call6_v11

/-- `main_v18`: @floor_divide's %13 = func.call @_where(…) (record main_call6_call0) result 0: @_where's %0 = stablehlo.select %arg0, %arg1, %arg2 : tensor<2080xi1>, tensor<… -/
def val_v18 : (⟨S2080, .i32⟩ : BufTy).Contents (Elt Ideal) :=
  select val_call6_v10 val_call6_v12 val_call6_v1

/-- `main_c_8`: %c_8 = stablehlo.constant dense<64> : tensor<i32> -/
def val_c_8 : (⟨S_, .i32⟩ : BufTy).Contents (Elt Ideal) :=
  (constantI S_ 32 64#32)

/-- `main_call7_v0`: @remainder's %0 = stablehlo.convert %arg1 : tensor<i32>, in %19 = func.call @remainder(…) (record main_call7) -/
def val_call7_v0 : (⟨S_, .i32⟩ : BufTy).Contents (Elt Ideal) :=
  id val_c_8

/-- `main_call7_c`: @remainder's %c = stablehlo.constant dense<0> : tensor<i32>, in %19 = func.call @remainder(…) (record main_call7) -/
def val_call7_c : (⟨S_, .i32⟩ : BufTy).Contents (Elt Ideal) :=
  (constantI S_ 32 0#32)

/-- `main_call7_v1`: @remainder's %1 = stablehlo.compare EQ, %0, %c, SIGNED : (tensor<i32>, tensor<i32>) -> tensor<i1>, in %19 = func.call @remainder(…) (record main_call7) -/
def val_call7_v1 : (⟨S_, .i1⟩ : BufTy).Contents (Elt Ideal) :=
  (cmpi .eq) val_call7_v0 val_call7_c

/-- `main_call7_c_0`: @remainder's %c_0 = stablehlo.constant dense<1> : tensor<i32>, in %19 = func.call @remainder(…) (record main_call7) -/
def val_call7_c_0 : (⟨S_, .i32⟩ : BufTy).Contents (Elt Ideal) :=
  (constantI S_ 32 1#32)

/-- `main_call7_v2`: @remainder's %2 = func.call @_where_3(…) (record main_call7_call0) result 0: @_where_3's %0 = stablehlo.select %arg0, %arg1, %arg2 : tensor<i1>, tensor<i32> -/
def val_call7_v2 : (⟨S_, .i32⟩ : BufTy).Contents (Elt Ideal) :=
  select val_call7_v1 val_call7_c_0 val_call7_v0

/-- `main_call7_v3`: @remainder's %3 = stablehlo.broadcast_in_dim %2, dims = [] : (tensor<i32>) -> tensor<2080xi32>, in %19 = func.call @remainder(…) (record main_call7) -/
def val_call7_v3 : (⟨S2080, .i32⟩ : BufTy).Contents (Elt Ideal) :=
  (broadcastInDim S2080 ![] bcast_S_S2080) val_call7_v2

/-- `main_call7_v4`: @remainder's %4 = stablehlo.remainder %arg0, %3 : tensor<2080xi32>, in %19 = func.call @remainder(…) (record main_call7) -/
def val_call7_v4 : (⟨S2080, .i32⟩ : BufTy).Contents (Elt Ideal) :=
  Host.remsi val_v18 val_call7_v3

/-- `main_call7_c_1`: @remainder's %c_1 = stablehlo.constant dense<0> : tensor<i32>, in %19 = func.call @remainder(…) (record main_call7) -/
def val_call7_c_1 : (⟨S_, .i32⟩ : BufTy).Contents (Elt Ideal) :=
  (constantI S_ 32 0#32)

/-- `main_call7_v5`: @remainder's %5 = stablehlo.broadcast_in_dim %c_1, dims = [] : (tensor<i32>) -> tensor<2080xi32>, in %19 = func.call @remainder(…) (record main_call7) -/
def val_call7_v5 : (⟨S2080, .i32⟩ : BufTy).Contents (Elt Ideal) :=
  (broadcastInDim S2080 ![] bcast_S_S2080) val_call7_c_1

/-- `main_call7_v6`: @remainder's %6 = stablehlo.compare NE, %4, %5, SIGNED : (tensor<2080xi32>, tensor<2080xi32>) -> tensor<2080xi1>, in %19 = func.call @remainder(…) (record ma… -/
def val_call7_v6 : (⟨S2080, .i1⟩ : BufTy).Contents (Elt Ideal) :=
  (cmpi .ne) val_call7_v4 val_call7_v5

/-- `main_call7_c_2`: @remainder's %c_2 = stablehlo.constant dense<0> : tensor<i32>, in %19 = func.call @remainder(…) (record main_call7) -/
def val_call7_c_2 : (⟨S_, .i32⟩ : BufTy).Contents (Elt Ideal) :=
  (constantI S_ 32 0#32)

/-- `main_call7_v7`: @remainder's %7 = stablehlo.broadcast_in_dim %c_2, dims = [] : (tensor<i32>) -> tensor<2080xi32>, in %19 = func.call @remainder(…) (record main_call7) -/
def val_call7_v7 : (⟨S2080, .i32⟩ : BufTy).Contents (Elt Ideal) :=
  (broadcastInDim S2080 ![] bcast_S_S2080) val_call7_c_2

/-- `main_call7_v8`: @remainder's %8 = stablehlo.compare LT, %4, %7, SIGNED : (tensor<2080xi32>, tensor<2080xi32>) -> tensor<2080xi1>, in %19 = func.call @remainder(…) (record ma… -/
def val_call7_v8 : (⟨S2080, .i1⟩ : BufTy).Contents (Elt Ideal) :=
  (cmpi .slt) val_call7_v4 val_call7_v7

/-- `main_call7_c_3`: @remainder's %c_3 = stablehlo.constant dense<0> : tensor<i32>, in %19 = func.call @remainder(…) (record main_call7) -/
def val_call7_c_3 : (⟨S_, .i32⟩ : BufTy).Contents (Elt Ideal) :=
  (constantI S_ 32 0#32)

/-- `main_call7_v9`: @remainder's %9 = stablehlo.compare LT, %2, %c_3, SIGNED : (tensor<i32>, tensor<i32>) -> tensor<i1>, in %19 = func.call @remainder(…) (record main_call7) -/
def val_call7_v9 : (⟨S_, .i1⟩ : BufTy).Contents (Elt Ideal) :=
  (cmpi .slt) val_call7_v2 val_call7_c_3

/-- `main_call7_v10`: @remainder's %10 = stablehlo.broadcast_in_dim %9, dims = [] : (tensor<i1>) -> tensor<2080xi1>, in %19 = func.call @remainder(…) (record main_call7) -/
def val_call7_v10 : (⟨S2080, .i1⟩ : BufTy).Contents (Elt Ideal) :=
  (broadcastInDim S2080 ![] bcast_S_S2080) val_call7_v9

/-- `main_call7_v11`: @remainder's %11 = stablehlo.compare NE, %8, %10, UNSIGNED : (tensor<2080xi1>, tensor<2080xi1>) -> tensor<2080xi1>, in %19 = func.call @remainder(…) (record … -/
def val_call7_v11 : (⟨S2080, .i1⟩ : BufTy).Contents (Elt Ideal) :=
  (cmpi .ne) val_call7_v8 val_call7_v10

/-- `main_call7_v12`: @remainder's %12 = stablehlo.and %11, %6 : tensor<2080xi1>, in %19 = func.call @remainder(…) (record main_call7) -/
def val_call7_v12 : (⟨S2080, .i1⟩ : BufTy).Contents (Elt Ideal) :=
  andi val_call7_v11 val_call7_v6

/-- `main_call7_v13`: @remainder's %13 = stablehlo.broadcast_in_dim %2, dims = [] : (tensor<i32>) -> tensor<2080xi32>, in %19 = func.call @remainder(…) (record main_call7) -/
def val_call7_v13 : (⟨S2080, .i32⟩ : BufTy).Contents (Elt Ideal) :=
  (broadcastInDim S2080 ![] bcast_S_S2080) val_call7_v2

/-- `main_call7_v14`: @remainder's %14 = stablehlo.add %4, %13 : tensor<2080xi32>, in %19 = func.call @remainder(…) (record main_call7) -/
def val_call7_v14 : (⟨S2080, .i32⟩ : BufTy).Contents (Elt Ideal) :=
  addi val_call7_v4 val_call7_v13

/-- `main_v19`: %19 = func.call @remainder(…) (record main_call7) result 0: @remainder's %15 = stablehlo.select %12, %14, %4 : tensor<2080xi1>, tensor<2080xi32> -/
def val_v19 : (⟨S2080, .i32⟩ : BufTy).Contents (Elt Ideal) :=
  select val_call7_v12 val_call7_v14 val_call7_v4

/-- `main_c_9`: %c_9 = stablehlo.constant dense<0> : tensor<i32> -/
def val_c_9 : (⟨S_, .i32⟩ : BufTy).Contents (Elt Ideal) :=
  (constantI S_ 32 0#32)

/-- `main_v20`: %20 = stablehlo.broadcast_in_dim %c_9, dims = [] : (tensor<i32>) -> tensor<2080xi32> -/
def val_v20 : (⟨S2080, .i32⟩ : BufTy).Contents (Elt Ideal) :=
  (broadcastInDim S2080 ![] bcast_S_S2080 : (⟨S_, .i32⟩ : BufTy).Contents (Elt Ideal) → (⟨S2080, .i32⟩ : BufTy).Contents (Elt Ideal)) val_c_9

/-- `main_v21`: %21 = stablehlo.compare LT, %17, %20, SIGNED : (tensor<2080xi32>, tensor<2080xi32>) -> tensor<2080xi1> -/
def val_v21 : (⟨S2080, .i1⟩ : BufTy).Contents (Elt Ideal) :=
  (cmpi .slt : (⟨S2080, .i32⟩ : BufTy).Contents (Elt Ideal) → (⟨S2080, .i32⟩ : BufTy).Contents (Elt Ideal) → (⟨S2080, .i1⟩ : BufTy).Contents (Elt Ideal)) val_v17 val_v20

/-- `main_c_10`: %c_10 = stablehlo.constant dense<64> : tensor<i32> -/
def val_c_10 : (⟨S_, .i32⟩ : BufTy).Contents (Elt Ideal) :=
  (constantI S_ 32 64#32)

/-- `main_v22`: %22 = stablehlo.broadcast_in_dim %c_10, dims = [] : (tensor<i32>) -> tensor<2080xi32> -/
def val_v22 : (⟨S2080, .i32⟩ : BufTy).Contents (Elt Ideal) :=
  (broadcastInDim S2080 ![] bcast_S_S2080 : (⟨S_, .i32⟩ : BufTy).Contents (Elt Ideal) → (⟨S2080, .i32⟩ : BufTy).Contents (Elt Ideal)) val_c_10

/-- `main_v23`: %23 = stablehlo.add %17, %22 : tensor<2080xi32> -/
def val_v23 : (⟨S2080, .i32⟩ : BufTy).Contents (Elt Ideal) :=
  (addi : (⟨S2080, .i32⟩ : BufTy).Contents (Elt Ideal) → (⟨S2080, .i32⟩ : BufTy).Contents (Elt Ideal) → (⟨S2080, .i32⟩ : BufTy).Contents (Elt Ideal)) val_v17 val_v22

/-- `main_v24`: %24 = stablehlo.select %21, %23, %17 : tensor<2080xi1>, tensor<2080xi32> -/
def val_v24 : (⟨S2080, .i32⟩ : BufTy).Contents (Elt Ideal) :=
  (select : (⟨S2080, .i1⟩ : BufTy).Contents (Elt Ideal) → (⟨S2080, .i32⟩ : BufTy).Contents (Elt Ideal) → (⟨S2080, .i32⟩ : BufTy).Contents (Elt Ideal) → (⟨S2080, .i32⟩ : BufTy).Contents (Elt Ideal)) val_v21 val_v23 val_v17

/-- `main_v25`: %25 = stablehlo.broadcast_in_dim %24, dims = [0] : (tensor<2080xi32>) -> tensor<2080x1xi32> -/
def val_v25 : (⟨S2080x1, .i32⟩ : BufTy).Contents (Elt Ideal) :=
  (broadcastInDim S2080x1 ![0] bcast_S2080_S2080x1_0 : (⟨S2080, .i32⟩ : BufTy).Contents (Elt Ideal) → (⟨S2080x1, .i32⟩ : BufTy).Contents (Elt Ideal)) val_v24

/-- `main_v26`: %26 = "stablehlo.gather"(%arg2, %25) <{dimension_numbers = #stablehlo.gather<offset_dims = [1], collapsed_slice_dims = [0], start_index_map = [0], index_vect… -/
def val_v26 (phi : (⟨S64x65536, .f32⟩ : BufTy).Contents (Elt Ideal)) : (⟨S2080x65536, .f32⟩ : BufTy).Contents (Elt Ideal) :=
  ((fun x i => Host.gather gather_S64x65536_S2080x1_S2080x65536_1_0_n_n_0_1_165536 x i) : (⟨S64x65536, .f32⟩ : BufTy).Contents (Elt Ideal) → (⟨S2080x1, .i32⟩ : BufTy).Contents (Elt Ideal) → (⟨S2080x65536, .f32⟩ : BufTy).Contents (Elt Ideal)) phi val_v25

/-- `main_c_11`: %c_11 = stablehlo.constant dense<0> : tensor<i32> -/
def val_c_11 : (⟨S_, .i32⟩ : BufTy).Contents (Elt Ideal) :=
  (constantI S_ 32 0#32)

/-- `main_v27`: %27 = stablehlo.broadcast_in_dim %c_11, dims = [] : (tensor<i32>) -> tensor<2080xi32> -/
def val_v27 : (⟨S2080, .i32⟩ : BufTy).Contents (Elt Ideal) :=
  (broadcastInDim S2080 ![] bcast_S_S2080 : (⟨S_, .i32⟩ : BufTy).Contents (Elt Ideal) → (⟨S2080, .i32⟩ : BufTy).Contents (Elt Ideal)) val_c_11

/-- `main_v28`: %28 = stablehlo.compare LT, %19, %27, SIGNED : (tensor<2080xi32>, tensor<2080xi32>) -> tensor<2080xi1> -/
def val_v28 : (⟨S2080, .i1⟩ : BufTy).Contents (Elt Ideal) :=
  (cmpi .slt : (⟨S2080, .i32⟩ : BufTy).Contents (Elt Ideal) → (⟨S2080, .i32⟩ : BufTy).Contents (Elt Ideal) → (⟨S2080, .i1⟩ : BufTy).Contents (Elt Ideal)) val_v19 val_v27

/-- `main_c_12`: %c_12 = stablehlo.constant dense<64> : tensor<i32> -/
def val_c_12 : (⟨S_, .i32⟩ : BufTy).Contents (Elt Ideal) :=
  (constantI S_ 32 64#32)

/-- `main_v29`: %29 = stablehlo.broadcast_in_dim %c_12, dims = [] : (tensor<i32>) -> tensor<2080xi32> -/
def val_v29 : (⟨S2080, .i32⟩ : BufTy).Contents (Elt Ideal) :=
  (broadcastInDim S2080 ![] bcast_S_S2080 : (⟨S_, .i32⟩ : BufTy).Contents (Elt Ideal) → (⟨S2080, .i32⟩ : BufTy).Contents (Elt Ideal)) val_c_12

/-- `main_v30`: %30 = stablehlo.add %19, %29 : tensor<2080xi32> -/
def val_v30 : (⟨S2080, .i32⟩ : BufTy).Contents (Elt Ideal) :=
  (addi : (⟨S2080, .i32⟩ : BufTy).Contents (Elt Ideal) → (⟨S2080, .i32⟩ : BufTy).Contents (Elt Ideal) → (⟨S2080, .i32⟩ : BufTy).Contents (Elt Ideal)) val_v19 val_v29

/-- `main_v31`: %31 = stablehlo.select %28, %30, %19 : tensor<2080xi1>, tensor<2080xi32> -/
def val_v31 : (⟨S2080, .i32⟩ : BufTy).Contents (Elt Ideal) :=
  (select : (⟨S2080, .i1⟩ : BufTy).Contents (Elt Ideal) → (⟨S2080, .i32⟩ : BufTy).Contents (Elt Ideal) → (⟨S2080, .i32⟩ : BufTy).Contents (Elt Ideal) → (⟨S2080, .i32⟩ : BufTy).Contents (Elt Ideal)) val_v28 val_v30 val_v19

/-- `main_v32`: %32 = stablehlo.broadcast_in_dim %31, dims = [0] : (tensor<2080xi32>) -> tensor<2080x1xi32> -/
def val_v32 : (⟨S2080x1, .i32⟩ : BufTy).Contents (Elt Ideal) :=
  (broadcastInDim S2080x1 ![0] bcast_S2080_S2080x1_0 : (⟨S2080, .i32⟩ : BufTy).Contents (Elt Ideal) → (⟨S2080x1, .i32⟩ : BufTy).Contents (Elt Ideal)) val_v31

/-- `main_v33`: %33 = "stablehlo.gather"(%arg2, %32) <{dimension_numbers = #stablehlo.gather<offset_dims = [1], collapsed_slice_dims = [0], start_index_map = [0], index_vect… -/
def val_v33 (phi : (⟨S64x65536, .f32⟩ : BufTy).Contents (Elt Ideal)) : (⟨S2080x65536, .f32⟩ : BufTy).Contents (Elt Ideal) :=
  ((fun x i => Host.gather gather_S64x65536_S2080x1_S2080x65536_1_0_n_n_0_1_165536 x i) : (⟨S64x65536, .f32⟩ : BufTy).Contents (Elt Ideal) → (⟨S2080x1, .i32⟩ : BufTy).Contents (Elt Ideal) → (⟨S2080x65536, .f32⟩ : BufTy).Contents (Elt Ideal)) phi val_v32

/-- `main_v34`: %34 = stablehlo.multiply %26, %33 : tensor<2080x65536xf32> -/
def val_v34 (phi : (⟨S64x65536, .f32⟩ : BufTy).Contents (Elt Ideal)) : (⟨S2080x65536, .f32⟩ : BufTy).Contents (Elt Ideal) :=
  (mulf (F := Ideal) (φ := .f32) : (⟨S2080x65536, .f32⟩ : BufTy).Contents (Elt Ideal) → (⟨S2080x65536, .f32⟩ : BufTy).Contents (Elt Ideal) → (⟨S2080x65536, .f32⟩ : BufTy).Contents (Elt Ideal)) (val_v26 phi) (val_v33 phi)

/-- `main_v35`: %35 = stablehlo.transpose %arg3, dims = [1, 0] : (tensor<2080x32xf32>) -> tensor<32x2080xf32> -/
def val_v35 (theta : (⟨S2080x32, .f32⟩ : BufTy).Contents (Elt Ideal)) : (⟨S32x2080, .f32⟩ : BufTy).Contents (Elt Ideal) :=
  ((transpose S32x2080 [1, 0] · transposes_S2080x32_S32x2080_1_0) : (⟨S2080x32, .f32⟩ : BufTy).Contents (Elt Ideal) → (⟨S32x2080, .f32⟩ : BufTy).Contents (Elt Ideal)) theta

/-- `main_v36`: %36 = stablehlo.dot_general %35, %34, contracting_dims = [1] x [0], precision = [DEFAULT, DEFAULT] : (tensor<32x2080xf32>, tensor<2080x65536xf32>) -> tensor<… -/
def val_v36 (phi : (⟨S64x65536, .f32⟩ : BufTy).Contents (Elt Ideal)) (theta : (⟨S2080x32, .f32⟩ : BufTy).Contents (Elt Ideal)) : (⟨S32x65536, .f32⟩ : BufTy).Contents (Elt Ideal) :=
  ((fun l r => Host.dotGeneral (F := Ideal) (φ₁ := .f32) (φ₂ := .f32) dot_S32x2080_S2080x65536_S32x65536_1_0_0_1_n_n none l r) : (⟨S32x2080, .f32⟩ : BufTy).Contents (Elt Ideal) → (⟨S2080x65536, .f32⟩ : BufTy).Contents (Elt Ideal) → (⟨S32x65536, .f32⟩ : BufTy).Contents (Elt Ideal)) (val_v35 theta) (val_v34 phi)

/-- `main_v37`: %37 = stablehlo.concatenate %arg2, %36, dim = 0 : (tensor<64x65536xf32>, tensor<32x65536xf32>) -> tensor<96x65536xf32> -/
def val_v37 (phi : (⟨S64x65536, .f32⟩ : BufTy).Contents (Elt Ideal)) (theta : (⟨S2080x32, .f32⟩ : BufTy).Contents (Elt Ideal)) : (⟨S96x65536, .f32⟩ : BufTy).Contents (Elt Ideal) :=
  ((fun a b => concatenate S96x65536 0 [⟨S64x65536, a⟩, ⟨S32x65536, b⟩] concatenates_S64x65536_S32x65536_S96x65536_d0) : (⟨S64x65536, .f32⟩ : BufTy).Contents (Elt Ideal) → (⟨S32x65536, .f32⟩ : BufTy).Contents (Elt Ideal) → (⟨S96x65536, .f32⟩ : BufTy).Contents (Elt Ideal)) phi (val_v36 phi theta)

/-- `main_v38`: %38 = stablehlo.dot_general %arg1, %37, contracting_dims = [1] x [0], precision = [DEFAULT, DEFAULT] : (tensor<2048x96xf32>, tensor<96x65536xf32>) -> tensor<… -/
def val_v38 (Q : (⟨S2048x96, .f32⟩ : BufTy).Contents (Elt Ideal)) (phi : (⟨S64x65536, .f32⟩ : BufTy).Contents (Elt Ideal)) (theta : (⟨S2080x32, .f32⟩ : BufTy).Contents (Elt Ideal)) : (⟨S2048x65536, .f32⟩ : BufTy).Contents (Elt Ideal) :=
  ((fun l r => Host.dotGeneral (F := Ideal) (φ₁ := .f32) (φ₂ := .f32) dot_S2048x96_S96x65536_S2048x65536_1_0_0_1_n_n none l r) : (⟨S2048x96, .f32⟩ : BufTy).Contents (Elt Ideal) → (⟨S96x65536, .f32⟩ : BufTy).Contents (Elt Ideal) → (⟨S2048x65536, .f32⟩ : BufTy).Contents (Elt Ideal)) Q (val_v37 phi theta)

/-- `main_v39`: %39 = stablehlo.broadcast_in_dim %arg0, dims = [0, 1] : (tensor<2048x1xf32>) -> tensor<2048x65536xf32> -/
def val_v39 (c : (⟨S2048x1, .f32⟩ : BufTy).Contents (Elt Ideal)) : (⟨S2048x65536, .f32⟩ : BufTy).Contents (Elt Ideal) :=
  (broadcastInDim S2048x65536 ![0, 1] bcast_S2048x1_S2048x65536_0_1 : (⟨S2048x1, .f32⟩ : BufTy).Contents (Elt Ideal) → (⟨S2048x65536, .f32⟩ : BufTy).Contents (Elt Ideal)) c

/-- `main_v40`: %40 = stablehlo.add %39, %38 : tensor<2048x65536xf32> -/
def val_v40 (c : (⟨S2048x1, .f32⟩ : BufTy).Contents (Elt Ideal)) (Q : (⟨S2048x96, .f32⟩ : BufTy).Contents (Elt Ideal)) (phi : (⟨S64x65536, .f32⟩ : BufTy).Contents (Elt Ideal)) (theta : (⟨S2080x32, .f32⟩ : BufTy).Contents (Elt Ideal)) : (⟨S2048x65536, .f32⟩ : BufTy).Contents (Elt Ideal) :=
  (addf (F := Ideal) (φ := .f32) : (⟨S2048x65536, .f32⟩ : BufTy).Contents (Elt Ideal) → (⟨S2048x65536, .f32⟩ : BufTy).Contents (Elt Ideal) → (⟨S2048x65536, .f32⟩ : BufTy).Contents (Elt Ideal)) (val_v39 c) (val_v38 Q phi theta)

end Cert.ReferenceIdeal.RefStages

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«166319_j26499948216761_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibEdgeOps.lean ====
/-
  Row gathers and row scatters read at an element.

  A program gathers rows of an array x : [N, C] (or entries of x : [N]) at a column idx : [M, 1] of integer words, and
  scatter-adds the rows of an update u : [M, C] (or the entries of u : [M]) into an operand of N rows at the rows a
  column of words names. Read at one element:

  * the gather's row e is the operand's row `pos` of word e: the word read signed and clamped into [0, N − 1];
  * the accumulating scatter's element (i, c) over the extended reals is the operand's element plus the sum of u(e, c)
    over the edges e whose word `land`s at i: the word read signed, NOT clamped, dropped when outside [0, N).

  A word that lands at row i is gathered from row i (`pos_of_land`). The statements are over ANY record of dimension
  numbers with the lists of such a row gather / row scatter, whatever the extents.
-/
import Idealize.ShloMosaic.PureOps
import Idealize.ShloMosaic.PureOps.Ideal
import Idealize.ShloMosaic.Lib.ValueIdx
import proofs.«166319_j26499948216761_1_alg».proof.Proof.LibScatterSet

noncomputable section

namespace Cert.LibEdgeOps

open Idealize.ShloMosaic Idealize.ShloMosaic.ValueIdx

/-! ## Where a word points -/

/-- The row of an N-row axis a start word names under the scatter's rule: read signed, not clamped; none when outside. -/
def land (N : ℕ) {w : ℕ} (v : BitVec w) : Option (Fin N) :=
  if h : 0 ≤ v.toInt ∧ v.toInt < (N : Int) then some ⟨v.toInt.toNat, by omega⟩ else none

theorem land_eq_some_iff {N w : ℕ} (v : BitVec w) (i : Fin N) : land N v = some i ↔ v.toInt = (i.val : Int) := by
  unfold land
  constructor
  · intro h
    split at h
    · rename_i hb
      have e := Option.some.inj h
      have : i.val = v.toInt.toNat := by rw [← e]
      omega
    · exact absurd h (by simp)
  · intro h
    have hb : 0 ≤ v.toInt ∧ v.toInt < (N : Int) := by have := i.isLt; omega
    rw [dif_pos hb]
    congr 1
    apply Fin.ext
    show v.toInt.toNat = i.val
    omega

/-- The row of an N-row axis a start word names under the gather's rule: read signed and clamped into [0, N − 1]. -/
def pos (N : ℕ) (hN : 0 < N) {w : ℕ} (v : BitVec w) : Fin N := ⟨min v.toInt.toNat (N - 1), by omega⟩

/-- A word that lands at row i is gathered from row i. -/
theorem pos_of_land {N w : ℕ} (hN : 0 < N) (v : BitVec w) (i : Fin N) (h : land N v = some i) : pos N hN v = i := by
  rw [land_eq_some_iff] at h
  apply Fin.ext
  show min v.toInt.toNat (N - 1) = i.val
  have := i.isLt
  omega

/-! ## The accumulating row scatter of an [M, C] update into [N, C] -/

abbrev rowScatter {N M C : ℕ} (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ := ⟨[1], [0], [0], 1, wf⟩

section RowScatter
variable {N M C w : ℕ} (wf : ScatterDims.WF ⟨2, ![N, C]⟩ ⟨2, ![M, 1]⟩ ⟨2, ![M, C]⟩ [1] [0] [0] 1)

theorem rowScatter_start0 (j : (⟨2, ![M, C]⟩ : Shape).Idx) (idx : IVec ⟨2, ![M, 1]⟩ w) :
    (rowScatter wf).start j idx 0 = (idx (ix2 (j 0) 0)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem rowScatter_start1 (j : (⟨2, ![M, C]⟩ : Shape).Idx) (idx : IVec ⟨2, ![M, 1]⟩ w) :
    (rowScatter wf).start j idx 1 = 0 := by
  unfold ScatterDims.start
  rw [dif_neg (show ¬ ((1 : Fin 2) ∈ ([0] : List (Fin 2))) by decide)]

theorem rowScatter_window0 (j : (⟨2, ![M, C]⟩ : Shape).Idx) : (rowScatter wf).window j 0 = 0 := by
  unfold ScatterDims.window
  rw [dif_neg (show ¬ ((0 : Fin 2) ∈ (rowScatter wf).sKept) from fun h => absurd (show (0 : Fin 2) ∈ ([1] : List (Fin 2)) from h) (by decide))]

theorem rowScatter_window1 (j : (⟨2, ![M, C]⟩ : Shape).Idx) : (rowScatter wf).window j 1 = (j 1).val := by
  unfold ScatterDims.window
  rw [dif_pos (show (1 : Fin 2) ∈ (rowScatter wf).sKept from (show (1 : Fin 2) ∈ ([1] : List (Fin 2)) by decide))]
  rfl

/-- Update index j lands at (i, c) exactly when its row's word lands at row i and its column is c. -/
theorem rowScatter_lands (j : (⟨2, ![M, C]⟩ : Shape).Idx) (idx : IVec ⟨2, ![M, 1]⟩ w) (i : Fin N) (c : Fin C) :
    (rowScatter wf).resultIdx? j idx = some (ix2 i c) ↔ land N (idx (ix2 (j 0) 0)) = some i ∧ j 1 = c := by
  rw [Cert.LibScatterSet.resultIdx?_eq_some_iff, land_eq_some_iff]
  constructor
  · intro h
    have h0 : (rowScatter wf).start j idx 0 + ((rowScatter wf).window j 0 : Int) = (i.val : Int) := h 0
    have h1 : (rowScatter wf).start j idx 1 + ((rowScatter wf).window j 1 : Int) = (c.val : Int) := h 1
    rw [rowScatter_start0, rowScatter_window0] at h0
    rw [rowScatter_start1, rowScatter_window1] at h1
    refine ⟨?_, Fin.ext ?_⟩
    · omega
    · omega
  · rintro ⟨h0, h1⟩ a
    match a with
    | ⟨0, _⟩ =>
      show (rowScatter wf).start j idx 0 + ((rowScatter wf).window j 0 : Int) = (i.val : Int)
      rw [rowScatter_start0, rowScatter_window0, h0]; simp
    | ⟨1, _⟩ =>
      show (rowScatter wf).start j idx 1 + ((rowScatter wf).window j 1 : Int) = (c.val : Int)
      rw [rowScatter_start1, rowScatter_window1, h1]; simp

/-- The sum over the update indices that land at (i, c) is the sum over the edges whose word lands at row i. -/
theorem rowScatter_sum (idx : IVec ⟨2, ![M, 1]⟩ w) (upd : (⟨2, ![M, C]⟩ : Shape).Idx → EReal) (i : Fin N) (c : Fin C) :
    (∑ j ∈ Finset.univ.filter (fun j => (rowScatter wf).resultIdx? j idx = some (ix2 i c)), upd j)
      = ∑ e ∈ Finset.univ.filter (fun e : Fin M => land N (idx (ix2 e 0)) = some i), upd (ix2 e c) := by
  refine Finset.sum_nbij' (fun j => (j 0 : Fin M)) (fun e => ix2 e c) ?_ ?_ ?_ ?_ ?_
  · intro j hj
    exact Finset.mem_filter.mpr ⟨Finset.mem_univ _, ((rowScatter_lands wf j idx i c).mp (Finset.mem_filter.mp hj).2).1⟩
  · intro e he
    exact Finset.mem_filter.mpr ⟨Finset.mem_univ _, (rowScatter_lands wf (ix2 e c) idx i c).mpr ⟨(Finset.mem_filter.mp he).2, rfl⟩⟩
  · intro j hj
    have h : j 1 = c := ((rowScatter_lands wf j idx i c).mp (Finset.mem_filter.mp hj).2).2
    show ix2 (j 0) c = j
    rw [← h]; exact (eq_ix2 j).symm
  · intro e _; rfl
  · intro j hj
    have h : j 1 = c := ((rowScatter_lands wf j idx i c).mp (Finset.mem_filter.mp hj).2).2
    show upd j = upd (ix2 (j 0) c)
    rw [← h]; exact congrArg upd (eq_ix2 j)

end RowScatter

/-- THE ROW SCATTER-ADD AT (i, c): the operand's element plus the sum of the updates' column c over the edges whose
    word lands at row i. -/
theorem scatterAdd_rows_apply {N M C w : ℕ} {φ : FTy} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd d x idx upd (ix2 i c)
      = x (ix2 i c) + ∑ e ∈ Finset.univ.filter (fun e : Fin M => land N (idx (ix2 e 0)) = some i), upd (ix2 e c) := by
  obtain ⟨uw, iw, sd, iv, wf⟩ := d
  dsimp only at h1 h2 h3 h4
  subst h1 h2 h3 h4
  show x (ix2 i c) + _ = _
  congr 1
  exact rowScatter_sum wf idx upd i c

/-! ## The accumulating scatter of an [M] update into [N] -/

abbrev vecScatter {N M : ℕ} (wf : ScatterDims.WF ⟨1, ![N]⟩ ⟨2, ![M, 1]⟩ ⟨1, ![M]⟩ [] [0] [0] 1) :
    ScatterDims ⟨1, ![N]⟩ ⟨2, ![M, 1]⟩ ⟨1, ![M]⟩ := ⟨[], [0], [0], 1, wf⟩

section VecScatter
variable {N M w : ℕ} (wf : ScatterDims.WF ⟨1, ![N]⟩ ⟨2, ![M, 1]⟩ ⟨1, ![M]⟩ [] [0] [0] 1)

theorem vecScatter_start0 (j : (⟨1, ![M]⟩ : Shape).Idx) (idx : IVec ⟨2, ![M, 1]⟩ w) :
    (vecScatter wf).start j idx 0 = (idx (ix2 (j 0) 0)).toInt := by
  unfold ScatterDims.start
  rw [dif_pos (show (0 : Fin 1) ∈ (vecScatter wf).scatterDimsToOperandDims from List.mem_singleton.mpr rfl)]
  congr 2
  funext b; refine Fin.ext ?_
  match b with
  | ⟨0, _⟩ => rfl
  | ⟨1, _⟩ => rfl

theorem vecScatter_window0 (j : (⟨1, ![M]⟩ : Shape).Idx) : (vecScatter wf).window j 0 = 0 := by
  unfold ScatterDims.window
  rw [dif_neg (show ¬ ((0 : Fin 1) ∈ (vecScatter wf).sKept) from fun h => absurd (show (0 : Fin 1) ∈ ([] : List (Fin 1)) from h) (by decide))]

theorem vecScatter_lands (j : (⟨1, ![M]⟩ : Shape).Idx) (idx : IVec ⟨2, ![M, 1]⟩ w) (i : Fin N) :
    (vecScatter wf).resultIdx? j idx = some (ix1 i) ↔ land N (idx (ix2 (j 0) 0)) = some i := by
  rw [Cert.LibScatterSet.resultIdx?_eq_some_iff, land_eq_some_iff]
  constructor
  · intro h
    have h0 : (vecScatter wf).start j idx 0 + ((vecScatter wf).window j 0 : Int) = (i.val : Int) := h 0
    rw [vecScatter_start0, vecScatter_window0] at h0
    omega
  · intro h0 a
    match a with
    | ⟨0, _⟩ =>
      show (vecScatter wf).start j idx 0 + ((vecScatter wf).window j 0 : Int) = (i.val : Int)
      rw [vecScatter_start0, vecScatter_window0, h0]; simp

theorem vecScatter_sum (idx : IVec ⟨2, ![M, 1]⟩ w) (upd : (⟨1, ![M]⟩ : Shape).Idx → EReal) (i : Fin N) :
    (∑ j ∈ Finset.univ.filter (fun j => (vecScatter wf).resultIdx? j idx = some (ix1 i)), upd j)
      = ∑ e ∈ Finset.univ.filter (fun e : Fin M => land N (idx (ix2 e 0)) = some i), upd (ix1 e) := by
  refine Finset.sum_nbij' (fun j => (j 0 : Fin M)) (fun e => ix1 e) ?_ ?_ ?_ ?_ ?_
  · intro j hj
    exact Finset.mem_filter.mpr ⟨Finset.mem_univ _, (vecScatter_lands wf j idx i).mp (Finset.mem_filter.mp hj).2⟩
  · intro e he
    exact Finset.mem_filter.mpr ⟨Finset.mem_univ _, (vecScatter_lands wf (ix1 e) idx i).mpr (Finset.mem_filter.mp he).2⟩
  · intro j _; exact (eq_ix1 j).symm
  · intro e _; rfl
  · intro j _; exact congrArg upd (eq_ix1 j)

end VecScatter

/-- THE VECTOR SCATTER-ADD AT i: the operand's entry plus the sum of the updates over the edges whose word lands at i. -/
theorem scatterAdd_vec_apply {N M w : ℕ} {φ : FTy} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd d x idx upd (ix1 i)
      = x (ix1 i) + ∑ e ∈ Finset.univ.filter (fun e : Fin M => land N (idx (ix2 e 0)) = some i), upd (ix1 e) := by
  obtain ⟨uw, iw, sd, iv, wf⟩ := d
  dsimp only at h1 h2 h3 h4
  subst h1 h2 h3 h4
  show x (ix1 i) + _ = _
  congr 1
  exact vecScatter_sum wf idx upd i

/-! ## The row gather of [N, C] at a column of words -/

/-- THE ROW GATHER AT (e, c): the operand's row `pos` of word e, column c. -/
theorem gather_rows_apply {α : Type} {N M C w : ℕ} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (e : Fin M) (c : Fin C) :
    Host.gather d x idx (ix2 e c) = x (ix2 (pos N hN (idx (ix2 e 0))) c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (ix2 e 0)).toInt.toNat (N - 1)
    congr 4
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr ⟨(show ¬ ((1 : Fin 2) ∈ ([0] : List (Fin 2))) by decide), List.not_mem_nil⟩)]
    simp only [Nat.add_zero, Nat.zero_add]
    rfl

/-! ## The gather of [N] at a column of words -/

/-- THE VECTOR GATHER AT e: the operand's entry `pos` of word e. -/
theorem gather_vec_apply {α : Type} {N M w : ℕ} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (e : Fin M) :
    Host.gather d x idx (ix1 e) = x (ix1 (pos N hN (idx (ix2 e 0)))) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (ix2 e 0)).toInt.toNat (N - 1)
    congr 4
    funext b; refine Fin.ext ?_
    match b with
    | ⟨0, _⟩ => rfl
    | ⟨1, _⟩ => rfl

end Cert.LibEdgeOps

end
-- ==== Proof.LibWordNat.lean ====
import Idealize.ShloMosaic.PureOps
import Idealize.ShloMosaic.Lib.Affine
import Idealize.ShloMosaic.Lib.ValueIdx
import Mathlib.Data.BitVec
import Mathlib.Algebra.BigOperators.Group.Finset.Piecewise

/-!
# 32-bit words that hold small natural numbers

A word `BitVec.ofNat 32 a` with `a < 2^31` is nonnegative read signed, and the signed operations on such
words are the operations on the natural numbers: signed division and remainder by a positive constant are `/`
and `%`, a signed comparison with zero never finds it negative, and the floor-division and modulus formulas
that correct a truncating division for operands of different signs make no correction. Sums of such words are
the words of the sums.
-/

open scoped BigOperators

namespace Cert.LibWordNat

open Idealize.ShloMosaic Idealize.ShloMosaic.ValueIdx

theorem toNat_ofNat_small (a : ℕ) (h : a < 2 ^ 32) : (BitVec.ofNat 32 a).toNat = a := by
  rw [BitVec.toNat_ofNat]; exact Nat.mod_eq_of_lt h

theorem isInt_ofNat (a : ℕ) (h : a < 2 ^ 31) : Affine.IsInt (BitVec.ofNat 32 a) (a : ℤ) :=
  Affine.ofNat a ⟨rfl, h⟩

theorem toInt_ofNat_small (a : ℕ) (h : a < 2 ^ 31) : (BitVec.ofNat 32 a).toInt = (a : ℤ) := by
  have := isInt_ofNat a h
  unfold Affine.IsInt at this
  exact this

theorem msb_ofNat_small (a : ℕ) (h : a < 2 ^ 31) : (BitVec.ofNat 32 a).msb = false := by
  rw [BitVec.msb_eq_false_iff_two_mul_lt, toNat_ofNat_small a (by omega)]; omega

theorem ofNat_eq_zero_iff (a : ℕ) (h : a < 2 ^ 32) : BitVec.ofNat 32 a = 0#32 ↔ a = 0 := by
  constructor
  · intro e
    have := congrArg BitVec.toNat e
    rw [toNat_ofNat_small a h] at this
    simpa using this
  · rintro rfl; rfl

theorem not_corner_ofNat (x : BitVec 32) (c : ℕ) (hc0 : 0 < c) (hc : c < 2 ^ 31) :
    ¬ IntOp.SDivCorner x (BitVec.ofNat 32 c) := by
  rintro (h0 | ⟨-, h1⟩)
  · have := (ofNat_eq_zero_iff c (by omega)).1 h0; omega
  · have := congrArg BitVec.toNat h1
    rw [toNat_ofNat_small c (by omega)] at this
    have h' : (-1 : BitVec 32).toNat = 4294967295 := by decide
    omega

/-- Signed division of a small natural by a positive small natural, on any unit: the quotient. -/
theorem divsi_ofNat (u : ArithUnit) (a c : ℕ) (ha : a < 2 ^ 31) (hc0 : 0 < c) (hc : c < 2 ^ 31) :
    IntOp.divsi u (BitVec.ofNat 32 a) (BitVec.ofNat 32 c) = BitVec.ofNat 32 (a / c) := by
  rw [IntOp.divsi, if_neg (not_corner_ofNat _ c hc0 hc), BitVec.sdiv_eq, msb_ofNat_small a ha, msb_ofNat_small c hc]
  dsimp only
  rw [BitVec.udiv_eq]
  apply BitVec.eq_of_toNat_eq
  rw [BitVec.toNat_udiv, toNat_ofNat_small a (by omega), toNat_ofNat_small c (by omega), toNat_ofNat_small]
  exact lt_of_le_of_lt (Nat.div_le_self _ _) (by omega)

/-- Signed remainder of a small natural by a positive small natural, on any unit: the remainder. -/
theorem remsi_ofNat (u : ArithUnit) (a c : ℕ) (ha : a < 2 ^ 31) (hc0 : 0 < c) (hc : c < 2 ^ 31) :
    IntOp.remsi u (BitVec.ofNat 32 a) (BitVec.ofNat 32 c) = BitVec.ofNat 32 (a % c) := by
  rw [IntOp.remsi, if_neg (not_corner_ofNat _ c hc0 hc), BitVec.srem_eq, msb_ofNat_small a ha, msb_ofNat_small c hc]
  dsimp only
  apply BitVec.eq_of_toNat_eq
  rw [BitVec.toNat_umod, toNat_ofNat_small a (by omega), toNat_ofNat_small c (by omega), toNat_ofNat_small]
  exact lt_of_le_of_lt (Nat.mod_le _ _) (by omega)

/-- A small natural is not negative. -/
theorem cmpi_slt_zero (a : ℕ) (ha : a < 2 ^ 31) : IntOp.cmpi .slt (BitVec.ofNat 32 a) 0#32 = 0#1 :=
  eq_zero_of_ne_one (Affine.slt_fails (isInt_ofNat a ha) (isInt_ofNat 0 (by omega)) (by omega))

theorem cmpi_ne_self {w : ℕ} (x : BitVec w) : IntOp.cmpi .ne x x = 0#1 := by
  simp [IntOp.cmpi]

theorem cmpi_eq_ofNat_zero (c : ℕ) (hc0 : 0 < c) (hc : c < 2 ^ 31) : IntOp.cmpi .eq (BitVec.ofNat 32 c) 0#32 = 0#1 :=
  eq_zero_of_ne_one (Affine.eq_fails (isInt_ofNat c hc) (isInt_ofNat 0 (by omega)) (by omega))

theorem andi_zero_left (y : BitVec 1) : IntOp.andi 0#1 y = 0#1 := by
  unfold IntOp.andi; exact BitVec.zero_and

theorem andi_zero_right (y : BitVec 1) : IntOp.andi y 0#1 = 0#1 := by
  unfold IntOp.andi; exact BitVec.and_zero

/-- The sign word: `0`, `-1` or `1`. -/
def sgnW (x : BitVec 32) : BitVec 32 := if x = 0 then 0 else if x.msb then -1 else 1

theorem sgnW_ofNat_pos (a : ℕ) (h0 : 0 < a) (ha : a < 2 ^ 31) : sgnW (BitVec.ofNat 32 a) = 1 := by
  unfold sgnW
  rw [if_neg (fun e => by have := (ofNat_eq_zero_iff a (by omega)).1 e; omega), msb_ofNat_small a ha]
  rfl

/-- Floor division as the host program writes it: the truncating quotient, less one when the operands' signs
    differ and the remainder is not zero. -/
def floorDivW (x c : BitVec 32) : BitVec 32 :=
  Scalar.select (IntOp.andi (IntOp.cmpi .ne (sgnW x) (sgnW c)) (IntOp.cmpi .ne (IntOp.remsi .host x c) 0#32))
    (IntOp.subi (IntOp.divsi .host x c) 1#32) (IntOp.divsi .host x c)

theorem floorDivW_ofNat (a c : ℕ) (ha : a < 2 ^ 31) (hc0 : 0 < c) (hc : c < 2 ^ 31) :
    floorDivW (BitVec.ofNat 32 a) (BitVec.ofNat 32 c) = BitVec.ofNat 32 (a / c) := by
  unfold floorDivW
  have hcond : IntOp.andi (IntOp.cmpi .ne (sgnW (BitVec.ofNat 32 a)) (sgnW (BitVec.ofNat 32 c)))
      (IntOp.cmpi .ne (IntOp.remsi .host (BitVec.ofNat 32 a) (BitVec.ofNat 32 c)) 0#32) = 0#1 := by
    rcases Nat.eq_zero_or_pos a with rfl | hpos
    · rw [remsi_ofNat .host 0 c (by omega) hc0 hc, Nat.zero_mod]
      rw [show BitVec.ofNat 32 0 = 0#32 from rfl, cmpi_ne_self, andi_zero_right]
    · rw [sgnW_ofNat_pos a hpos ha, sgnW_ofNat_pos c hc0 hc, cmpi_ne_self, andi_zero_left]
  rw [hcond, select_zero, divsi_ofNat .host a c ha hc0 hc]

/-- The modulus as the host program writes it: the truncating remainder by the divisor (by one when the divisor is
    zero), plus the divisor when their signs differ and the remainder is not zero. -/
def remW (x c : BitVec 32) : BitVec 32 :=
  Scalar.select
    (IntOp.andi
      (IntOp.cmpi .ne (IntOp.cmpi .slt (IntOp.remsi .host x (Scalar.select (IntOp.cmpi .eq c 0#32) 1#32 c)) 0#32)
        (IntOp.cmpi .slt (Scalar.select (IntOp.cmpi .eq c 0#32) 1#32 c) 0#32))
      (IntOp.cmpi .ne (IntOp.remsi .host x (Scalar.select (IntOp.cmpi .eq c 0#32) 1#32 c)) 0#32))
    (IntOp.addi (IntOp.remsi .host x (Scalar.select (IntOp.cmpi .eq c 0#32) 1#32 c))
      (Scalar.select (IntOp.cmpi .eq c 0#32) 1#32 c))
    (IntOp.remsi .host x (Scalar.select (IntOp.cmpi .eq c 0#32) 1#32 c))

theorem remW_ofNat (a c : ℕ) (ha : a < 2 ^ 31) (hc0 : 0 < c) (hc : c < 2 ^ 31) :
    remW (BitVec.ofNat 32 a) (BitVec.ofNat 32 c) = BitVec.ofNat 32 (a % c) := by
  unfold remW
  rw [cmpi_eq_ofNat_zero c hc0 hc, select_zero, remsi_ofNat .host a c ha hc0 hc]
  have hm : a % c < 2 ^ 31 := lt_of_le_of_lt (Nat.mod_le _ _) ha
  rw [cmpi_slt_zero (a % c) hm, cmpi_slt_zero c hc, cmpi_ne_self, andi_zero_left, select_zero]

/-- The wrap of a negative index: the index plus `n` when it is negative. -/
def wrapW (x n : BitVec 32) : BitVec 32 := Scalar.select (IntOp.cmpi .slt x 0#32) (IntOp.addi x n) x

theorem wrapW_ofNat (a : ℕ) (n : BitVec 32) (ha : a < 2 ^ 31) : wrapW (BitVec.ofNat 32 a) n = BitVec.ofNat 32 a := by
  unfold wrapW
  rw [cmpi_slt_zero a ha, select_zero]

/-- The signed maximum of zero and a small natural is that natural. -/
theorem maxsi_zero_ofNat (a : ℕ) (ha : a < 2 ^ 31) : IntOp.maxsi 0#32 (BitVec.ofNat 32 a) = BitVec.ofNat 32 a := by
  unfold IntOp.maxsi
  have hb : (BitVec.ofNat 32 a).slt 0#32 = false := by
    rw [Bool.eq_false_iff]
    intro hs
    rw [BitVec.slt_iff_toInt_lt, toInt_ofNat_small a ha] at hs
    have h0 : (0#32 : BitVec 32).toInt = 0 := by decide
    omega
  rw [hb]; rfl

/-- A sum of words of naturals is the word of the sum. -/
theorem sum_ofNat {ι : Type} (S : Finset ι) (g : ι → ℕ) :
    ∑ i ∈ S, BitVec.ofNat 32 (g i) = BitVec.ofNat 32 (∑ i ∈ S, g i) := by
  classical
  induction S using Finset.induction_on with
  | empty => rfl
  | insert a S ha ih => rw [Finset.sum_insert ha, Finset.sum_insert ha, ih, BitVec.ofNat_add]

/-- A sum of ones over the elements with a property is the word of their number. -/
theorem sum_ite_one {ι : Type} (S : Finset ι) (P : ι → Prop) [DecidablePred P] :
    ∑ i ∈ S, (if P i then (1#32 : BitVec 32) else 0#32) = BitVec.ofNat 32 (S.filter P).card := by
  rw [Finset.card_filter, ← sum_ofNat]
  refine Finset.sum_congr rfl (fun i _ => ?_)
  by_cases h : P i
  · rw [if_pos h, if_pos h]
  · rw [if_neg h, if_neg h]

end Cert.LibWordNat
-- ==== Proof.RefValue.lean ====
/-
  The reference's float stages read at an index.

  With the two index vectors naming the pairs (row r, col r), the gathered rows are phi's rows row r and col r, their
  product is psi[r, n] = phi[row r, n] · phi[col r, n], the first product with theta transposed is the quadratic form
  summed over the pairs, the concatenation stacks phi over it, and the last product with Q plus the column c
  broadcast along the rows is the reference's entry.
-/
import proofs.«166319_j26499948216761_1_alg».proof.Proof.RefStages
import proofs.«166319_j26499948216761_1_alg».proof.Proof.Spec
import proofs.«166319_j26499948216761_1_alg».proof.Proof.LibHostDot
import proofs.«166319_j26499948216761_1_alg».proof.Proof.LibEdgeOps
import proofs.«166319_j26499948216761_1_alg».proof.Proof.LibColumn
import proofs.«166319_j26499948216761_1_alg».proof.Proof.LibWordNat
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Cert.ReferenceIdeal.Facts₀ Idealize.ShloMosaic Idealize.ShloMosaic.ValueIdx

/-- A word holding a number below 64, read signed and clamped into [0, 63], is that number. -/
theorem pos_ofNat (v : Fin 64) : Cert.LibEdgeOps.pos 64 (by omega) (BitVec.ofNat 32 v.val) = v := by
  apply Fin.ext
  have h := Cert.LibWordNat.toInt_ofNat_small v.val (by have := v.isLt; omega)
  show min (BitVec.ofNat 32 v.val).toInt.toNat (64 - 1) = v.val
  have := v.isLt
  omega

/-- phi stacked over a [32, 65536] array, read at row mm of 96: phi's row mm below 64, the second array's row mm − 64 from 64 on. -/
theorem stack_apply {α : Type} (x₁ : (⟨2, ![64, 65536]⟩ : Shape).Idx → α) (x₂ : (⟨2, ![32, 65536]⟩ : Shape).Idx → α)
    (h : Shape.Concatenates [(⟨2, ![64, 65536]⟩ : Shape), ⟨2, ![32, 65536]⟩] ⟨2, ![96, 65536]⟩ (0 : Fin 2))
    (mm : Fin 96) (q : Fin 65536) :
    concatenate ⟨2, ![96, 65536]⟩ (0 : Fin 2) [⟨⟨2, ![64, 65536]⟩, x₁⟩, ⟨⟨2, ![32, 65536]⟩, x₂⟩] h (ix2 mm q)
      = if hm : mm.val < 64 then x₁ (ix2 ⟨mm.val, hm⟩ q) else x₂ (ix2 ⟨mm.val - 64, by omega⟩ q) := by
  split
  · next hm =>
    refine concatenate_pair_apply_left (0 : Fin 2) x₁ x₂ h (ix2 mm q) rfl (ix2 ⟨mm.val, hm⟩ q) fun b => ?_
    match b with
    | ⟨0, _⟩ => rfl
    | ⟨1, _⟩ => rfl
  · next hm =>
    refine concatenate_pair_apply_right (0 : Fin 2) x₁ x₂ h (ix2 mm q) rfl rfl (ix2 ⟨mm.val - 64, by omega⟩ q) (fun b hb => ?_) ?_
    · match b with
      | ⟨0, _⟩ => exact absurd rfl hb
      | ⟨1, _⟩ => rfl
    · show mm.val - 64 + 64 = mm.val
      omega

/-- A gathered row: the row of phi the index word names. -/
theorem gatherPhi_apply (phi : (⟨S64x65536, .f32⟩ : BufTy).Contents (Elt Ideal))
    (idxv : (⟨S2080, .i32⟩ : BufTy).Contents (Elt Ideal)) (f : Fin 2080 → Fin 64)
    (hf : ∀ r : Fin 2080, idxv (ix1 r) = BitVec.ofNat 32 (f r).val) (r : Fin 2080) (n : Fin 65536) :
    Host.gather gather_S64x65536_S2080x1_S2080x65536_1_0_n_n_0_1_165536 phi
        (broadcastInDim S2080x1 ![0] bcast_S2080_S2080x1_0 idxv) (ix2 r n) = phi (ix2 (f r) n) := by
  refine (Cert.LibEdgeOps.gather_rows_apply (N := 64) (by omega) _ rfl rfl rfl rfl rfl rfl rfl phi _ r n).trans ?_
  have hw : broadcastInDim S2080x1 ![0] bcast_S2080_S2080x1_0 idxv (ix2 r (0 : Fin 1)) = BitVec.ofNat 32 (f r).val :=
    (Cert.LibColumn.bcastInDim_a_a1_apply idxv _ r 0).trans (hf r)
  rw [hw, pos_ofNat]

section
variable (phi : (⟨S64x65536, .f32⟩ : BufTy).Contents (Elt Ideal)) (theta : (⟨S2080x32, .f32⟩ : BufTy).Contents (Elt Ideal))
  (row col : Fin 2080 → Fin 64)
  (hrow : ∀ r : Fin 2080, RefStages.val_v24 (ValueIdx.ix1 r) = BitVec.ofNat 32 (row r).val)
  (hcol : ∀ r : Fin 2080, RefStages.val_v31 (ValueIdx.ix1 r) = BitVec.ofNat 32 (col r).val)

include hrow in
theorem val_v26_apply (r : Fin 2080) (n : Fin 65536) : RefStages.val_v26 phi (ix2 r n) = phi (ix2 (row r) n) :=
  gatherPhi_apply phi RefStages.val_v24 row hrow r n

include hcol in
theorem val_v33_apply (r : Fin 2080) (n : Fin 65536) : RefStages.val_v33 phi (ix2 r n) = phi (ix2 (col r) n) :=
  gatherPhi_apply phi RefStages.val_v31 col hcol r n

include hrow hcol in
/-- The first product is the quadratic form summed over the pairs. -/
theorem val_v36_apply (k : Fin 32) (n : Fin 65536) :
    RefStages.val_v36 phi theta (ix2 k n) = Cert.Spec.quadRef phi theta row col k n := by
  unfold RefStages.val_v36 Cert.Spec.quadRef
  refine (Cert.LibHostDot.hostDot_apply dot_S32x2080_S2080x65536_S32x65536_1_0_0_1_n_n_wf none
    (RefStages.val_v35 theta) (RefStages.val_v34 phi) k n).trans ?_
  refine Finset.sum_congr rfl fun r _ => ?_
  have h35 : RefStages.val_v35 theta (ix2 k r) = theta (ix2 r k) :=
    transpose_ix2_apply theta transposes_S2080x32_S32x2080_1_0 k r
  have h34 : RefStages.val_v34 phi (ix2 r n) = RefStages.val_v26 phi (ix2 r n) * RefStages.val_v33 phi (ix2 r n) := rfl
  rw [h35, h34, val_v26_apply phi row hrow r n, val_v33_apply phi col hcol r n]

include hrow hcol in
/-- The concatenation is phi stacked over the quadratic forms. -/
theorem val_v37_apply (mm : Fin 96) (n : Fin 65536) :
    RefStages.val_v37 phi theta (ix2 mm n) = Cert.Spec.stack phi (Cert.Spec.quadRef phi theta row col) mm n := by
  unfold RefStages.val_v37 Cert.Spec.stack
  refine (stack_apply phi (RefStages.val_v36 phi theta) concatenates_S64x65536_S32x65536_S96x65536_d0 mm n).trans ?_
  split
  · rfl
  · exact val_v36_apply phi theta row col hrow hcol _ n

end

/-- THE REFERENCE'S ENTRY (p, n): the column c plus the product of Q with phi stacked over the quadratic forms. -/
theorem val_v40_apply (c : (⟨S2048x1, .f32⟩ : BufTy).Contents (Elt Ideal)) (Q : (⟨S2048x96, .f32⟩ : BufTy).Contents (Elt Ideal))
    (phi : (⟨S64x65536, .f32⟩ : BufTy).Contents (Elt Ideal)) (theta : (⟨S2080x32, .f32⟩ : BufTy).Contents (Elt Ideal))
    (row col : Fin 2080 → Fin 64)
    (hrow : ∀ r : Fin 2080, RefStages.val_v24 (ValueIdx.ix1 r) = BitVec.ofNat 32 (row r).val)
    (hcol : ∀ r : Fin 2080, RefStages.val_v31 (ValueIdx.ix1 r) = BitVec.ofNat 32 (col r).val)
    (p : Fin 2048) (n : Fin 65536) :
    RefStages.val_v40 c Q phi theta (ix2 p n) = Cert.Spec.outRef c Q phi theta row col p n := by
  have h40 : RefStages.val_v40 c Q phi theta (ix2 p n)
      = RefStages.val_v39 c (ix2 p n) + RefStages.val_v38 Q phi theta (ix2 p n) := rfl
  have h39 : RefStages.val_v39 c (ix2 p n) = c (ix2 p (0 : Fin 1)) :=
    Cert.LibColumn.bcastInDim_a1_ab_apply c bcast_S2048x1_S2048x65536_0_1 p n
  have h38 : RefStages.val_v38 Q phi theta (ix2 p n)
      = ∑ mm : Fin 96, Q (ix2 p mm) * RefStages.val_v37 phi theta (ix2 mm n) :=
    Cert.LibHostDot.hostDot_apply dot_S2048x96_S96x65536_S2048x65536_1_0_0_1_n_n_wf none Q (RefStages.val_v37 phi theta) p n
  rw [h40, h39, h38]
  unfold Cert.Spec.outRef
  refine congrArg (c (ix2 p (0 : Fin 1)) + ·) (Finset.sum_congr rfl fun mm _ => ?_)
  rw [val_v37_apply phi theta row col hrow hcol mm n]

end Cert.ReferenceIdeal.RefValue

end
-- ==== Proof.RefMask.lean ====
import proofs.«166319_j26499948216761_1_alg».proof.Proof.RefStages
import proofs.«166319_j26499948216761_1_alg».proof.Proof.LibWordNat
import Idealize.ShloMosaic.Lib.IdealHost
import Idealize.ShloMosaic.Lib.Pipeline.Value
import Idealize.ShloMosaic.Lib.Affine

/-!
# The upper-triangular mask of the reference

The reference builds the mask of the upper triangle of a 64 × 64 square (row ≤ column) from a square of ones: it
zeroes the entries with `row - 1 ≥ column`, compares the result with zero, flattens it row-major to length 4096 and
widens the bits to 32-bit words. Entry `p` of the flattened mask is `1` when `p / 64 ≤ p % 64` and `0` otherwise.
-/

noncomputable section

namespace Cert.ReferenceIdeal.RefIndex

open Cert.ReferenceIdeal Cert.ReferenceIdeal.Facts₀ Cert.ReferenceIdeal.RefStages
open Idealize.ShloMosaic Idealize.ShloMosaic.ValueIdx

/-- The upper-triangular mask over flattened positions: row `p / 64` at most column `p % 64`. -/
def mask (p : ℕ) : Bool := decide (p / 64 ≤ p % 64)

/-- The mask bit at row `i`, column `j`: set exactly when `i ≤ j`. -/
theorem val_v3_apply (i j : Fin 64) : val_v3 (ix2 i j) = BitVec.ofBool (decide (i.val ≤ j.val)) := by
  have e0 : val_v0 (ix2 i j) = 1 := by
    unfold val_v0 val_cst
    rw [broadcastInDim_scalar_apply, constant_apply, Ideal.ofBits_one_f32]
  have e5 : val_call0_v5 (ix2 i j) = 0 := by
    unfold val_call0_v5 val_call0_cst
    rw [broadcastInDim_scalar_apply, constant_apply, Ideal.ofBits_zero_f32]
  have e2 : val_v2 (ix2 i j) = 0 := by
    unfold val_v2 val_cst_0
    rw [broadcastInDim_scalar_apply, constant_apply, Ideal.ofBits_zero_f32]
  have ea : val_call0_v2 (ix2 i j) = IntOp.addi (BitVec.ofNat 32 i.val) 4294967295#32 := rfl
  have eb : val_call0_v3 (ix2 i j) = BitVec.ofNat 32 j.val := rfl
  have e4 : val_call0_v4 (ix2 i j) = IntOp.cmpi .sge (val_call0_v2 (ix2 i j)) (val_call0_v3 (ix2 i j)) := rfl
  have e1 : val_v1 (ix2 i j)
      = Scalar.select (val_call0_v4 (ix2 i j)) (val_call0_v5 (ix2 i j)) (val_v0 (ix2 i j)) := rfl
  have e3 : val_v3 (ix2 i j) = Ideal.cmp .une (val_v1 (ix2 i j)) (val_v2 (ix2 i j)) := by
    unfold val_v3
    rw [cmpf_apply]
    exact Ideal.cmpf_def _ _ _
  rw [e3, e1, e4, ea, eb, e5, e0, e2]
  have hi := i.isLt
  have hj := j.isLt
  have ha : Affine.IsInt (BitVec.ofNat 32 i.val) (i.val : ℤ) := Affine.ofNat _ ⟨rfl, by omega⟩
  have hb : Affine.IsInt (4294967295#32) (-1) := Affine.ofNat_neg 4294967295 ⟨by norm_num, by norm_num, by norm_num⟩
  have hs : Affine.IsInt (Scalar.addi (BitVec.ofNat 32 i.val) 4294967295#32) ((i.val : ℤ) - 1) :=
    Affine.addi ha hb ⟨by ring, by omega, by omega⟩
  have hjj : Affine.IsInt (BitVec.ofNat 32 j.val) (j.val : ℤ) := Affine.ofNat _ ⟨rfl, by omega⟩
  by_cases hij : i.val ≤ j.val
  · have hc : IntOp.cmpi .sge (IntOp.addi (BitVec.ofNat 32 i.val) 4294967295#32) (BitVec.ofNat 32 j.val) = 0#1 :=
      eq_zero_of_ne_one (Affine.sge_fails hs hjj (by omega))
    rw [hc, select_zero]
    simp [Ideal.cmp, hij]
  · have hc : IntOp.cmpi .sge (IntOp.addi (BitVec.ofNat 32 i.val) 4294967295#32) (BitVec.ofNat 32 j.val) = 1#1 :=
      Affine.sge_holds hs hjj (by omega)
    rw [hc, select_one]
    simp [Ideal.cmp, hij]

/-- Entry `p` of the flattened mask as a 32-bit word. -/
theorem val_call1_v1_apply (p : Fin 4096) :
    val_call1_v1 (ix1 p) = if mask p.val = true then 1#32 else 0#32 := by
  have hp := p.isLt
  show (val_call1_v0 (ix1 p)).setWidth 32 = _
  have h0 : val_call1_v0 (ix1 p) = val_v3 (ix2 (⟨p.val / 64, by omega⟩ : Fin 64) (⟨p.val % 64, by omega⟩ : Fin 64)) := by
    unfold val_call1_v0
    apply shapeCast_apply
    rw [Shape.rowMajor_val_two, Shape.rowMajor_val_one]
    show (p.val / 64) * 64 + p.val % 64 = p.val
    omega
  rw [h0, val_v3_apply]
  unfold mask
  by_cases h : p.val / 64 ≤ p.val % 64
  · simp [h]
  · simp [h]

end Cert.ReferenceIdeal.RefIndex
-- ==== Proof.LibPrefixCount.lean ====
import Mathlib.Algebra.BigOperators.Group.Finset.Basic
import Mathlib.Algebra.BigOperators.Group.Finset.Piecewise
import Mathlib.Algebra.Order.BigOperators.Group.Finset
import Mathlib.Order.Monotone.Basic
import Mathlib.Tactic.ByContra

/-!
# Positions of the true entries of a mask, by counting

For a mask on the natural numbers, `cnt mask p` counts the true entries at positions `≤ p` (an inclusive
prefix count) and `pos mask N r` counts the positions `p < N` whose prefix count is at most `r`.
The prefix count is weakly increasing with steps `0` or `1`, so the positions with `cnt mask p ≤ r` form
an initial segment `{0, …, pos mask N r - 1}`, and when the mask has more than `r` true entries below `N`
the number `pos mask N r` is the position of the `(r+1)`-th true entry: it is below `N`, the mask is true
there, exactly `r + 1` true entries lie at or before it, and it is strictly increasing in `r`.
-/

namespace Cert.LibPrefixCount

open Finset

/-- The number of true entries of the mask at positions `≤ p`. -/
def cnt (mask : ℕ → Bool) (p : ℕ) : ℕ := ((range (p + 1)).filter (fun q => mask q = true)).card

/-- The number of positions `p < N` whose inclusive prefix count is at most `r`. -/
def pos (mask : ℕ → Bool) (N r : ℕ) : ℕ := ((range N).filter (fun p => cnt mask p ≤ r)).card

/-- The prefix count as a sum of zeros and ones. -/
theorem cnt_eq_sum (mask : ℕ → Bool) (p : ℕ) : cnt mask p = ∑ q ∈ range (p + 1), if mask q = true then 1 else 0 := by
  unfold cnt
  rw [card_filter]

theorem cnt_zero (mask : ℕ → Bool) : cnt mask 0 = if mask 0 = true then 1 else 0 := by
  rw [cnt_eq_sum]; exact sum_range_one _

theorem cnt_succ (mask : ℕ → Bool) (p : ℕ) :
    cnt mask (p + 1) = cnt mask p + if mask (p + 1) = true then 1 else 0 := by
  rw [cnt_eq_sum, cnt_eq_sum, sum_range_succ]

/-- The prefix count is weakly increasing. -/
theorem cnt_mono (mask : ℕ → Bool) : Monotone (cnt mask) :=
  monotone_nat_of_le_succ fun p => by rw [cnt_succ]; exact Nat.le_add_right _ _

/-- A downward closed property cuts an initial segment out of `{0, …, N - 1}`. -/
theorem filter_range_eq_range (P : ℕ → Prop) [DecidablePred P] (hP : ∀ p q, p ≤ q → P q → P p) (N : ℕ) :
    (range N).filter P = range ((range N).filter P).card := by
  induction N with
  | zero => simp
  | succ N ih =>
    rw [range_add_one, filter_insert]
    by_cases hN : P N
    · rw [if_pos hN]
      have hall : (range N).filter P = range N :=
        filter_true_of_mem fun p hp => hP p N (le_of_lt (mem_range.1 hp)) hN
      rw [hall, card_insert_of_notMem notMem_range_self, card_range, range_add_one]
    · rw [if_neg hN]
      exact ih

/-- The positions below `N` with prefix count at most `r` are exactly those below `pos mask N r`. -/
theorem lt_pos_iff (mask : ℕ → Bool) (N r p : ℕ) : p < pos mask N r ↔ p < N ∧ cnt mask p ≤ r := by
  have h := filter_range_eq_range (fun p => cnt mask p ≤ r)
    (fun p q hpq hq => le_trans (cnt_mono mask hpq) hq) N
  have hm : p ∈ range (pos mask N r) ↔ p ∈ (range N).filter (fun p => cnt mask p ≤ r) := by
    unfold pos; rw [← h]
  rw [mem_range, mem_filter, mem_range] at hm
  exact hm

variable (mask : ℕ → Bool) (N r : ℕ)

/-- With more than `r` true entries below `N`, the `(r+1)`-th one sits below `N`. -/
theorem pos_lt (hN : 0 < N) (hr : r < cnt mask (N - 1)) : pos mask N r < N := by
  by_contra hge
  have h1 : N - 1 < pos mask N r := by omega
  have := ((lt_pos_iff mask N r (N - 1)).1 h1).2
  omega

/-- The prefix count at `pos mask N r` exceeds `r`. -/
theorem lt_cnt_pos (hN : 0 < N) (hr : r < cnt mask (N - 1)) : r < cnt mask (pos mask N r) := by
  by_contra hle
  have hlt := pos_lt mask N r hN hr
  have := (lt_pos_iff mask N r (pos mask N r)).2 ⟨hlt, by omega⟩
  omega

/-- Exactly `r + 1` true entries lie at or before `pos mask N r`, and the mask is true there. -/
theorem cnt_pos_and_mask (hN : 0 < N) (hr : r < cnt mask (N - 1)) :
    cnt mask (pos mask N r) = r + 1 ∧ mask (pos mask N r) = true := by
  have hgt := lt_cnt_pos mask N r hN hr
  cases hk : pos mask N r with
  | zero =>
    rw [hk, cnt_zero] at hgt
    rw [cnt_zero]
    by_cases hm : mask 0 = true
    · rw [if_pos hm] at hgt ⊢
      exact ⟨by omega, hm⟩
    · rw [if_neg hm] at hgt; omega
  | succ k =>
    have hprev : cnt mask k ≤ r := ((lt_pos_iff mask N r k).1 (by omega)).2
    rw [hk, cnt_succ] at hgt
    rw [cnt_succ]
    by_cases hm : mask (k + 1) = true
    · rw [if_pos hm] at hgt ⊢
      exact ⟨by omega, hm⟩
    · rw [if_neg hm] at hgt; omega

theorem cnt_pos (hN : 0 < N) (hr : r < cnt mask (N - 1)) : cnt mask (pos mask N r) = r + 1 :=
  (cnt_pos_and_mask mask N r hN hr).1

theorem mask_pos (hN : 0 < N) (hr : r < cnt mask (N - 1)) : mask (pos mask N r) = true :=
  (cnt_pos_and_mask mask N r hN hr).2

/-- The position of the `(r+1)`-th true entry is strictly increasing in `r`. -/
theorem pos_lt_pos (hN : 0 < N) (r' : ℕ) (hrr : r < r') (hr' : r' < cnt mask (N - 1)) :
    pos mask N r < pos mask N r' := by
  have hr : r < cnt mask (N - 1) := lt_trans hrr hr'
  refine (lt_pos_iff mask N r' (pos mask N r)).2 ⟨pos_lt mask N r hN hr, ?_⟩
  rw [cnt_pos mask N r hN hr]
  omega

/-- The prefix count at `p` is at most `p + 1`. -/
theorem cnt_le (p : ℕ) : cnt mask p ≤ p + 1 := by
  unfold cnt
  exact le_trans (card_filter_le _ _) (by rw [card_range])

/-- Counting the positions with prefix count at most `r` value by value of the prefix count. -/
theorem pos_eq_sum_fiber : pos mask N r = ∑ q ∈ range (r + 1), ((range N).filter (fun p => cnt mask p = q)).card := by
  unfold pos
  rw [card_eq_sum_card_fiberwise (f := cnt mask) (t := range (r + 1))
    (fun p hp => mem_range.2 (Nat.lt_succ_of_le (mem_filter.1 hp).2))]
  refine sum_congr rfl (fun q hq => ?_)
  rw [filter_filter]
  congr 1
  refine filter_congr (fun p _ => ?_)
  have := mem_range.1 hq
  constructor
  · exact fun h => h.2
  · intro h; exact ⟨by omega, h⟩

end Cert.LibPrefixCount
-- ==== Proof.LibCumsum.lean ====
import Idealize.ShloMosaic.PureOps.Contract
import Idealize.ShloMosaic.Lib.ValueIdx

/-!
# An inclusive prefix sum written as a padded window reduction

A window reduction of a length-`n` vector with window `n`, stride `1` and `n - 1` cells of low padding folds, at
result position `r`, the window positions `m = 0, …, n - 1`; position `m` looks at the padded operand's cell
`r + m`, which is the operand's entry `r + m - (n - 1)` when `r + m ≥ n - 1` and padding (the initial value)
otherwise. With addition in a commutative monoid and initial value `0` the result is the sum of the operand's
entries `0, …, r`.
-/

noncomputable section

open scoped BigOperators

namespace Cert.LibCumsum

open Idealize.ShloMosaic Idealize.ShloMosaic.ValueIdx

/-- A left fold of additions is the start value plus the sum of the list. -/
theorem foldl_add_eq {M ι : Type} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- A left fold of additions over all of `Fin m` is the start value plus the sum over `Fin m`. -/
theorem foldl_finRange_add {M : Type} [AddCommMonoid M] (m : ℕ) (g : Fin m → M) (v : M) :
    (List.finRange m).foldl (fun r n => r + g n) v = v + ∑ n : Fin m, g n := by
  rw [foldl_add_eq, Fin.sum_univ_def]

/-- The extension by zero of a length-`n` vector to all natural numbers. -/
def ext {M : Type} [Zero M] {n : ℕ} (x : (⟨1, ![n]⟩ : Shape).Idx → M) (q : ℕ) : M :=
  if h : q < n then x (ix1 ⟨q, h⟩) else 0

/-- A rank-one index set is its one coordinate's range. -/
def idx1Equiv (n : ℕ) : (⟨1, ![n]⟩ : Shape).Idx ≃ Fin n :=
  { toFun := fun j => j 0, invFun := fun e => ix1 e, left_inv := fun j => (eq_ix1 j).symm, right_inv := fun _ => rfl }

theorem reduceWindow_prefix {M : Type} [AddCommMonoid M] {n k : ℕ} (hk : k + 1 = n) (f : M → M → M)
    (hf : ∀ a b, f a b = a + b)
    (x : (⟨1, ![n]⟩ : Shape).Idx → M) (z : (⟨0, ![]⟩ : Shape).Idx → M) (hz : ∀ i, z i = 0)
    (h : (⟨1, ![n]⟩ : Shape).ReduceWindows ![n] ![1] ![k] ![0] ⟨1, ![n]⟩) (hu : 0 < (⟨0, ![]⟩ : Shape).numel)
    (r : Fin n) :
    Host.reduceWindow (s := ⟨1, ![n]⟩) (t := ⟨1, ![n]⟩) (u := ⟨0, ![]⟩) f ![n] ![1] ![k] ![0] x z h hu (ix1 r)
      = ∑ q ∈ Finset.range (r.val + 1), ext x q := by
  have hfe : f = fun a b => a + b := by funext a b; exact hf a b
  subst hfe
  unfold Host.reduceWindow
  simp only [hz]
  rw [foldl_finRange_add, zero_add]
  refine Eq.trans (Equiv.sum_comp (Shape.rowMajor (⟨1, ![n]⟩ : Shape)) _).symm ?_
  refine Eq.trans (Equiv.sum_comp (idx1Equiv n).symm _).symm ?_
  simp only [Equiv.symm_apply_apply]
  trans ∑ e : Fin n, (if k ≤ r.val + e.val then ext x (r.val + e.val - k) else 0)
  · refine Finset.sum_congr rfl (fun e _ => ?_)
    split
    · rename_i hin
      have h0 := hin ⟨0, by decide⟩
      change k ≤ r.val * 1 + e.val ∧ r.val * 1 + e.val - k < n at h0
      rw [if_pos (by omega)]
      unfold ext
      rw [dif_pos (by omega)]
      congr 1
      funext a
      match a with
      | ⟨0, _⟩ => exact Fin.ext (show r.val * 1 + e.val - k = r.val + e.val - k by omega)
    · rename_i hin
      rw [if_neg]
      intro hc
      apply hin
      intro a
      match a with
      | ⟨0, _⟩ =>
        have hr := r.isLt
        have he := e.isLt
        exact ⟨show k ≤ r.val * 1 + e.val by omega, show r.val * 1 + e.val - k < n by omega⟩
  · rw [Fin.sum_univ_eq_sum_range (fun e => if k ≤ r.val + e then ext x (r.val + e - k) else 0) n]
    have hr := r.isLt
    have hn : (k - r.val) + (r.val + 1) = n := by omega
    have hsplit := Finset.sum_range_add (fun e => if k ≤ r.val + e then ext x (r.val + e - k) else 0) (k - r.val) (r.val + 1)
    rw [hn] at hsplit
    rw [hsplit, Finset.sum_eq_zero (fun e he => if_neg (by have := Finset.mem_range.1 he; omega)), zero_add]
    refine Finset.sum_congr rfl (fun q hq => ?_)
    have := Finset.mem_range.1 hq
    rw [if_pos (by omega)]
    congr 1
    omega

end Cert.LibCumsum
-- ==== Proof.LibRowScatter.lean ====
/-
  Row gathers and row scatter-adds read at an index.

  A gather of whole rows of an [N, C] array at a column [E, 1] of start indices gives an [E, C] array whose row e is
  the row of the operand that the e-th start index names, the index read as a signed integer and clamped into
  [0, N - 1]. An accumulating scatter of the rows of an [E, C] array of updates into an [N, C] operand at a column
  [E, 1] of scatter indices adds, on the extended reals, to the operand's entry (i, c) the entries (e, c) of every
  update row e whose index, read signed and NOT clamped, is i; a row whose index falls outside [0, N) is dropped.
  The same for a vector [E] of updates scattered into a vector [N].
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibRowScatter

open Idealize.ShloMosaic Idealize.ShloMosaic.ValueIdx

/-- The operand row the e-th start index names in a gather: read signed, clamped into [0, N - 1]. -/
def gatherRow {E N w : ℕ} (hN : 0 < N) (idx : IVec ⟨2, ![E, 1]⟩ w) (e : Fin E) : Fin N :=
  ⟨min (idx (ix2 e (0 : Fin 1))).toInt.toNat (N - 1), by omega⟩

/-- The operand row the e-th update lands on in a scatter: the index read signed, none when it is outside [0, N). -/
def scatterRow {E w : ℕ} (N : ℕ) (idx : IVec ⟨2, ![E, 1]⟩ w) (e : Fin E) : Option (Fin N) :=
  if h : 0 ≤ (idx (ix2 e (0 : Fin 1))).toInt ∧ (idx (ix2 e (0 : Fin 1))).toInt < (N : ℤ) then
    some ⟨(idx (ix2 e (0 : Fin 1))).toInt.toNat, by omega⟩
  else none

/-- A row gather at (e, c) is the operand at (the row the e-th start index names, c). -/
theorem rowGather_apply {α : Type} {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (gatherRow hN idx e) c) := by
  obtain ⟨od, cd, ob, sb, sm, iv, ss, wf⟩ := d
  dsimp only at h1 h2 h3 h4 h5 h6 h7
  subst h1 h2 h3 h4 h5 h6 h7
  have h10 : ¬ (1 : Fin 2) = 0 := by decide
  unfold Host.gather
  congr 1
  funext a
  refine Fin.ext ?_
  match a with
  | ⟨0, _⟩ =>
    -- axis 0: the clamped start index, no batching and no offset coordinate
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![N, C]⟩ ⟨2, ![E, 1]⟩ ⟨2, ![E, C]⟩) (hD : D = ⟨[1], [0], [], [], [0], 1, ![1, C], wf⟩)
        (k : Fin D.startIndexMap.length), D.siIdx (ix2 e c) k = ix2 e (0 : Fin 1) := by
      intro D hD k
      subst hD
      funext b; refine Fin.ext ?_
      match b with
      | ⟨0, _⟩ => rfl
      | ⟨1, _⟩ =>
        have : k.val = 0 := by have := k.isLt; simpa using this
        show k.val = 0
        exact this
    rw [hsi _ rfl]
    rfl
  | ⟨1, _⟩ =>
    -- axis 1: start 0 (the start index map does not name it), the offset coordinate is the result's column
    show GatherDims.start _ _ idx 1 + GatherDims.batchCoord _ _ 1 + GatherDims.offCoord _ _ 1 = _
    rw [GatherDims.batchCoord_eq_zero _ _ _ List.not_mem_nil]
    unfold GatherDims.start
    rw [dif_neg (fun h => h10 (List.mem_singleton.mp h))]
    unfold GatherDims.offCoord
    rw [dif_pos ((GatherDims.mem_sKept _ _).mpr ⟨fun h => h10 (List.mem_singleton.mp h), List.not_mem_nil⟩)]
    simp only [Nat.add_zero, Nat.zero_add]
    rfl

/-- An update lands on the operand index k exactly when, on every axis, start plus window coordinate is k's coordinate. -/
private theorem resultIdx?_eq_some_iff {s si u : Shape} (D : ScatterDims s si u) {w : ℕ} (j : u.Idx) (idx : IVec si w)
    (k : s.Idx) :
    D.resultIdx? j idx = some k ↔ ∀ a, D.start j idx a + (D.window j a : ℤ) = ((k a).val : ℤ) := by
  unfold ScatterDims.resultIdx?
  split
  · rename_i h
    constructor
    · intro hk a
      have hv := congrArg Fin.val (congrFun (Option.some.inj hk) a)
      simp only at hv
      have := h a
      omega
    · intro hk
      congr 1
      funext a
      refine Fin.ext ?_
      have := hk a
      show (D.start j idx a + D.window j a).toNat = (k a).val
      omega
  · rename_i h
    constructor
    · intro hk; exact absurd hk (by simp)
    · intro hk
      exfalso; apply h
      intro a
      have := hk a
      have := (k a).isLt
      omega

/-- The e-th update lands on row i exactly when its index, read signed, is i. -/
private theorem scatterRow_eq_some_iff {E w : ℕ} (N : ℕ) (idx : IVec ⟨2, ![E, 1]⟩ w) (e : Fin E) (i : Fin N) :
    scatterRow N idx e = some i ↔ (idx (ix2 e (0 : Fin 1))).toInt = (i.val : ℤ) := by
  unfold scatterRow
  split
  · rename_i h
    constructor
    · intro hk
      have hv := congrArg Fin.val (Option.some.inj hk)
      simp only at hv
      omega
    · intro hk
      congr 1
      refine Fin.ext ?_
      show (idx (ix2 e (0 : Fin 1))).toInt.toNat = i.val
      omega
  · rename_i h
    constructor
    · intro hk; exact absurd hk (by simp)
    · intro hk; exfalso; apply h; have := i.isLt; omega

/-- A row scatter-add on the extended reals at (i, c): the operand's entry plus the entries (e, c) of the update rows
    that land on row i. -/
theorem rowScatterAdd_apply {N C E w : ℕ} {φ : FTy}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (i : Fin N) (c : Fin C) :
    Host.scatterAdd (F := Ideal) d x idx upd (ix2 i c)
      = x (ix2 i c) + ∑ e ∈ Finset.univ.filter (fun e : Fin E => scatterRow N idx e = some i), upd (ix2 e c) := by
  obtain ⟨uw, iw, sd, iv, wf⟩ := d
  dsimp only at h1 h2 h3 h4
  subst h1 h2 h3 h4
  have h10 : ¬ (1 : Fin 2) = 0 := by decide
  -- the two coordinates of the landing index of update (e, c')
  have hstart0 : ∀ (D : ScatterDims ⟨2, ![N, C]⟩ ⟨2, ![E, 1]⟩ ⟨2, ![E, C]⟩) (hD : D = ⟨[1], [0], [0], 1, wf⟩)
      (e : Fin E) (c' : Fin C), D.start (ix2 e c') idx 0 = (idx (ix2 e (0 : Fin 1))).toInt := by
    intro D hD e c'
    subst hD
    unfold ScatterDims.start
    rw [dif_pos (List.mem_singleton.mpr rfl)]
    congr 2
    funext b; refine Fin.ext ?_
    match b with
    | ⟨0, _⟩ => rfl
    | ⟨1, _⟩ => rfl
  have hstart1 : ∀ (D : ScatterDims ⟨2, ![N, C]⟩ ⟨2, ![E, 1]⟩ ⟨2, ![E, C]⟩) (hD : D = ⟨[1], [0], [0], 1, wf⟩)
      (e : Fin E) (c' : Fin C), D.start (ix2 e c') idx 1 = 0 := by
    intro D hD e c'
    subst hD
    unfold ScatterDims.start
    rw [dif_neg (fun h => h10 (List.mem_singleton.mp h))]
  have hwin0 : ∀ (D : ScatterDims ⟨2, ![N, C]⟩ ⟨2, ![E, 1]⟩ ⟨2, ![E, C]⟩) (hD : D = ⟨[1], [0], [0], 1, wf⟩)
      (e : Fin E) (c' : Fin C), D.window (ix2 e c') 0 = 0 := by
    intro D hD e c'
    subst hD
    unfold ScatterDims.window
    rw [dif_neg]
    intro h
    have : (0 : Fin 2) ∈ (List.finRange 2).filter (· ∉ [(0 : Fin 2)]) := h
    simp at this
  have hwin1 : ∀ (D : ScatterDims ⟨2, ![N, C]⟩ ⟨2, ![E, 1]⟩ ⟨2, ![E, C]⟩) (hD : D = ⟨[1], [0], [0], 1, wf⟩)
      (e : Fin E) (c' : Fin C), D.window (ix2 e c') 1 = c'.val := by
    intro D hD e c'
    subst hD
    unfold ScatterDims.window
    rw [dif_pos]
    · rfl
    · show (1 : Fin 2) ∈ (List.finRange 2).filter (· ∉ [(0 : Fin 2)])
      decide
  -- update (e, c') lands on (i, c) exactly when c' = c and row e lands on row i
  have hP : ∀ (D : ScatterDims ⟨2, ![N, C]⟩ ⟨2, ![E, 1]⟩ ⟨2, ![E, C]⟩) (hD : D = ⟨[1], [0], [0], 1, wf⟩)
      (e : Fin E) (c' : Fin C),
      D.resultIdx? (ix2 e c') idx = some (ix2 i c) ↔ (c' = c ∧ scatterRow N idx e = some i) := by
    intro D hD e c'
    rw [resultIdx?_eq_some_iff, scatterRow_eq_some_iff]
    have a0 := hstart0 D hD e c'
    have a1 := hstart1 D hD e c'
    have b0 := hwin0 D hD e c'
    have b1 := hwin1 D hD e c'
    constructor
    · intro h
      have g0 := h 0
      have g1 := h 1
      rw [a0, b0] at g0
      rw [a1, b1] at g1
      have g0' : (idx (ix2 e (0 : Fin 1))).toInt + ((0 : ℕ) : ℤ) = (i.val : ℤ) := g0
      have g1' : (0 : ℤ) + (c'.val : ℤ) = (c.val : ℤ) := g1
      exact ⟨Fin.ext (by omega), by omega⟩
    · rintro ⟨hc, hz⟩ a
      match a with
      | ⟨0, _⟩ =>
        show D.start (ix2 e c') idx 0 + (D.window (ix2 e c') 0 : ℤ) = (i.val : ℤ)
        rw [a0, b0]; omega
      | ⟨1, _⟩ =>
        show D.start (ix2 e c') idx 1 + (D.window (ix2 e c') 1 : ℤ) = (c.val : ℤ)
        rw [a1, b1, hc]; omega
  rw [Host.scatterAdd, Ideal.hostScatterAdd_def]
  unfold Ideal.hostScatterAdd
  congr 1
  rw [Finset.sum_filter, Finset.sum_filter, sum_idx2]
  refine Finset.sum_congr rfl fun e _ => ?_
  simp only [hP _ rfl]
  by_cases hQ : scatterRow N idx e = some i
  · simp only [hQ, and_true, Finset.sum_ite_eq', Finset.mem_univ, if_true]
  · simp only [hQ, and_false, if_false, Finset.sum_const_zero]

/-- A vector scatter-add on the extended reals at i: the operand's entry plus the updates that land on i. -/
theorem vecScatterAdd_apply {N E w : ℕ} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e ∈ Finset.univ.filter (fun e : Fin E => scatterRow N idx e = some i), upd (ix1 e) := by
  obtain ⟨uw, iw, sd, iv, wf⟩ := d
  dsimp only at h1 h2 h3 h4
  subst h1 h2 h3 h4
  -- the one coordinate of the landing index of update e
  have hstart0 : ∀ (D : ScatterDims ⟨1, ![N]⟩ ⟨2, ![E, 1]⟩ ⟨1, ![E]⟩) (hD : D = ⟨[], [0], [0], 1, wf⟩)
      (e : Fin E), D.start (ix1 e) idx 0 = (idx (ix2 e (0 : Fin 1))).toInt := by
    intro D hD e
    subst hD
    unfold ScatterDims.start
    rw [dif_pos (List.mem_singleton.mpr rfl)]
    congr 2
    funext b; refine Fin.ext ?_
    match b with
    | ⟨0, _⟩ => rfl
    | ⟨1, _⟩ => rfl
  have hwin0 : ∀ (D : ScatterDims ⟨1, ![N]⟩ ⟨2, ![E, 1]⟩ ⟨1, ![E]⟩) (hD : D = ⟨[], [0], [0], 1, wf⟩)
      (e : Fin E), D.window (ix1 e) 0 = 0 := by
    intro D hD e
    subst hD
    unfold ScatterDims.window
    rw [dif_neg]
    intro h
    have : (0 : Fin 1) ∈ (List.finRange 1).filter (· ∉ [(0 : Fin 1)]) := h
    simp at this
  -- update e lands on i exactly when its index, read signed, is i
  have hP : ∀ (D : ScatterDims ⟨1, ![N]⟩ ⟨2, ![E, 1]⟩ ⟨1, ![E]⟩) (hD : D = ⟨[], [0], [0], 1, wf⟩)
      (e : Fin E), D.resultIdx? (ix1 e) idx = some (ix1 i) ↔ scatterRow N idx e = some i := by
    intro D hD e
    rw [resultIdx?_eq_some_iff, scatterRow_eq_some_iff]
    have a0 := hstart0 D hD e
    have b0 := hwin0 D hD e
    constructor
    · intro h
      have g0 := h 0
      rw [a0, b0] at g0
      have g0' : (idx (ix2 e (0 : Fin 1))).toInt + ((0 : ℕ) : ℤ) = (i.val : ℤ) := g0
      omega
    · intro hz a
      match a with
      | ⟨0, _⟩ =>
        show D.start (ix1 e) idx 0 + (D.window (ix1 e) 0 : ℤ) = (i.val : ℤ)
        rw [a0, b0]; omega
  rw [Host.scatterAdd, Ideal.hostScatterAdd_def]
  unfold Ideal.hostScatterAdd
  congr 1
  -- a rank-1 index set is its one coordinate's range
  let eqv : (⟨1, ![E]⟩ : Shape).Idx ≃ Fin E :=
    { toFun := fun j => j 0, invFun := fun e => ix1 e, left_inv := fun j => (eq_ix1 j).symm, right_inv := fun _ => rfl }
  rw [Finset.sum_filter, Finset.sum_filter, ← Equiv.sum_comp eqv.symm]
  refine Finset.sum_congr rfl fun e _ => ?_
  exact if_congr (hP _ rfl e) rfl rfl

end Cert.LibRowScatter

end
-- ==== Proof.LibIntScatter.lean ====
import Idealize.ShloMosaic.PureOps
import Idealize.ShloMosaic.Lib.ValueIdx
import proofs.«166319_j26499948216761_1_alg».proof.Proof.LibScatterSet
import proofs.«166319_j26499948216761_1_alg».proof.Proof.LibRowScatter
import proofs.«166319_j26499948216761_1_alg».proof.Proof.LibCumsum

/-!
# Reading a scatter that adds

`Host.scatter d f x idx upd` is a left fold over the update indices in row-major order. When `f` is the addition
of a commutative monoid, every step that lands at an element adds the update's element to it, so the result at
an element `i` is the operand's element plus the sum of the updates that land at `i`, whatever the order.
For a vector of `E` scalar updates scattered into a vector of length `N` at a column `[E, 1]` of indices,
update `e` lands at `i` exactly when its index, read as a signed integer, is `i`; an index outside `[0, N)`
lands nowhere.
-/

noncomputable section

open scoped BigOperators

namespace Cert.LibIntScatter

open Idealize.ShloMosaic Idealize.ShloMosaic.ValueIdx

variable {M : Type} [AddCommMonoid M] {s si u : Shape} {w : ℕ}

/-- What update number `n` (row-major) contributes to element `i`: the update's element when it lands at `i`. -/
def contrib (d : ScatterDims s si u) (idx : IVec si w) (upd : u.Idx → M) (i : s.Idx) (n : Fin u.numel) : M :=
  if d.resultIdx? (u.rowMajor.symm n) idx = some i then upd (u.rowMajor.symm n) else 0

/-- One step of the scatter: update number `n` combines into the element it lands at, if any. -/
def step (d : ScatterDims s si u) (f : M → M → M) (idx : IVec si w) (upd : u.Idx → M) (r : s.Idx → M)
    (n : Fin u.numel) : s.Idx → M :=
  match d.resultIdx? (u.rowMajor.symm n) idx with
  | some i => fun i' => if i' = i then f (r i) (upd (u.rowMajor.symm n)) else r i'
  | none => r

theorem scatter_eq_foldl (d : ScatterDims s si u) (f : M → M → M) (x : s.Idx → M) (idx : IVec si w)
    (upd : u.Idx → M) :
    Host.scatter d f x idx upd = (List.finRange u.numel).foldl (step d f idx upd) x := rfl

/-- A step adds the update's contribution at every element. -/
theorem step_apply (d : ScatterDims s si u) (f : M → M → M) (hf : ∀ a b, f a b = a + b) (idx : IVec si w)
    (upd : u.Idx → M) (r : s.Idx → M) (n : Fin u.numel) (i : s.Idx) :
    step d f idx upd r n i = r i + contrib d idx upd i n := by
  unfold step contrib
  cases hr : d.resultIdx? (u.rowMajor.symm n) idx with
  | none => simp
  | some i0 =>
    by_cases hi : i = i0
    · subst hi; simp [hf]
    · have hne : ¬ (some i0 = some i) := fun e => hi (Option.some.inj e).symm
      simp [hi, hne]

theorem foldl_apply (d : ScatterDims s si u) (f : M → M → M) (hf : ∀ a b, f a b = a + b) (idx : IVec si w)
    (upd : u.Idx → M) (i : s.Idx) (l : List (Fin u.numel)) (acc : s.Idx → M) :
    l.foldl (step d f idx upd) acc i = acc i + (l.map (contrib d idx upd i)).sum := by
  induction l generalizing acc with
  | nil => simp
  | cons a l ih => rw [List.foldl_cons, ih, step_apply d f hf, List.map_cons, List.sum_cons, add_assoc]

/-- An adding scatter at `i`: the operand's element plus every update that lands at `i`. -/
theorem scatter_add_apply (d : ScatterDims s si u) (f : M → M → M) (hf : ∀ a b, f a b = a + b) (x : s.Idx → M)
    (idx : IVec si w) (upd : u.Idx → M) (i : s.Idx) :
    Host.scatter d f x idx upd i = x i + ∑ n : Fin u.numel, contrib d idx upd i n := by
  rw [scatter_eq_foldl, foldl_apply d f hf, Fin.sum_univ_def]

/-- For a vector scattered at a column of indices, update `e` lands at `i` exactly when its index, read signed,
    is `i`. -/
theorem vec_resultIdx?_iff {N E : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : ℤ) := by
  obtain ⟨uw, iw, sd, iv, wf⟩ := d
  dsimp only at h1 h2 h3 h4
  subst h1 h2 h3 h4
  rw [Cert.LibScatterSet.resultIdx?_eq_some_iff]
  have hs : ∀ (D : ScatterDims ⟨1, ![N]⟩ ⟨2, ![E, 1]⟩ ⟨1, ![E]⟩) (hD : D = ⟨[], [0], [0], 1, wf⟩),
      D.start (ix1 e) idx 0 = (idx (ix2 e (0 : Fin 1))).toInt := by
    intro D hD
    subst hD
    unfold ScatterDims.start
    rw [dif_pos (List.mem_singleton.mpr rfl)]
    congr 2
    funext b; refine Fin.ext ?_
    match b with
    | ⟨0, _⟩ => rfl
    | ⟨1, _⟩ => rfl
  have hw : ∀ (D : ScatterDims ⟨1, ![N]⟩ ⟨2, ![E, 1]⟩ ⟨1, ![E]⟩) (hD : D = ⟨[], [0], [0], 1, wf⟩),
      D.window (ix1 e) 0 = 0 := by
    intro D hD
    subst hD
    unfold ScatterDims.window
    rw [dif_neg]
    intro h
    have : (0 : Fin 1) ∈ (List.finRange 1).filter (· ∉ [(0 : Fin 1)]) := h
    simp at this
  have a0 := hs _ rfl
  have b0 := hw _ rfl
  constructor
  · intro h
    have g0 := h 0
    rw [a0, b0] at g0
    have g0' : (idx (ix2 e (0 : Fin 1))).toInt + ((0 : ℕ) : ℤ) = (i.val : ℤ) := g0
    omega
  · intro hz a
    match a with
    | ⟨0, _⟩ =>
      show ScatterDims.start _ (ix1 e) idx 0 + (ScatterDims.window _ (ix1 e) 0 : ℤ) = (i.val : ℤ)
      rw [a0, b0]; omega

/-- A vector adding scatter at `i`: the operand's entry plus the updates whose index, read signed, is `i`. -/
theorem vecScatter_add_apply {N E : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (f : M → M → M) (hf : ∀ a b, f a b = a + b)
    (x : (⟨1, ![N]⟩ : Shape).Idx → M) (idx : IVec ⟨2, ![E, 1]⟩ w) (upd : (⟨1, ![E]⟩ : Shape).Idx → M) (i : Fin N) :
    Host.scatter d f x idx upd (ix1 i)
      = x (ix1 i) + ∑ e : Fin E, if (idx (ix2 e (0 : Fin 1))).toInt = (i.val : ℤ) then upd (ix1 e) else 0 := by
  rw [scatter_add_apply d f hf]
  congr 1
  refine Eq.trans (Equiv.sum_comp (Shape.rowMajor (⟨1, ![E]⟩ : Shape)) _).symm ?_
  refine Eq.trans (Equiv.sum_comp (Cert.LibCumsum.idx1Equiv E).symm _).symm ?_
  refine Finset.sum_congr rfl (fun e _ => ?_)
  unfold contrib
  rw [Equiv.symm_apply_apply]
  exact if_congr (vec_resultIdx?_iff d h1 h2 h3 h4 idx e i) rfl rfl

end Cert.LibIntScatter
-- ==== Proof.RefIndex.lean ====
import proofs.«166319_j26499948216761_1_alg».proof.Proof.RefMask
import proofs.«166319_j26499948216761_1_alg».proof.Proof.LibPrefixCount
import proofs.«166319_j26499948216761_1_alg».proof.Proof.LibCumsum
import proofs.«166319_j26499948216761_1_alg».proof.Proof.LibIntScatter
import proofs.«166319_j26499948216761_1_alg».proof.Proof.LibTriu

/-!
# The reference's index chain finds the upper-triangular positions

From the flattened mask of the upper triangle the reference computes, with integer operations only, the
row and column of the `(r+1)`-th true entry for `r = 0, …, 2079`: an inclusive prefix sum `C` of the mask
(a padded window reduction), a count `B r = #{p | C p = r}` (a scatter that adds ones), a second inclusive
prefix sum `Fl r = #{p | C p ≤ r}`, and floor division and modulus by 64. Since `C` is weakly increasing with
steps the mask, `Fl r` is the position of the `(r+1)`-th true entry of the mask.
-/

noncomputable section

open scoped BigOperators

namespace Cert.ReferenceIdeal.RefIndex

open Cert.ReferenceIdeal Cert.ReferenceIdeal.Facts₀ Cert.ReferenceIdeal.RefStages
open Idealize.ShloMosaic Idealize.ShloMosaic.ValueIdx
open Cert.LibPrefixCount Cert.LibWordNat

/-- The mask has 2080 true entries below 4096. -/
theorem cnt_total : cnt mask (4096 - 1) = 2080 := by
  have h := Cert.LibTriu.card_upper
  unfold Cert.LibTriu.upper at h
  show ((Finset.range 4096).filter (fun q => mask q = true)).card = 2080
  rw [← h]
  congr 1

theorem cnt_small (p : ℕ) (hp : p < 4096) : cnt mask p < 2 ^ 31 := by
  have := cnt_le mask p
  omega

/-- The inclusive prefix sum of the mask. -/
theorem val_v4_apply (p : Fin 4096) : val_v4 (ix1 p) = BitVec.ofNat 32 (cnt mask p.val) := by
  have key := Cert.LibCumsum.reduceWindow_prefix (M := BitVec 32) (n := 4096) (k := 4095) (by norm_num)
    IntOp.addi (fun _ _ => rfl) val_call1_v1 val_call1_call0_v0 (fun _ => rfl)
    reduceWindows_S4096_S4096_w4096s1p4095_0 h_S_ p
  have e : val_v4 (ix1 p) = Host.reduceWindow IntOp.addi ![4096] ![1] ![4095] ![0] val_call1_v1 val_call1_call0_v0
      reduceWindows_S4096_S4096_w4096s1p4095_0 h_S_ (ix1 p) := rfl
  rw [e, key, cnt_eq_sum, ← sum_ofNat]
  refine Finset.sum_congr rfl (fun q hq => ?_)
  have hq' : q < 4096 := by have := Finset.mem_range.1 hq; have := p.isLt; omega
  unfold Cert.LibCumsum.ext
  rw [dif_pos hq', val_call1_v1_apply ⟨q, hq'⟩]
  by_cases hm : mask q = true
  · rw [if_pos hm, if_pos hm]
  · rw [if_neg hm, if_neg hm]

/-- Clipping at zero and wrapping a negative index change nothing: the prefix sum is not negative. -/
theorem val_v11_apply (p : Fin 4096) : val_v11 (ix1 p) = BitVec.ofNat 32 (cnt mask p.val) := by
  have hc := cnt_small p.val p.isLt
  have e : val_v11 (ix1 p) = wrapW (IntOp.maxsi 0#32 (val_v4 (ix1 p))) 2080#32 := rfl
  rw [e, val_v4_apply, maxsi_zero_ofNat _ hc, wrapW_ofNat _ _ hc]

/-- The prefix sum as a column of scatter indices. -/
theorem val_v12_apply (p : Fin 4096) : val_v12 (ix2 p (0 : Fin 1)) = val_v11 (ix1 p) := by
  unfold val_v12
  apply broadcastInDim_apply
  intro a
  match a with
  | ⟨0, _⟩ =>
    show p.val = if (4096 : ℕ) = 1 then 0 else p.val
    rw [if_neg (by norm_num)]

/-- The number of positions below 4096 whose prefix sum is `r`. -/
def fiber (r : ℕ) : ℕ := ((Finset.range 4096).filter (fun p => cnt mask p = r)).card

/-- The scatter of ones counts the positions with each prefix sum. -/
theorem val_v14_apply (r : Fin 2080) : val_v14 (ix1 r) = BitVec.ofNat 32 (fiber r.val) := by
  have key := Cert.LibIntScatter.vecScatter_add_apply (M := BitVec 32) scatter_S2080_S4096x1_S4096_n_0_0_1 rfl rfl rfl rfl
    IntOp.addi (fun _ _ => rfl) val_v5 val_v12 val_v13 r
  have e : val_v14 (ix1 r) = Host.scatter scatter_S2080_S4096x1_S4096_n_0_0_1 IntOp.addi val_v5 val_v12 val_v13 (ix1 r) := rfl
  rw [e, key]
  have e5 : val_v5 (ix1 r) = 0 := rfl
  rw [e5, zero_add]
  have hterm : ∀ e : Fin 4096, (if (val_v12 (ix2 e (0 : Fin 1))).toInt = (r.val : ℤ) then val_v13 (ix1 e) else 0)
      = (fun q : ℕ => if cnt mask q = r.val then 1#32 else 0#32) e.val := by
    intro e
    rw [val_v12_apply, val_v11_apply, toInt_ofNat_small _ (cnt_small e.val e.isLt)]
    exact if_congr Nat.cast_inj rfl rfl
  rw [Finset.sum_congr rfl (fun e _ => hterm e),
    Fin.sum_univ_eq_sum_range (fun q : ℕ => if cnt mask q = r.val then 1#32 else 0#32) 4096, sum_ite_one]
  rfl

/-- The second prefix sum is the position of the `(r+1)`-th true entry of the mask. -/
theorem val_v15_apply (r : Fin 2080) : val_v15 (ix1 r) = BitVec.ofNat 32 (pos mask 4096 r.val) := by
  have key := Cert.LibCumsum.reduceWindow_prefix (M := BitVec 32) (n := 2080) (k := 2079) (by norm_num)
    IntOp.addi (fun _ _ => rfl) val_v14 val_call3_call0_v0 (fun _ => rfl)
    reduceWindows_S2080_S2080_w2080s1p2079_0 h_S_ r
  have e : val_v15 (ix1 r) = Host.reduceWindow IntOp.addi ![2080] ![1] ![2079] ![0] val_v14 val_call3_call0_v0
      reduceWindows_S2080_S2080_w2080s1p2079_0 h_S_ (ix1 r) := rfl
  rw [e, key, pos_eq_sum_fiber, ← sum_ofNat]
  refine Finset.sum_congr rfl (fun q hq => ?_)
  have hq' : q < 2080 := by have := Finset.mem_range.1 hq; have := r.isLt; omega
  unfold Cert.LibCumsum.ext
  rw [dif_pos hq', val_v14_apply ⟨q, hq'⟩]
  rfl

/-- The position the reference computes for the `(r+1)`-th upper-triangular pair. -/
def posOf (r : Fin 2080) : ℕ := (val_v15 (ix1 r)).toNat

theorem posOf_eq (r : Fin 2080) : posOf r = pos mask 4096 r.val := by
  unfold posOf
  have hlt := pos_lt mask 4096 r.val (by norm_num) (by rw [cnt_total]; exact r.isLt)
  rw [val_v15_apply, toNat_ofNat_small _ (by omega)]

theorem posOf_lt (r : Fin 2080) : posOf r < 4096 := by
  rw [posOf_eq]
  exact pos_lt mask 4096 r.val (by norm_num) (by rw [cnt_total]; exact r.isLt)

theorem posOf_upper (r : Fin 2080) : posOf r / 64 ≤ posOf r % 64 := by
  rw [posOf_eq]
  have := mask_pos mask 4096 r.val (by norm_num) (by rw [cnt_total]; exact r.isLt)
  unfold mask at this
  exact of_decide_eq_true this

theorem posOf_strictMono : StrictMono posOf := by
  intro r r' hrr
  rw [posOf_eq, posOf_eq]
  exact pos_lt_pos mask 4096 r.val (by norm_num) r'.val hrr (by rw [cnt_total]; exact r'.isLt)

theorem val_v15_eq (r : Fin 2080) : val_v15 (ix1 r) = BitVec.ofNat 32 (posOf r) := by
  rw [posOf_eq, val_v15_apply]

/-- The row: the position floor-divided by 64 (then reduced modulo 64 and wrapped, which change nothing). -/
theorem row_val (r : Fin 2080) : val_v24 (ix1 r) = BitVec.ofNat 32 (posOf r / 64) := by
  have hlt := posOf_lt r
  have e24 : val_v24 (ix1 r) = wrapW (val_v17 (ix1 r)) 64#32 := rfl
  have e17 : val_v17 (ix1 r) = remW (val_v16 (ix1 r)) 64#32 := rfl
  have e16 : val_v16 (ix1 r) = floorDivW (val_v15 (ix1 r)) 64#32 := rfl
  rw [e24, e17, e16, val_v15_eq]
  rw [show (64#32 : BitVec 32) = BitVec.ofNat 32 64 from rfl]
  rw [floorDivW_ofNat _ 64 (by omega) (by norm_num) (by norm_num),
    remW_ofNat _ 64 (by omega) (by norm_num) (by norm_num), wrapW_ofNat _ _ (by omega),
    Nat.mod_eq_of_lt (by omega)]

/-- The column: the position modulo 64 (after a floor division by one and a wrap, which change nothing). -/
theorem col_val (r : Fin 2080) : val_v31 (ix1 r) = BitVec.ofNat 32 (posOf r % 64) := by
  have hlt := posOf_lt r
  have e31 : val_v31 (ix1 r) = wrapW (val_v19 (ix1 r)) 64#32 := rfl
  have e19 : val_v19 (ix1 r) = remW (val_v18 (ix1 r)) 64#32 := rfl
  have e18 : val_v18 (ix1 r) = floorDivW (val_v15 (ix1 r)) 1#32 := rfl
  rw [e31, e19, e18, val_v15_eq]
  rw [show (64#32 : BitVec 32) = BitVec.ofNat 32 64 from rfl, show (1#32 : BitVec 32) = BitVec.ofNat 32 1 from rfl]
  rw [floorDivW_ofNat _ 1 (by omega) (by norm_num) (by norm_num), Nat.div_one,
    remW_ofNat _ 64 (by omega) (by norm_num) (by norm_num), wrapW_ofNat _ _ (by omega)]

end Cert.ReferenceIdeal.RefIndex
-- ==== Proof.FinitePre.lean ====
/-
  Finiteness out of the precondition: the printed predicate is the conjunction of four "every |x| is below +∞"
  tests, each a reduction by "and" over all entries of one argument array. Read back at the extended reals, an
  entry x with max x (-x) < ⊤ is neither ⊤ nor ⊥, hence a real.
-/
import proofs.«166319_j26499948216761_1_alg».proof.Defs
import proofs.«166319_j26499948216761_1_alg».proof.Proof.Gen.Pre_finite_inputs
import Idealize.ShloMosaic.Lib.ReduceAll
import Idealize.ShloMosaic.Lib.ValueIdx

noncomputable section

namespace Cert.FinitePre

open Idealize.ShloMosaic Idealize.SL.Sem Cert.Pre_finite_inputs

instance : Subsingleton S_.Idx := ⟨fun a b => funext fun d => d.elim0⟩

/-- The f32 pattern 0x7F800000 denotes +∞. -/
theorem inf_pattern : Ideal.ofBits .f32 0x7F800000#32 = (⊤ : EReal) := by
  simp [Ideal.ofBits, Ideal.ieee]

/-- An extended real whose absolute value max x (-x) compares below +∞ is a real. -/
theorem real_of_abs_lt (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

theorem andi_apply {s : Shape} {w : Nat} (x y : IVec s w) (i : s.Idx) :
    andi x y i = IntOp.andi (x i) (y i) := rfl

/-- The printed predicate being all ones makes every entry of the third and of the fourth argument a real. -/
theorem reals_of_fn [Cert.Pre_finite_inputs.Facts] (a0 : FVec Ideal S2048x1 .f32) (a1 : FVec Ideal S2048x96 .f32)
    (a2 : FVec Ideal S64x65536 .f32) (a3 : FVec Ideal S2080x32 .f32)
    (h : Cert.Pre_finite_inputs.fn (F := Ideal) a0 a1 a2 a3 = (fun _ => 1#1)) :
    (∀ idx, ∃ x : ℝ, a2 idx = (x : EReal)) ∧ (∀ idx, ∃ x : ℝ, a3 idx = (x : EReal)) := by
  have h0 := congrFun h ValueIdx.ix0
  dsimp only [Cert.Pre_finite_inputs.fn, Cert.Pre_finite_inputs.fn_part1] at h0
  simp only [andi_apply, IntOp.andi_eq_one] at h0
  obtain ⟨⟨_, h2⟩, h3⟩ := h0
  exact ⟨fun idx => real_of_abs_lt _ (Host.reduce_andi_all _ _ _ _ _ h2 idx),
    fun idx => real_of_abs_lt _ (Host.reduce_andi_all _ _ _ _ _ h3 idx)⟩

theorem phi_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ idx, ∃ x : ℝ, m ((c.tc : Thread Cert.KernelIdeal.nD Cert.KernelIdeal.τ).loc Cert.KernelIdeal.main_arg2) idx = (x : EReal) :=
  (reals_of_fn _ _ _ _ (h c)).1

theorem theta_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ idx, ∃ x : ℝ, m ((c.tc : Thread Cert.KernelIdeal.nD Cert.KernelIdeal.τ).loc Cert.KernelIdeal.main_arg3) idx = (x : EReal) :=
  (reals_of_fn _ _ _ _ (h c)).2

end Cert.FinitePre

end
-- ==== Proof.Bridge.lean ====
/-
  The two programs' result arrays are one function of the arguments.

  The reference's computed index vectors and the kernel's literal ones both enumerate the upper-triangular
  positions of the 64 × 64 array in increasing row-major order, so they agree entry by entry; the kernel's batched
  weights then carry theta[r, k] at (row r, col r) and (col r, row r) with weight 1 on the diagonal and 1/2 off
  it, and the quadratic form through them is the reference's sum over the listed pairs (finite phi and theta).
-/
import proofs.«166319_j26499948216761_1_alg».proof.Proof.KerBridge
import proofs.«166319_j26499948216761_1_alg».proof.Proof.KerValue
import proofs.«166319_j26499948216761_1_alg».proof.Proof.RefValue
import proofs.«166319_j26499948216761_1_alg».proof.Proof.RefIndex
import proofs.«166319_j26499948216761_1_alg».proof.Proof.FinitePre
import proofs.«166319_j26499948216761_1_alg».proof.Proof.QuadLaw

noncomputable section

namespace Cert.Bridge

open Idealize.ShloMosaic Idealize.ShloMosaic.TcCoe Idealize.SL.Sem Idealize.ShloMosaic.ValueIdx
open Cert.KernelIdeal.KerIndex (row col litPos)

/-- The reference's computed positions are the literal ones: both enumerate the upper-triangular positions in
    increasing order. -/
theorem posOf_eq_litPos : Cert.ReferenceIdeal.RefIndex.posOf = litPos :=
  Cert.KernelIdeal.KerIndex.eq_litPos Cert.ReferenceIdeal.RefIndex.posOf_strictMono
    (fun r => ⟨Cert.ReferenceIdeal.RefIndex.posOf_lt r, Cert.ReferenceIdeal.RefIndex.posOf_upper r⟩)

theorem hrow (r : Fin 2080) :
    Cert.ReferenceIdeal.RefStages.val_v24 (ix1 r) = BitVec.ofNat 32 (row r).val := by
  rw [Cert.ReferenceIdeal.RefIndex.row_val, posOf_eq_litPos, Cert.KernelIdeal.KerIndex.litPos_div]; rfl

theorem hcol (r : Fin 2080) :
    Cert.ReferenceIdeal.RefStages.val_v31 (ix1 r) = BitVec.ofNat 32 (col r).val := by
  rw [Cert.ReferenceIdeal.RefIndex.col_val, posOf_eq_litPos, Cert.KernelIdeal.KerIndex.litPos_mod]; rfl

open Cert.KernelIdeal in
/-- Under finite inputs, the reference's result term of the kernel's argument arrays is the array the kernel's
    run leaves. -/
theorem result_eq [Cert.Pre_finite_inputs.Facts] (m : (ℓ : Loc nD τ sig) → Buf (Elt Ideal) ℓ) (hpre : Cert.Pre_KernelIdeal m) (c : Dev nD) :
    Cert.ReferenceIdeal.RefStages.val_v40 (m ((c : Thread nD τ).loc main_arg0)) (m ((c : Thread nD τ).loc main_arg1))
        (m ((c : Thread nD τ).loc main_arg2)) (m ((c : Thread nD τ).loc main_arg3))
      = (fun idx => Cert.Spec.outKer (Gen.V m c main_arg2) (Gen.V m c main_v46) (Gen.V m c main_v47) (Gen.V m c main_arg0)
          ⟨(idx 0).val, idx2_lt0 idx⟩ ⟨(idx 1).val, idx2_lt1 idx⟩) := by
  funext idx
  obtain ⟨p, n, rfl⟩ : ∃ (p : Fin 2048) (n : Fin 65536), idx = ix2 p n := ⟨idx 0, idx 1, eq_ix2 idx⟩
  rw [Cert.ReferenceIdeal.RefValue.val_v40_apply _ _ _ _ row col hrow hcol p n]
  show _ = Cert.Spec.outKer (Gen.V m c main_arg2) (Gen.V m c main_v46) (Gen.V m c main_v47) (Gen.V m c main_arg0) p n
  rw [Gen.V_main_arg2, Gen.V_main_arg0]
  refine (Cert.QuadLaw.outKer_eq_outRef _ _ _ _ _ _ row col
    (Cert.FinitePre.phi_real m hpre c) (Cert.FinitePre.theta_real m hpre c)
    Cert.KernelIdeal.KerIndex.row_le_col Cert.KernelIdeal.KerIndex.pair_inj Cert.KernelIdeal.KerIndex.pair_surj
    (fun r k => by
      have h := Cert.KernelIdeal.KerBridge.hW m c r k
      unfold Cert.KernelIdeal.KerBridge.wbV Cert.KernelIdeal.KerBridge.thetaV at h
      rwa [Gen.V_main_arg3] at h)
    (Cert.KernelIdeal.KerBridge.hQ m c) p n).symm

end Cert.Bridge

end
-- ==== Proof.RefOps.lean ====
/-
  The reference program's @main as ONE list of host operations: each call of a module-local
  function replaced by that function's operations over the call's own buffers, in program order
  (142 operations), and the proof that @main is the straight line of that list. The list is
  stated twice: over the calls' buffer records (the form @main unfolds to), and over the
  buffers themselves, each operation's function at its operands' own types; the two are equal
  operation by operation.
-/
import proofs.«166319_j26499948216761_1_alg».proof.Proof.RefStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's 142 operations, in order, the calls unfolded at their call sites, over the calls' buffer records. -/
abbrev opsT : List (HloOp τ sig (Elt F)) :=
  [ nullary main_cst (constant S_ .f32 0x3F800000#32),
    unary main_cst main_v0 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 4294967295#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (.of main_v0 : TRef sig ⟨S64x64, .f32⟩) main_call0.v6 select,
    nullary main_cst_0 (constant S_ .f32 0x00000000#32),
    unary main_cst_0 main_v2 (broadcastInDim S64x64 ![] bcast_S_S64x64 : (⟨S_, .f32⟩ : BufTy).Contents (Elt F) → (⟨S64x64, .f32⟩ : BufTy).Contents (Elt F)),
    binary main_v1 main_v2 main_v3 (cmpf .une : (⟨S64x64, .f32⟩ : BufTy).Contents (Elt F) → (⟨S64x64, .f32⟩ : BufTy).Contents (Elt F) → (⟨S64x64, .i1⟩ : BufTy).Contents (Elt F)),
    TRef.reshape (.of main_v3 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_),
    nullary main_c (constantI S_ 32 0#32),
    unary main_c main_v5 (broadcastInDim S2080 ![] bcast_S_S2080 : (⟨S_, .i32⟩ : BufTy).Contents (Elt F) → (⟨S2080, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v4 : TRef sig ⟨S4096, .i32⟩) main_call2.v2 maxsi,
    nullary main_c_2 (constantI S_ 32 0#32),
    unary main_c_2 main_v7 (broadcastInDim S4096 ![] bcast_S_S4096 : (⟨S_, .i32⟩ : BufTy).Contents (Elt F) → (⟨S4096, .i32⟩ : BufTy).Contents (Elt F)),
    binary main_v6 main_v7 main_v8 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2080#32),
    unary main_c_3 main_v9 (broadcastInDim S4096 ![] bcast_S_S4096 : (⟨S_, .i32⟩ : BufTy).Contents (Elt F) → (⟨S4096, .i32⟩ : BufTy).Contents (Elt F)),
    binary main_v6 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v13 (broadcastInDim S4096 ![] bcast_S_S4096 : (⟨S_, .i32⟩ : BufTy).Contents (Elt F) → (⟨S4096, .i32⟩ : BufTy).Contents (Elt F)),
    ternary main_v5 main_v12 main_v13 main_v14 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    TRef.nullary main_call3.call0.c (constantI S_ 32 0#32),
    TRef.unary main_call3.call0.c main_call3.call0.v0 (broadcastInDim S_ ![] bcast_S_S_),
    TRef.binary (.of main_v14 : TRef sig ⟨S2080, .i32⟩) main_call3.call0.v0 main_call3.call0.v1 (fun x v => Host.reduceWindow IntOp.addi ![2080] ![1] ![2079] ![0] x v reduceWindows_S2080_S2080_w2080s1p2079_0 h_S_),
    nullary main_c_5 (constantI S_ 32 64#32),
    TRef.unary (.of main_c_5 : TRef sig ⟨S_, .i32⟩) main_call4.v0 (broadcastInDim S2080 ![] bcast_S_S2080),
    TRef.binary (.of main_v15 : TRef sig ⟨S2080, .i32⟩) main_call4.v0 main_call4.v1 Host.divsi,
    TRef.unary (.of main_v15 : TRef sig ⟨S2080, .i32⟩) main_call4.v2 signi,
    TRef.unary (.of main_c_5 : TRef sig ⟨S_, .i32⟩) main_call4.v3 signi,
    TRef.unary main_call4.v3 main_call4.v4 (broadcastInDim S2080 ![] bcast_S_S2080),
    TRef.binary main_call4.v2 main_call4.v4 main_call4.v5 (cmpi .ne),
    TRef.unary (.of main_c_5 : TRef sig ⟨S_, .i32⟩) main_call4.v6 (broadcastInDim S2080 ![] bcast_S_S2080),
    TRef.binary (.of main_v15 : TRef sig ⟨S2080, .i32⟩) main_call4.v6 main_call4.v7 Host.remsi,
    TRef.nullary main_call4.c (constantI S_ 32 0#32),
    TRef.unary main_call4.c main_call4.v8 (broadcastInDim S2080 ![] bcast_S_S2080),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2080 ![] bcast_S_S2080),
    TRef.binary main_call4.v1 main_call4.v11 main_call4.v12 subi,
    TRef.ternary main_call4.v10 main_call4.v12 main_call4.v1 main_call4.call0.v0 select,
    nullary main_c_6 (constantI S_ 32 64#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2080 ![] bcast_S_S2080),
    TRef.binary (.of main_v16 : TRef sig ⟨S2080, .i32⟩) main_call5.v3 main_call5.v4 Host.remsi,
    TRef.nullary main_call5.c_1 (constantI S_ 32 0#32),
    TRef.unary main_call5.c_1 main_call5.v5 (broadcastInDim S2080 ![] bcast_S_S2080),
    TRef.binary main_call5.v4 main_call5.v5 main_call5.v6 (cmpi .ne),
    TRef.nullary main_call5.c_2 (constantI S_ 32 0#32),
    TRef.unary main_call5.c_2 main_call5.v7 (broadcastInDim S2080 ![] bcast_S_S2080),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2080 ![] bcast_S_S2080),
    TRef.binary main_call5.v8 main_call5.v10 main_call5.v11 (cmpi .ne),
    TRef.binary main_call5.v11 main_call5.v6 main_call5.v12 andi,
    TRef.unary main_call5.call0.v0 main_call5.v13 (broadcastInDim S2080 ![] bcast_S_S2080),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S2080 ![] bcast_S_S2080),
    TRef.binary (.of main_v15 : TRef sig ⟨S2080, .i32⟩) main_call6.v0 main_call6.v1 Host.divsi,
    TRef.unary (.of main_v15 : TRef sig ⟨S2080, .i32⟩) main_call6.v2 signi,
    TRef.unary (.of main_c_7 : TRef sig ⟨S_, .i32⟩) main_call6.v3 signi,
    TRef.unary main_call6.v3 main_call6.v4 (broadcastInDim S2080 ![] bcast_S_S2080),
    TRef.binary main_call6.v2 main_call6.v4 main_call6.v5 (cmpi .ne),
    TRef.unary (.of main_c_7 : TRef sig ⟨S_, .i32⟩) main_call6.v6 (broadcastInDim S2080 ![] bcast_S_S2080),
    TRef.binary (.of main_v15 : TRef sig ⟨S2080, .i32⟩) main_call6.v6 main_call6.v7 Host.remsi,
    TRef.nullary main_call6.c (constantI S_ 32 0#32),
    TRef.unary main_call6.c main_call6.v8 (broadcastInDim S2080 ![] bcast_S_S2080),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2080 ![] bcast_S_S2080),
    TRef.binary main_call6.v1 main_call6.v11 main_call6.v12 subi,
    TRef.ternary main_call6.v10 main_call6.v12 main_call6.v1 main_call6.call0.v0 select,
    nullary main_c_8 (constantI S_ 32 64#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2080 ![] bcast_S_S2080),
    TRef.binary (.of main_v18 : TRef sig ⟨S2080, .i32⟩) main_call7.v3 main_call7.v4 Host.remsi,
    TRef.nullary main_call7.c_1 (constantI S_ 32 0#32),
    TRef.unary main_call7.c_1 main_call7.v5 (broadcastInDim S2080 ![] bcast_S_S2080),
    TRef.binary main_call7.v4 main_call7.v5 main_call7.v6 (cmpi .ne),
    TRef.nullary main_call7.c_2 (constantI S_ 32 0#32),
    TRef.unary main_call7.c_2 main_call7.v7 (broadcastInDim S2080 ![] bcast_S_S2080),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2080 ![] bcast_S_S2080),
    TRef.binary main_call7.v8 main_call7.v10 main_call7.v11 (cmpi .ne),
    TRef.binary main_call7.v11 main_call7.v6 main_call7.v12 andi,
    TRef.unary main_call7.call0.v0 main_call7.v13 (broadcastInDim S2080 ![] bcast_S_S2080),
    TRef.binary main_call7.v4 main_call7.v13 main_call7.v14 addi,
    TRef.ternary main_call7.v12 main_call7.v14 main_call7.v4 main_call7.v15 select,
    nullary main_c_9 (constantI S_ 32 0#32),
    unary main_c_9 main_v20 (broadcastInDim S2080 ![] bcast_S_S2080 : (⟨S_, .i32⟩ : BufTy).Contents (Elt F) → (⟨S2080, .i32⟩ : BufTy).Contents (Elt F)),
    binary main_v17 main_v20 main_v21 (cmpi .slt : (⟨S2080, .i32⟩ : BufTy).Contents (Elt F) → (⟨S2080, .i32⟩ : BufTy).Contents (Elt F) → (⟨S2080, .i1⟩ : BufTy).Contents (Elt F)),
    nullary main_c_10 (constantI S_ 32 64#32),
    unary main_c_10 main_v22 (broadcastInDim S2080 ![] bcast_S_S2080 : (⟨S_, .i32⟩ : BufTy).Contents (Elt F) → (⟨S2080, .i32⟩ : BufTy).Contents (Elt F)),
    binary main_v17 main_v22 main_v23 (addi : (⟨S2080, .i32⟩ : BufTy).Contents (Elt F) → (⟨S2080, .i32⟩ : BufTy).Contents (Elt F) → (⟨S2080, .i32⟩ : BufTy).Contents (Elt F)),
    ternary main_v21 main_v23 main_v17 main_v24 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v24 main_v25 (broadcastInDim S2080x1 ![0] bcast_S2080_S2080x1_0 : (⟨S2080, .i32⟩ : BufTy).Contents (Elt F) → (⟨S2080x1, .i32⟩ : BufTy).Contents (Elt F)),
    binary main_arg2 main_v25 main_v26 ((fun x i => Host.gather gather_S64x65536_S2080x1_S2080x65536_1_0_n_n_0_1_165536 x i) : (⟨S64x65536, .f32⟩ : BufTy).Contents (Elt F) → (⟨S2080x1, .i32⟩ : BufTy).Contents (Elt F) → (⟨S2080x65536, .f32⟩ : BufTy).Contents (Elt F)),
    nullary main_c_11 (constantI S_ 32 0#32),
    unary main_c_11 main_v27 (broadcastInDim S2080 ![] bcast_S_S2080 : (⟨S_, .i32⟩ : BufTy).Contents (Elt F) → (⟨S2080, .i32⟩ : BufTy).Contents (Elt F)),
    binary main_v19 main_v27 main_v28 (cmpi .slt : (⟨S2080, .i32⟩ : BufTy).Contents (Elt F) → (⟨S2080, .i32⟩ : BufTy).Contents (Elt F) → (⟨S2080, .i1⟩ : BufTy).Contents (Elt F)),
    nullary main_c_12 (constantI S_ 32 64#32),
    unary main_c_12 main_v29 (broadcastInDim S2080 ![] bcast_S_S2080 : (⟨S_, .i32⟩ : BufTy).Contents (Elt F) → (⟨S2080, .i32⟩ : BufTy).Contents (Elt F)),
    binary main_v19 main_v29 main_v30 (addi : (⟨S2080, .i32⟩ : BufTy).Contents (Elt F) → (⟨S2080, .i32⟩ : BufTy).Contents (Elt F) → (⟨S2080, .i32⟩ : BufTy).Contents (Elt F)),
    ternary main_v28 main_v30 main_v19 main_v31 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v31 main_v32 (broadcastInDim S2080x1 ![0] bcast_S2080_S2080x1_0 : (⟨S2080, .i32⟩ : BufTy).Contents (Elt F) → (⟨S2080x1, .i32⟩ : BufTy).Contents (Elt F)),
    binary main_arg2 main_v32 main_v33 ((fun x i => Host.gather gather_S64x65536_S2080x1_S2080x65536_1_0_n_n_0_1_165536 x i) : (⟨S64x65536, .f32⟩ : BufTy).Contents (Elt F) → (⟨S2080x1, .i32⟩ : BufTy).Contents (Elt F) → (⟨S2080x65536, .f32⟩ : BufTy).Contents (Elt F)),
    binary main_v26 main_v33 main_v34 (mulf : (⟨S2080x65536, .f32⟩ : BufTy).Contents (Elt F) → (⟨S2080x65536, .f32⟩ : BufTy).Contents (Elt F) → (⟨S2080x65536, .f32⟩ : BufTy).Contents (Elt F)),
    unary main_arg3 main_v35 ((transpose S32x2080 [1, 0] · transposes_S2080x32_S32x2080_1_0) : (⟨S2080x32, .f32⟩ : BufTy).Contents (Elt F) → (⟨S32x2080, .f32⟩ : BufTy).Contents (Elt F)),
    binary main_v35 main_v34 main_v36 ((fun l r => Host.dotGeneral dot_S32x2080_S2080x65536_S32x65536_1_0_0_1_n_n none l r) : (⟨S32x2080, .f32⟩ : BufTy).Contents (Elt F) → (⟨S2080x65536, .f32⟩ : BufTy).Contents (Elt F) → (⟨S32x65536, .f32⟩ : BufTy).Contents (Elt F)),
    binary main_arg2 main_v36 main_v37 ((fun a b => concatenate S96x65536 0 [⟨S64x65536, a⟩, ⟨S32x65536, b⟩] concatenates_S64x65536_S32x65536_S96x65536_d0) : (⟨S64x65536, .f32⟩ : BufTy).Contents (Elt F) → (⟨S32x65536, .f32⟩ : BufTy).Contents (Elt F) → (⟨S96x65536, .f32⟩ : BufTy).Contents (Elt F)),
    binary main_arg1 main_v37 main_v38 ((fun l r => Host.dotGeneral dot_S2048x96_S96x65536_S2048x65536_1_0_0_1_n_n none l r) : (⟨S2048x96, .f32⟩ : BufTy).Contents (Elt F) → (⟨S96x65536, .f32⟩ : BufTy).Contents (Elt F) → (⟨S2048x65536, .f32⟩ : BufTy).Contents (Elt F)),
    unary main_arg0 main_v39 (broadcastInDim S2048x65536 ![0, 1] bcast_S2048x1_S2048x65536_0_1 : (⟨S2048x1, .f32⟩ : BufTy).Contents (Elt F) → (⟨S2048x65536, .f32⟩ : BufTy).Contents (Elt F)),
    binary main_v39 main_v38 main_v40 (addf : (⟨S2048x65536, .f32⟩ : BufTy).Contents (Elt F) → (⟨S2048x65536, .f32⟩ : BufTy).Contents (Elt F) → (⟨S2048x65536, .f32⟩ : BufTy).Contents (Elt F)) ]

set_option maxRecDepth 4096 in
/-- @main is that straight line: the functions' definitions unfolded at their calls, both sides are one chain of
    `hlo` steps once sequencing is reassociated. -/
theorem main_eqT (c : Dev nD) : main (F := F) c = seq opsT := by
  simp only [main, fn_triu.body, fn_cumsum_0.body, fn_cumsum.body, fn_clip.body, fn_cumsum_2.body, fn_cumsum_1.body, fn_where.body, fn_floor_divide.body, fn_where_3.body, fn_remainder.body, seq, bind_assoc, pure_bind]

/-- The same 142 operations over the buffers themselves. -/
abbrev ops : List (HloOp τ sig (Elt F)) :=
  [ nullary main_cst (constant S_ .f32 0x3F800000#32),
    unary main_cst main_v0 (broadcastInDim S64x64 ![] bcast_S_S64x64 : (⟨S_, .f32⟩ : BufTy).Contents (Elt F) → (⟨S64x64, .f32⟩ : BufTy).Contents (Elt F)),
    nullary main_call0_v0 ((iotaInDim S64x64 32 0) : (⟨S64x64, .i32⟩ : BufTy).Contents (Elt F)),
    nullary main_call0_c ((constantI S_ 32 4294967295#32) : (⟨S_, .i32⟩ : BufTy).Contents (Elt F)),
    unary main_call0_c main_call0_v1 ((broadcastInDim S64x64 ![] bcast_S_S64x64) : (⟨S_, .i32⟩ : BufTy).Contents (Elt F) → (⟨S64x64, .i32⟩ : BufTy).Contents (Elt F)),
    binary main_call0_v0 main_call0_v1 main_call0_v2 (addi : (⟨S64x64, .i32⟩ : BufTy).Contents (Elt F) → (⟨S64x64, .i32⟩ : BufTy).Contents (Elt F) → (⟨S64x64, .i32⟩ : BufTy).Contents (Elt F)),
    nullary main_call0_v3 ((iotaInDim S64x64 32 1) : (⟨S64x64, .i32⟩ : BufTy).Contents (Elt F)),
    binary main_call0_v2 main_call0_v3 main_call0_v4 ((cmpi .sge) : (⟨S64x64, .i32⟩ : BufTy).Contents (Elt F) → (⟨S64x64, .i32⟩ : BufTy).Contents (Elt F) → (⟨S64x64, .i1⟩ : BufTy).Contents (Elt F)),
    nullary main_call0_cst ((constant S_ .f32 0x00000000#32) : (⟨S_, .f32⟩ : BufTy).Contents (Elt F)),
    unary main_call0_cst main_call0_v5 ((broadcastInDim S64x64 ![] bcast_S_S64x64) : (⟨S_, .f32⟩ : BufTy).Contents (Elt F) → (⟨S64x64, .f32⟩ : BufTy).Contents (Elt F)),
    ternary main_call0_v4 main_call0_v5 main_v0 main_v1 (select : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
    nullary main_cst_0 (constant S_ .f32 0x00000000#32),
    unary main_cst_0 main_v2 (broadcastInDim S64x64 ![] bcast_S_S64x64 : (⟨S_, .f32⟩ : BufTy).Contents (Elt F) → (⟨S64x64, .f32⟩ : BufTy).Contents (Elt F)),
    binary main_v1 main_v2 main_v3 (cmpf .une : (⟨S64x64, .f32⟩ : BufTy).Contents (Elt F) → (⟨S64x64, .f32⟩ : BufTy).Contents (Elt F) → (⟨S64x64, .i1⟩ : BufTy).Contents (Elt F)),
    reshape main_v3 main_call1_v0 rfl shapeCasts_S64x64_S4096,
    unary main_call1_v0 main_call1_v1 ((extui 32 · natLt_1_32) : (⟨S4096, .i1⟩ : BufTy).Contents (Elt F) → (⟨S4096, .i32⟩ : BufTy).Contents (Elt F)),
    nullary main_call1_call0_c ((constantI S_ 32 0#32) : (⟨S_, .i32⟩ : BufTy).Contents (Elt F)),
    unary main_call1_call0_c main_call1_call0_v0 ((broadcastInDim S_ ![] bcast_S_S_) : (⟨S_, .i32⟩ : BufTy).Contents (Elt F) → (⟨S_, .i32⟩ : BufTy).Contents (Elt F)),
    binary main_call1_v1 main_call1_call0_v0 main_v4 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F)),
    nullary main_c (constantI S_ 32 0#32),
    unary main_c main_v5 (broadcastInDim S2080 ![] bcast_S_S2080 : (⟨S_, .i32⟩ : BufTy).Contents (Elt F) → (⟨S2080, .i32⟩ : BufTy).Contents (Elt F)),
    nullary main_c_1 (constantI S_ 32 0#32),
    unary main_c_1 main_call2_v0 (id : (⟨S_, .i32⟩ : BufTy).Contents (Elt F) → (⟨S_, .i32⟩ : BufTy).Contents (Elt F)),
    unary main_call2_v0 main_call2_v1 ((broadcastInDim S4096 ![] bcast_S_S4096) : (⟨S_, .i32⟩ : BufTy).Contents (Elt F) → (⟨S4096, .i32⟩ : BufTy).Contents (Elt F)),
    binary main_call2_v1 main_v4 main_v6 (maxsi : (⟨S4096, .i32⟩ : BufTy).Contents (Elt F) → (⟨S4096, .i32⟩ : BufTy).Contents (Elt F) → (⟨S4096, .i32⟩ : BufTy).Contents (Elt F)),
    nullary main_c_2 (constantI S_ 32 0#32),
    unary main_c_2 main_v7 (broadcastInDim S4096 ![] bcast_S_S4096 : (⟨S_, .i32⟩ : BufTy).Contents (Elt F) → (⟨S4096, .i32⟩ : BufTy).Contents (Elt F)),
    binary main_v6 main_v7 main_v8 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2080#32),
    unary main_c_3 main_v9 (broadcastInDim S4096 ![] bcast_S_S4096 : (⟨S_, .i32⟩ : BufTy).Contents (Elt F) → (⟨S4096, .i32⟩ : BufTy).Contents (Elt F)),
    binary main_v6 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v13 (broadcastInDim S4096 ![] bcast_S_S4096 : (⟨S_, .i32⟩ : BufTy).Contents (Elt F) → (⟨S4096, .i32⟩ : BufTy).Contents (Elt F)),
    ternary main_v5 main_v12 main_v13 main_v14 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    nullary main_call3_call0_c ((constantI S_ 32 0#32) : (⟨S_, .i32⟩ : BufTy).Contents (Elt F)),
    unary main_call3_call0_c main_call3_call0_v0 ((broadcastInDim S_ ![] bcast_S_S_) : (⟨S_, .i32⟩ : BufTy).Contents (Elt F) → (⟨S_, .i32⟩ : BufTy).Contents (Elt F)),
    binary main_v14 main_call3_call0_v0 main_v15 ((fun x v => Host.reduceWindow IntOp.addi ![2080] ![1] ![2079] ![0] x v reduceWindows_S2080_S2080_w2080s1p2079_0 h_S_) : (⟨S2080, .i32⟩ : BufTy).Contents (Elt F) → (⟨S_, .i32⟩ : BufTy).Contents (Elt F) → (⟨S2080, .i32⟩ : BufTy).Contents (Elt F)),
    nullary main_c_5 (constantI S_ 32 64#32),
    unary main_c_5 main_call4_v0 ((broadcastInDim S2080 ![] bcast_S_S2080) : (⟨S_, .i32⟩ : BufTy).Contents (Elt F) → (⟨S2080, .i32⟩ : BufTy).Contents (Elt F)),
    binary main_v15 main_call4_v0 main_call4_v1 (Host.divsi : (⟨S2080, .i32⟩ : BufTy).Contents (Elt F) → (⟨S2080, .i32⟩ : BufTy).Contents (Elt F) → (⟨S2080, .i32⟩ : BufTy).Contents (Elt F)),
    unary main_v15 main_call4_v2 (signi : (⟨S2080, .i32⟩ : BufTy).Contents (Elt F) → (⟨S2080, .i32⟩ : BufTy).Contents (Elt F)),
    unary main_c_5 main_call4_v3 (signi : (⟨S_, .i32⟩ : BufTy).Contents (Elt F) → (⟨S_, .i32⟩ : BufTy).Contents (Elt F)),
    unary main_call4_v3 main_call4_v4 ((broadcastInDim S2080 ![] bcast_S_S2080) : (⟨S_, .i32⟩ : BufTy).Contents (Elt F) → (⟨S2080, .i32⟩ : BufTy).Contents (Elt F)),
    binary main_call4_v2 main_call4_v4 main_call4_v5 ((cmpi .ne) : (⟨S2080, .i32⟩ : BufTy).Contents (Elt F) → (⟨S2080, .i32⟩ : BufTy).Contents (Elt F) → (⟨S2080, .i1⟩ : BufTy).Contents (Elt F)),
    unary main_c_5 main_call4_v6 ((broadcastInDim S2080 ![] bcast_S_S2080) : (⟨S_, .i32⟩ : BufTy).Contents (Elt F) → (⟨S2080, .i32⟩ : BufTy).Contents (Elt F)),
    binary main_v15 main_call4_v6 main_call4_v7 (Host.remsi : (⟨S2080, .i32⟩ : BufTy).Contents (Elt F) → (⟨S2080, .i32⟩ : BufTy).Contents (Elt F) → (⟨S2080, .i32⟩ : BufTy).Contents (Elt F)),
    nullary main_call4_c ((constantI S_ 32 0#32) : (⟨S_, .i32⟩ : BufTy).Contents (Elt F)),
    unary main_call4_c main_call4_v8 ((broadcastInDim S2080 ![] bcast_S_S2080) : (⟨S_, .i32⟩ : BufTy).Contents (Elt F) → (⟨S2080, .i32⟩ : BufTy).Contents (Elt F)),
    binary main_call4_v7 main_call4_v8 main_call4_v9 ((cmpi .ne) : (⟨S2080, .i32⟩ : BufTy).Contents (Elt F) → (⟨S2080, .i32⟩ : BufTy).Contents (Elt F) → (⟨S2080, .i1⟩ : BufTy).Contents (Elt F)),
    binary main_call4_v5 main_call4_v9 main_call4_v10 (andi : (⟨S2080, .i1⟩ : BufTy).Contents (Elt F) → (⟨S2080, .i1⟩ : BufTy).Contents (Elt F) → (⟨S2080, .i1⟩ : BufTy).Contents (Elt F)),
    nullary main_call4_c_0 ((constantI S_ 32 1#32) : (⟨S_, .i32⟩ : BufTy).Contents (Elt F)),
    unary main_call4_c_0 main_call4_v11 ((broadcastInDim S2080 ![] bcast_S_S2080) : (⟨S_, .i32⟩ : BufTy).Contents (Elt F) → (⟨S2080, .i32⟩ : BufTy).Contents (Elt F)),
    binary main_call4_v1 main_call4_v11 main_call4_v12 (subi : (⟨S2080, .i32⟩ : BufTy).Contents (Elt F) → (⟨S2080, .i32⟩ : BufTy).Contents (Elt F) → (⟨S2080, .i32⟩ : BufTy).Contents (Elt F)),
    ternary main_call4_v10 main_call4_v12 main_call4_v1 main_v16 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_6 (constantI S_ 32 64#32),
    unary main_c_6 main_call5_v0 (id : (⟨S_, .i32⟩ : BufTy).Contents (Elt F) → (⟨S_, .i32⟩ : BufTy).Contents (Elt F)),
    nullary main_call5_c ((constantI S_ 32 0#32) : (⟨S_, .i32⟩ : BufTy).Contents (Elt F)),
    binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    nullary main_call5_c_0 ((constantI S_ 32 1#32) : (⟨S_, .i32⟩ : BufTy).Contents (Elt F)),
    ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call5_v2 main_call5_v3 ((broadcastInDim S2080 ![] bcast_S_S2080) : (⟨S_, .i32⟩ : BufTy).Contents (Elt F) → (⟨S2080, .i32⟩ : BufTy).Contents (Elt F)),
    binary main_v16 main_call5_v3 main_call5_v4 (Host.remsi : (⟨S2080, .i32⟩ : BufTy).Contents (Elt F) → (⟨S2080, .i32⟩ : BufTy).Contents (Elt F) → (⟨S2080, .i32⟩ : BufTy).Contents (Elt F)),
    nullary main_call5_c_1 ((constantI S_ 32 0#32) : (⟨S_, .i32⟩ : BufTy).Contents (Elt F)),
    unary main_call5_c_1 main_call5_v5 ((broadcastInDim S2080 ![] bcast_S_S2080) : (⟨S_, .i32⟩ : BufTy).Contents (Elt F) → (⟨S2080, .i32⟩ : BufTy).Contents (Elt F)),
    binary main_call5_v4 main_call5_v5 main_call5_v6 ((cmpi .ne) : (⟨S2080, .i32⟩ : BufTy).Contents (Elt F) → (⟨S2080, .i32⟩ : BufTy).Contents (Elt F) → (⟨S2080, .i1⟩ : BufTy).Contents (Elt F)),
    nullary main_call5_c_2 ((constantI S_ 32 0#32) : (⟨S_, .i32⟩ : BufTy).Contents (Elt F)),
    unary main_call5_c_2 main_call5_v7 ((broadcastInDim S2080 ![] bcast_S_S2080) : (⟨S_, .i32⟩ : BufTy).Contents (Elt F) → (⟨S2080, .i32⟩ : BufTy).Contents (Elt F)),
    binary main_call5_v4 main_call5_v7 main_call5_v8 ((cmpi .slt) : (⟨S2080, .i32⟩ : BufTy).Contents (Elt F) → (⟨S2080, .i32⟩ : BufTy).Contents (Elt F) → (⟨S2080, .i1⟩ : BufTy).Contents (Elt F)),
    nullary main_call5_c_3 ((constantI S_ 32 0#32) : (⟨S_, .i32⟩ : BufTy).Contents (Elt F)),
    binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    unary main_call5_v9 main_call5_v10 ((broadcastInDim S2080 ![] bcast_S_S2080) : (⟨S_, .i1⟩ : BufTy).Contents (Elt F) → (⟨S2080, .i1⟩ : BufTy).Contents (Elt F)),
    binary main_call5_v8 main_call5_v10 main_call5_v11 ((cmpi .ne) : (⟨S2080, .i1⟩ : BufTy).Contents (Elt F) → (⟨S2080, .i1⟩ : BufTy).Contents (Elt F) → (⟨S2080, .i1⟩ : BufTy).Contents (Elt F)),
    binary main_call5_v11 main_call5_v6 main_call5_v12 (andi : (⟨S2080, .i1⟩ : BufTy).Contents (Elt F) → (⟨S2080, .i1⟩ : BufTy).Contents (Elt F) → (⟨S2080, .i1⟩ : BufTy).Contents (Elt F)),
    unary main_call5_v2 main_call5_v13 ((broadcastInDim S2080 ![] bcast_S_S2080) : (⟨S_, .i32⟩ : BufTy).Contents (Elt F) → (⟨S2080, .i32⟩ : BufTy).Contents (Elt F)),
    binary main_call5_v4 main_call5_v13 main_call5_v14 (addi : (⟨S2080, .i32⟩ : BufTy).Contents (Elt F) → (⟨S2080, .i32⟩ : BufTy).Contents (Elt F) → (⟨S2080, .i32⟩ : BufTy).Contents (Elt F)),
    ternary main_call5_v12 main_call5_v14 main_call5_v4 main_v17 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_7 (constantI S_ 32 1#32),
    unary main_c_7 main_call6_v0 ((broadcastInDim S2080 ![] bcast_S_S2080) : (⟨S_, .i32⟩ : BufTy).Contents (Elt F) → (⟨S2080, .i32⟩ : BufTy).Contents (Elt F)),
    binary main_v15 main_call6_v0 main_call6_v1 (Host.divsi : (⟨S2080, .i32⟩ : BufTy).Contents (Elt F) → (⟨S2080, .i32⟩ : BufTy).Contents (Elt F) → (⟨S2080, .i32⟩ : BufTy).Contents (Elt F)),
    unary main_v15 main_call6_v2 (signi : (⟨S2080, .i32⟩ : BufTy).Contents (Elt F) → (⟨S2080, .i32⟩ : BufTy).Contents (Elt F)),
    unary main_c_7 main_call6_v3 (signi : (⟨S_, .i32⟩ : BufTy).Contents (Elt F) → (⟨S_, .i32⟩ : BufTy).Contents (Elt F)),
    unary main_call6_v3 main_call6_v4 ((broadcastInDim S2080 ![] bcast_S_S2080) : (⟨S_, .i32⟩ : BufTy).Contents (Elt F) → (⟨S2080, .i32⟩ : BufTy).Contents (Elt F)),
    binary main_call6_v2 main_call6_v4 main_call6_v5 ((cmpi .ne) : (⟨S2080, .i32⟩ : BufTy).Contents (Elt F) → (⟨S2080, .i32⟩ : BufTy).Contents (Elt F) → (⟨S2080, .i1⟩ : BufTy).Contents (Elt F)),
    unary main_c_7 main_call6_v6 ((broadcastInDim S2080 ![] bcast_S_S2080) : (⟨S_, .i32⟩ : BufTy).Contents (Elt F) → (⟨S2080, .i32⟩ : BufTy).Contents (Elt F)),
    binary main_v15 main_call6_v6 main_call6_v7 (Host.remsi : (⟨S2080, .i32⟩ : BufTy).Contents (Elt F) → (⟨S2080, .i32⟩ : BufTy).Contents (Elt F) → (⟨S2080, .i32⟩ : BufTy).Contents (Elt F)),
    nullary main_call6_c ((constantI S_ 32 0#32) : (⟨S_, .i32⟩ : BufTy).Contents (Elt F)),
    unary main_call6_c main_call6_v8 ((broadcastInDim S2080 ![] bcast_S_S2080) : (⟨S_, .i32⟩ : BufTy).Contents (Elt F) → (⟨S2080, .i32⟩ : BufTy).Contents (Elt F)),
    binary main_call6_v7 main_call6_v8 main_call6_v9 ((cmpi .ne) : (⟨S2080, .i32⟩ : BufTy).Contents (Elt F) → (⟨S2080, .i32⟩ : BufTy).Contents (Elt F) → (⟨S2080, .i1⟩ : BufTy).Contents (Elt F)),
    binary main_call6_v5 main_call6_v9 main_call6_v10 (andi : (⟨S2080, .i1⟩ : BufTy).Contents (Elt F) → (⟨S2080, .i1⟩ : BufTy).Contents (Elt F) → (⟨S2080, .i1⟩ : BufTy).Contents (Elt F)),
    nullary main_call6_c_0 ((constantI S_ 32 1#32) : (⟨S_, .i32⟩ : BufTy).Contents (Elt F)),
    unary main_call6_c_0 main_call6_v11 ((broadcastInDim S2080 ![] bcast_S_S2080) : (⟨S_, .i32⟩ : BufTy).Contents (Elt F) → (⟨S2080, .i32⟩ : BufTy).Contents (Elt F)),
    binary main_call6_v1 main_call6_v11 main_call6_v12 (subi : (⟨S2080, .i32⟩ : BufTy).Contents (Elt F) → (⟨S2080, .i32⟩ : BufTy).Contents (Elt F) → (⟨S2080, .i32⟩ : BufTy).Contents (Elt F)),
    ternary main_call6_v10 main_call6_v12 main_call6_v1 main_v18 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_8 (constantI S_ 32 64#32),
    unary main_c_8 main_call7_v0 (id : (⟨S_, .i32⟩ : BufTy).Contents (Elt F) → (⟨S_, .i32⟩ : BufTy).Contents (Elt F)),
    nullary main_call7_c ((constantI S_ 32 0#32) : (⟨S_, .i32⟩ : BufTy).Contents (Elt F)),
    binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    nullary main_call7_c_0 ((constantI S_ 32 1#32) : (⟨S_, .i32⟩ : BufTy).Contents (Elt F)),
    ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call7_v2 main_call7_v3 ((broadcastInDim S2080 ![] bcast_S_S2080) : (⟨S_, .i32⟩ : BufTy).Contents (Elt F) → (⟨S2080, .i32⟩ : BufTy).Contents (Elt F)),
    binary main_v18 main_call7_v3 main_call7_v4 (Host.remsi : (⟨S2080, .i32⟩ : BufTy).Contents (Elt F) → (⟨S2080, .i32⟩ : BufTy).Contents (Elt F) → (⟨S2080, .i32⟩ : BufTy).Contents (Elt F)),
    nullary main_call7_c_1 ((constantI S_ 32 0#32) : (⟨S_, .i32⟩ : BufTy).Contents (Elt F)),
    unary main_call7_c_1 main_call7_v5 ((broadcastInDim S2080 ![] bcast_S_S2080) : (⟨S_, .i32⟩ : BufTy).Contents (Elt F) → (⟨S2080, .i32⟩ : BufTy).Contents (Elt F)),
    binary main_call7_v4 main_call7_v5 main_call7_v6 ((cmpi .ne) : (⟨S2080, .i32⟩ : BufTy).Contents (Elt F) → (⟨S2080, .i32⟩ : BufTy).Contents (Elt F) → (⟨S2080, .i1⟩ : BufTy).Contents (Elt F)),
    nullary main_call7_c_2 ((constantI S_ 32 0#32) : (⟨S_, .i32⟩ : BufTy).Contents (Elt F)),
    unary main_call7_c_2 main_call7_v7 ((broadcastInDim S2080 ![] bcast_S_S2080) : (⟨S_, .i32⟩ : BufTy).Contents (Elt F) → (⟨S2080, .i32⟩ : BufTy).Contents (Elt F)),
    binary main_call7_v4 main_call7_v7 main_call7_v8 ((cmpi .slt) : (⟨S2080, .i32⟩ : BufTy).Contents (Elt F) → (⟨S2080, .i32⟩ : BufTy).Contents (Elt F) → (⟨S2080, .i1⟩ : BufTy).Contents (Elt F)),
    nullary main_call7_c_3 ((constantI S_ 32 0#32) : (⟨S_, .i32⟩ : BufTy).Contents (Elt F)),
    binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    unary main_call7_v9 main_call7_v10 ((broadcastInDim S2080 ![] bcast_S_S2080) : (⟨S_, .i1⟩ : BufTy).Contents (Elt F) → (⟨S2080, .i1⟩ : BufTy).Contents (Elt F)),
    binary main_call7_v8 main_call7_v10 main_call7_v11 ((cmpi .ne) : (⟨S2080, .i1⟩ : BufTy).Contents (Elt F) → (⟨S2080, .i1⟩ : BufTy).Contents (Elt F) → (⟨S2080, .i1⟩ : BufTy).Contents (Elt F)),
    binary main_call7_v11 main_call7_v6 main_call7_v12 (andi : (⟨S2080, .i1⟩ : BufTy).Contents (Elt F) → (⟨S2080, .i1⟩ : BufTy).Contents (Elt F) → (⟨S2080, .i1⟩ : BufTy).Contents (Elt F)),
    unary main_call7_v2 main_call7_v13 ((broadcastInDim S2080 ![] bcast_S_S2080) : (⟨S_, .i32⟩ : BufTy).Contents (Elt F) → (⟨S2080, .i32⟩ : BufTy).Contents (Elt F)),
    binary main_call7_v4 main_call7_v13 main_call7_v14 (addi : (⟨S2080, .i32⟩ : BufTy).Contents (Elt F) → (⟨S2080, .i32⟩ : BufTy).Contents (Elt F) → (⟨S2080, .i32⟩ : BufTy).Contents (Elt F)),
    ternary main_call7_v12 main_call7_v14 main_call7_v4 main_v19 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_9 (constantI S_ 32 0#32),
    unary main_c_9 main_v20 (broadcastInDim S2080 ![] bcast_S_S2080 : (⟨S_, .i32⟩ : BufTy).Contents (Elt F) → (⟨S2080, .i32⟩ : BufTy).Contents (Elt F)),
    binary main_v17 main_v20 main_v21 (cmpi .slt : (⟨S2080, .i32⟩ : BufTy).Contents (Elt F) → (⟨S2080, .i32⟩ : BufTy).Contents (Elt F) → (⟨S2080, .i1⟩ : BufTy).Contents (Elt F)),
    nullary main_c_10 (constantI S_ 32 64#32),
    unary main_c_10 main_v22 (broadcastInDim S2080 ![] bcast_S_S2080 : (⟨S_, .i32⟩ : BufTy).Contents (Elt F) → (⟨S2080, .i32⟩ : BufTy).Contents (Elt F)),
    binary main_v17 main_v22 main_v23 (addi : (⟨S2080, .i32⟩ : BufTy).Contents (Elt F) → (⟨S2080, .i32⟩ : BufTy).Contents (Elt F) → (⟨S2080, .i32⟩ : BufTy).Contents (Elt F)),
    ternary main_v21 main_v23 main_v17 main_v24 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v24 main_v25 (broadcastInDim S2080x1 ![0] bcast_S2080_S2080x1_0 : (⟨S2080, .i32⟩ : BufTy).Contents (Elt F) → (⟨S2080x1, .i32⟩ : BufTy).Contents (Elt F)),
    binary main_arg2 main_v25 main_v26 ((fun x i => Host.gather gather_S64x65536_S2080x1_S2080x65536_1_0_n_n_0_1_165536 x i) : (⟨S64x65536, .f32⟩ : BufTy).Contents (Elt F) → (⟨S2080x1, .i32⟩ : BufTy).Contents (Elt F) → (⟨S2080x65536, .f32⟩ : BufTy).Contents (Elt F)),
    nullary main_c_11 (constantI S_ 32 0#32),
    unary main_c_11 main_v27 (broadcastInDim S2080 ![] bcast_S_S2080 : (⟨S_, .i32⟩ : BufTy).Contents (Elt F) → (⟨S2080, .i32⟩ : BufTy).Contents (Elt F)),
    binary main_v19 main_v27 main_v28 (cmpi .slt : (⟨S2080, .i32⟩ : BufTy).Contents (Elt F) → (⟨S2080, .i32⟩ : BufTy).Contents (Elt F) → (⟨S2080, .i1⟩ : BufTy).Contents (Elt F)),
    nullary main_c_12 (constantI S_ 32 64#32),
    unary main_c_12 main_v29 (broadcastInDim S2080 ![] bcast_S_S2080 : (⟨S_, .i32⟩ : BufTy).Contents (Elt F) → (⟨S2080, .i32⟩ : BufTy).Contents (Elt F)),
    binary main_v19 main_v29 main_v30 (addi : (⟨S2080, .i32⟩ : BufTy).Contents (Elt F) → (⟨S2080, .i32⟩ : BufTy).Contents (Elt F) → (⟨S2080, .i32⟩ : BufTy).Contents (Elt F)),
    ternary main_v28 main_v30 main_v19 main_v31 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v31 main_v32 (broadcastInDim S2080x1 ![0] bcast_S2080_S2080x1_0 : (⟨S2080, .i32⟩ : BufTy).Contents (Elt F) → (⟨S2080x1, .i32⟩ : BufTy).Contents (Elt F)),
    binary main_arg2 main_v32 main_v33 ((fun x i => Host.gather gather_S64x65536_S2080x1_S2080x65536_1_0_n_n_0_1_165536 x i) : (⟨S64x65536, .f32⟩ : BufTy).Contents (Elt F) → (⟨S2080x1, .i32⟩ : BufTy).Contents (Elt F) → (⟨S2080x65536, .f32⟩ : BufTy).Contents (Elt F)),
    binary main_v26 main_v33 main_v34 (mulf : (⟨S2080x65536, .f32⟩ : BufTy).Contents (Elt F) → (⟨S2080x65536, .f32⟩ : BufTy).Contents (Elt F) → (⟨S2080x65536, .f32⟩ : BufTy).Contents (Elt F)),
    unary main_arg3 main_v35 ((transpose S32x2080 [1, 0] · transposes_S2080x32_S32x2080_1_0) : (⟨S2080x32, .f32⟩ : BufTy).Contents (Elt F) → (⟨S32x2080, .f32⟩ : BufTy).Contents (Elt F)),
    binary main_v35 main_v34 main_v36 ((fun l r => Host.dotGeneral dot_S32x2080_S2080x65536_S32x65536_1_0_0_1_n_n none l r) : (⟨S32x2080, .f32⟩ : BufTy).Contents (Elt F) → (⟨S2080x65536, .f32⟩ : BufTy).Contents (Elt F) → (⟨S32x65536, .f32⟩ : BufTy).Contents (Elt F)),
    binary main_arg2 main_v36 main_v37 ((fun a b => concatenate S96x65536 0 [⟨S64x65536, a⟩, ⟨S32x65536, b⟩] concatenates_S64x65536_S32x65536_S96x65536_d0) : (⟨S64x65536, .f32⟩ : BufTy).Contents (Elt F) → (⟨S32x65536, .f32⟩ : BufTy).Contents (Elt F) → (⟨S96x65536, .f32⟩ : BufTy).Contents (Elt F)),
    binary main_arg1 main_v37 main_v38 ((fun l r => Host.dotGeneral dot_S2048x96_S96x65536_S2048x65536_1_0_0_1_n_n none l r) : (⟨S2048x96, .f32⟩ : BufTy).Contents (Elt F) → (⟨S96x65536, .f32⟩ : BufTy).Contents (Elt F) → (⟨S2048x65536, .f32⟩ : BufTy).Contents (Elt F)),
    unary main_arg0 main_v39 (broadcastInDim S2048x65536 ![0, 1] bcast_S2048x1_S2048x65536_0_1 : (⟨S2048x1, .f32⟩ : BufTy).Contents (Elt F) → (⟨S2048x65536, .f32⟩ : BufTy).Contents (Elt F)),
    binary main_v39 main_v38 main_v40 (addf : (⟨S2048x65536, .f32⟩ : BufTy).Contents (Elt F) → (⟨S2048x65536, .f32⟩ : BufTy).Contents (Elt F) → (⟨S2048x65536, .f32⟩ : BufTy).Contents (Elt F)) ]

-- a window sum's body is a fold over the window: kept folded while the two forms of an operation are compared
attribute [local irreducible] Host.reduceWindow Host.scatter Host.gather Host.divsi Host.remsi in
set_option maxHeartbeats 4000000 in
/-- The two lists are equal operation by operation: a typed reference built from a literal buffer carries that
    buffer, and the transport of contents along its type equation is the identity. -/
theorem ops_eq : (opsT : List (HloOp τ sig (Elt F))) = ops := by
  unfold opsT ops
  repeat (refine congrArg₂ List.cons rfl ?_)
  rfl

theorem main_eq (c : Dev nD) : main (F := F) c = seq ops := by
  rw [main_eqT c, ops_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., binary_bufs_sub .., binary_bufs_sub .., unary_bufs_sub .., binary_bufs_sub ..⟩

end Cert.ReferenceIdeal.RefRun

end
-- ==== Proof.RefRun.lean ====
/-
  The reference program's run: on every device, from any memory with zero counters, every weakly
  fair execution of @main terminates with the result buffer at the composed value of the
  argument arrays' launch contents (the last of the staged values) and the arguments unchanged.
  The fold over the 142 operations is read in three windows: the integer chain (it ends at the two
  index vectors' sources, closed terms); the gathers, their product and the first matrix product;
  the concatenation, the second matrix product and the sum.
-/
import proofs.«166319_j26499948216761_1_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- The first 124 operations: the integer chain up to the row index vector. -/
abbrev opsA {F : FTy → Type} [FloatOps F] : List (HloOp τ sig (Elt F)) :=
  [ nullary main_cst (constant S_ .f32 0x3F800000#32),
    unary main_cst main_v0 (broadcastInDim S64x64 ![] bcast_S_S64x64 : (⟨S_, .f32⟩ : BufTy).Contents (Elt F) → (⟨S64x64, .f32⟩ : BufTy).Contents (Elt F)),
    nullary main_call0_v0 ((iotaInDim S64x64 32 0) : (⟨S64x64, .i32⟩ : BufTy).Contents (Elt F)),
    nullary main_call0_c ((constantI S_ 32 4294967295#32) : (⟨S_, .i32⟩ : BufTy).Contents (Elt F)),
    unary main_call0_c main_call0_v1 ((broadcastInDim S64x64 ![] bcast_S_S64x64) : (⟨S_, .i32⟩ : BufTy).Contents (Elt F) → (⟨S64x64, .i32⟩ : BufTy).Contents (Elt F)),
    binary main_call0_v0 main_call0_v1 main_call0_v2 (addi : (⟨S64x64, .i32⟩ : BufTy).Contents (Elt F) → (⟨S64x64, .i32⟩ : BufTy).Contents (Elt F) → (⟨S64x64, .i32⟩ : BufTy).Contents (Elt F)),
    nullary main_call0_v3 ((iotaInDim S64x64 32 1) : (⟨S64x64, .i32⟩ : BufTy).Contents (Elt F)),
    binary main_call0_v2 main_call0_v3 main_call0_v4 ((cmpi .sge) : (⟨S64x64, .i32⟩ : BufTy).Contents (Elt F) → (⟨S64x64, .i32⟩ : BufTy).Contents (Elt F) → (⟨S64x64, .i1⟩ : BufTy).Contents (Elt F)),
    nullary main_call0_cst ((constant S_ .f32 0x00000000#32) : (⟨S_, .f32⟩ : BufTy).Contents (Elt F)),
    unary main_call0_cst main_call0_v5 ((broadcastInDim S64x64 ![] bcast_S_S64x64) : (⟨S_, .f32⟩ : BufTy).Contents (Elt F) → (⟨S64x64, .f32⟩ : BufTy).Contents (Elt F)),
    ternary main_call0_v4 main_call0_v5 main_v0 main_v1 (select : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
    nullary main_cst_0 (constant S_ .f32 0x00000000#32),
    unary main_cst_0 main_v2 (broadcastInDim S64x64 ![] bcast_S_S64x64 : (⟨S_, .f32⟩ : BufTy).Contents (Elt F) → (⟨S64x64, .f32⟩ : BufTy).Contents (Elt F)),
    binary main_v1 main_v2 main_v3 (cmpf .une : (⟨S64x64, .f32⟩ : BufTy).Contents (Elt F) → (⟨S64x64, .f32⟩ : BufTy).Contents (Elt F) → (⟨S64x64, .i1⟩ : BufTy).Contents (Elt F)),
    reshape main_v3 main_call1_v0 rfl shapeCasts_S64x64_S4096,
    unary main_call1_v0 main_call1_v1 ((extui 32 · natLt_1_32) : (⟨S4096, .i1⟩ : BufTy).Contents (Elt F) → (⟨S4096, .i32⟩ : BufTy).Contents (Elt F)),
    nullary main_call1_call0_c ((constantI S_ 32 0#32) : (⟨S_, .i32⟩ : BufTy).Contents (Elt F)),
    unary main_call1_call0_c main_call1_call0_v0 ((broadcastInDim S_ ![] bcast_S_S_) : (⟨S_, .i32⟩ : BufTy).Contents (Elt F) → (⟨S_, .i32⟩ : BufTy).Contents (Elt F)),
    binary main_call1_v1 main_call1_call0_v0 main_v4 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F)),
    nullary main_c (constantI S_ 32 0#32),
    unary main_c main_v5 (broadcastInDim S2080 ![] bcast_S_S2080 : (⟨S_, .i32⟩ : BufTy).Contents (Elt F) → (⟨S2080, .i32⟩ : BufTy).Contents (Elt F)),
    nullary main_c_1 (constantI S_ 32 0#32),
    unary main_c_1 main_call2_v0 (id : (⟨S_, .i32⟩ : BufTy).Contents (Elt F) → (⟨S_, .i32⟩ : BufTy).Contents (Elt F)),
    unary main_call2_v0 main_call2_v1 ((broadcastInDim S4096 ![] bcast_S_S4096) : (⟨S_, .i32⟩ : BufTy).Contents (Elt F) → (⟨S4096, .i32⟩ : BufTy).Contents (Elt F)),
    binary main_call2_v1 main_v4 main_v6 (maxsi : (⟨S4096, .i32⟩ : BufTy).Contents (Elt F) → (⟨S4096, .i32⟩ : BufTy).Contents (Elt F) → (⟨S4096, .i32⟩ : BufTy).Contents (Elt F)),
    nullary main_c_2 (constantI S_ 32 0#32),
    unary main_c_2 main_v7 (broadcastInDim S4096 ![] bcast_S_S4096 : (⟨S_, .i32⟩ : BufTy).Contents (Elt F) → (⟨S4096, .i32⟩ : BufTy).Contents (Elt F)),
    binary main_v6 main_v7 main_v8 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2080#32),
    unary main_c_3 main_v9 (broadcastInDim S4096 ![] bcast_S_S4096 : (⟨S_, .i32⟩ : BufTy).Contents (Elt F) → (⟨S4096, .i32⟩ : BufTy).Contents (Elt F)),
    binary main_v6 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v13 (broadcastInDim S4096 ![] bcast_S_S4096 : (⟨S_, .i32⟩ : BufTy).Contents (Elt F) → (⟨S4096, .i32⟩ : BufTy).Contents (Elt F)),
    ternary main_v5 main_v12 main_v13 main_v14 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    nullary main_call3_call0_c ((constantI S_ 32 0#32) : (⟨S_, .i32⟩ : BufTy).Contents (Elt F)),
    unary main_call3_call0_c main_call3_call0_v0 ((broadcastInDim S_ ![] bcast_S_S_) : (⟨S_, .i32⟩ : BufTy).Contents (Elt F) → (⟨S_, .i32⟩ : BufTy).Contents (Elt F)),
    binary main_v14 main_call3_call0_v0 main_v15 ((fun x v => Host.reduceWindow IntOp.addi ![2080] ![1] ![2079] ![0] x v reduceWindows_S2080_S2080_w2080s1p2079_0 h_S_) : (⟨S2080, .i32⟩ : BufTy).Contents (Elt F) → (⟨S_, .i32⟩ : BufTy).Contents (Elt F) → (⟨S2080, .i32⟩ : BufTy).Contents (Elt F)),
    nullary main_c_5 (constantI S_ 32 64#32),
    unary main_c_5 main_call4_v0 ((broadcastInDim S2080 ![] bcast_S_S2080) : (⟨S_, .i32⟩ : BufTy).Contents (Elt F) → (⟨S2080, .i32⟩ : BufTy).Contents (Elt F)),
    binary main_v15 main_call4_v0 main_call4_v1 (Host.divsi : (⟨S2080, .i32⟩ : BufTy).Contents (Elt F) → (⟨S2080, .i32⟩ : BufTy).Contents (Elt F) → (⟨S2080, .i32⟩ : BufTy).Contents (Elt F)),
    unary main_v15 main_call4_v2 (signi : (⟨S2080, .i32⟩ : BufTy).Contents (Elt F) → (⟨S2080, .i32⟩ : BufTy).Contents (Elt F)),
    unary main_c_5 main_call4_v3 (signi : (⟨S_, .i32⟩ : BufTy).Contents (Elt F) → (⟨S_, .i32⟩ : BufTy).Contents (Elt F)),
    unary main_call4_v3 main_call4_v4 ((broadcastInDim S2080 ![] bcast_S_S2080) : (⟨S_, .i32⟩ : BufTy).Contents (Elt F) → (⟨S2080, .i32⟩ : BufTy).Contents (Elt F)),
    binary main_call4_v2 main_call4_v4 main_call4_v5 ((cmpi .ne) : (⟨S2080, .i32⟩ : BufTy).Contents (Elt F) → (⟨S2080, .i32⟩ : BufTy).Contents (Elt F) → (⟨S2080, .i1⟩ : BufTy).Contents (Elt F)),
    unary main_c_5 main_call4_v6 ((broadcastInDim S2080 ![] bcast_S_S2080) : (⟨S_, .i32⟩ : BufTy).Contents (Elt F) → (⟨S2080, .i32⟩ : BufTy).Contents (Elt F)),
    binary main_v15 main_call4_v6 main_call4_v7 (Host.remsi : (⟨S2080, .i32⟩ : BufTy).Contents (Elt F) → (⟨S2080, .i32⟩ : BufTy).Contents (Elt F) → (⟨S2080, .i32⟩ : BufTy).Contents (Elt F)),
    nullary main_call4_c ((constantI S_ 32 0#32) : (⟨S_, .i32⟩ : BufTy).Contents (Elt F)),
    unary main_call4_c main_call4_v8 ((broadcastInDim S2080 ![] bcast_S_S2080) : (⟨S_, .i32⟩ : BufTy).Contents (Elt F) → (⟨S2080, .i32⟩ : BufTy).Contents (Elt F)),
    binary main_call4_v7 main_call4_v8 main_call4_v9 ((cmpi .ne) : (⟨S2080, .i32⟩ : BufTy).Contents (Elt F) → (⟨S2080, .i32⟩ : BufTy).Contents (Elt F) → (⟨S2080, .i1⟩ : BufTy).Contents (Elt F)),
    binary main_call4_v5 main_call4_v9 main_call4_v10 (andi : (⟨S2080, .i1⟩ : BufTy).Contents (Elt F) → (⟨S2080, .i1⟩ : BufTy).Contents (Elt F) → (⟨S2080, .i1⟩ : BufTy).Contents (Elt F)),
    nullary main_call4_c_0 ((constantI S_ 32 1#32) : (⟨S_, .i32⟩ : BufTy).Contents (Elt F)),
    unary main_call4_c_0 main_call4_v11 ((broadcastInDim S2080 ![] bcast_S_S2080) : (⟨S_, .i32⟩ : BufTy).Contents (Elt F) → (⟨S2080, .i32⟩ : BufTy).Contents (Elt F)),
    binary main_call4_v1 main_call4_v11 main_call4_v12 (subi : (⟨S2080, .i32⟩ : BufTy).Contents (Elt F) → (⟨S2080, .i32⟩ : BufTy).Contents (Elt F) → (⟨S2080, .i32⟩ : BufTy).Contents (Elt F)),
    ternary main_call4_v10 main_call4_v12 main_call4_v1 main_v16 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_6 (constantI S_ 32 64#32),
    unary main_c_6 main_call5_v0 (id : (⟨S_, .i32⟩ : BufTy).Contents (Elt F) → (⟨S_, .i32⟩ : BufTy).Contents (Elt F)),
    nullary main_call5_c ((constantI S_ 32 0#32) : (⟨S_, .i32⟩ : BufTy).Contents (Elt F)),
    binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    nullary main_call5_c_0 ((constantI S_ 32 1#32) : (⟨S_, .i32⟩ : BufTy).Contents (Elt F)),
    ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call5_v2 main_call5_v3 ((broadcastInDim S2080 ![] bcast_S_S2080) : (⟨S_, .i32⟩ : BufTy).Contents (Elt F) → (⟨S2080, .i32⟩ : BufTy).Contents (Elt F)),
    binary main_v16 main_call5_v3 main_call5_v4 (Host.remsi : (⟨S2080, .i32⟩ : BufTy).Contents (Elt F) → (⟨S2080, .i32⟩ : BufTy).Contents (Elt F) → (⟨S2080, .i32⟩ : BufTy).Contents (Elt F)),
    nullary main_call5_c_1 ((constantI S_ 32 0#32) : (⟨S_, .i32⟩ : BufTy).Contents (Elt F)),
    unary main_call5_c_1 main_call5_v5 ((broadcastInDim S2080 ![] bcast_S_S2080) : (⟨S_, .i32⟩ : BufTy).Contents (Elt F) → (⟨S2080, .i32⟩ : BufTy).Contents (Elt F)),
    binary main_call5_v4 main_call5_v5 main_call5_v6 ((cmpi .ne) : (⟨S2080, .i32⟩ : BufTy).Contents (Elt F) → (⟨S2080, .i32⟩ : BufTy).Contents (Elt F) → (⟨S2080, .i1⟩ : BufTy).Contents (Elt F)),
    nullary main_call5_c_2 ((constantI S_ 32 0#32) : (⟨S_, .i32⟩ : BufTy).Contents (Elt F)),
    unary main_call5_c_2 main_call5_v7 ((broadcastInDim S2080 ![] bcast_S_S2080) : (⟨S_, .i32⟩ : BufTy).Contents (Elt F) → (⟨S2080, .i32⟩ : BufTy).Contents (Elt F)),
    binary main_call5_v4 main_call5_v7 main_call5_v8 ((cmpi .slt) : (⟨S2080, .i32⟩ : BufTy).Contents (Elt F) → (⟨S2080, .i32⟩ : BufTy).Contents (Elt F) → (⟨S2080, .i1⟩ : BufTy).Contents (Elt F)),
    nullary main_call5_c_3 ((constantI S_ 32 0#32) : (⟨S_, .i32⟩ : BufTy).Contents (Elt F)),
    binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    unary main_call5_v9 main_call5_v10 ((broadcastInDim S2080 ![] bcast_S_S2080) : (⟨S_, .i1⟩ : BufTy).Contents (Elt F) → (⟨S2080, .i1⟩ : BufTy).Contents (Elt F)),
    binary main_call5_v8 main_call5_v10 main_call5_v11 ((cmpi .ne) : (⟨S2080, .i1⟩ : BufTy).Contents (Elt F) → (⟨S2080, .i1⟩ : BufTy).Contents (Elt F) → (⟨S2080, .i1⟩ : BufTy).Contents (Elt F)),
    binary main_call5_v11 main_call5_v6 main_call5_v12 (andi : (⟨S2080, .i1⟩ : BufTy).Contents (Elt F) → (⟨S2080, .i1⟩ : BufTy).Contents (Elt F) → (⟨S2080, .i1⟩ : BufTy).Contents (Elt F)),
    unary main_call5_v2 main_call5_v13 ((broadcastInDim S2080 ![] bcast_S_S2080) : (⟨S_, .i32⟩ : BufTy).Contents (Elt F) → (⟨S2080, .i32⟩ : BufTy).Contents (Elt F)),
    binary main_call5_v4 main_call5_v13 main_call5_v14 (addi : (⟨S2080, .i32⟩ : BufTy).Contents (Elt F) → (⟨S2080, .i32⟩ : BufTy).Contents (Elt F) → (⟨S2080, .i32⟩ : BufTy).Contents (Elt F)),
    ternary main_call5_v12 main_call5_v14 main_call5_v4 main_v17 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_7 (constantI S_ 32 1#32),
    unary main_c_7 main_call6_v0 ((broadcastInDim S2080 ![] bcast_S_S2080) : (⟨S_, .i32⟩ : BufTy).Contents (Elt F) → (⟨S2080, .i32⟩ : BufTy).Contents (Elt F)),
    binary main_v15 main_call6_v0 main_call6_v1 (Host.divsi : (⟨S2080, .i32⟩ : BufTy).Contents (Elt F) → (⟨S2080, .i32⟩ : BufTy).Contents (Elt F) → (⟨S2080, .i32⟩ : BufTy).Contents (Elt F)),
    unary main_v15 main_call6_v2 (signi : (⟨S2080, .i32⟩ : BufTy).Contents (Elt F) → (⟨S2080, .i32⟩ : BufTy).Contents (Elt F)),
    unary main_c_7 main_call6_v3 (signi : (⟨S_, .i32⟩ : BufTy).Contents (Elt F) → (⟨S_, .i32⟩ : BufTy).Contents (Elt F)),
    unary main_call6_v3 main_call6_v4 ((broadcastInDim S2080 ![] bcast_S_S2080) : (⟨S_, .i32⟩ : BufTy).Contents (Elt F) → (⟨S2080, .i32⟩ : BufTy).Contents (Elt F)),
    binary main_call6_v2 main_call6_v4 main_call6_v5 ((cmpi .ne) : (⟨S2080, .i32⟩ : BufTy).Contents (Elt F) → (⟨S2080, .i32⟩ : BufTy).Contents (Elt F) → (⟨S2080, .i1⟩ : BufTy).Contents (Elt F)),
    unary main_c_7 main_call6_v6 ((broadcastInDim S2080 ![] bcast_S_S2080) : (⟨S_, .i32⟩ : BufTy).Contents (Elt F) → (⟨S2080, .i32⟩ : BufTy).Contents (Elt F)),
    binary main_v15 main_call6_v6 main_call6_v7 (Host.remsi : (⟨S2080, .i32⟩ : BufTy).Contents (Elt F) → (⟨S2080, .i32⟩ : BufTy).Contents (Elt F) → (⟨S2080, .i32⟩ : BufTy).Contents (Elt F)),
    nullary main_call6_c ((constantI S_ 32 0#32) : (⟨S_, .i32⟩ : BufTy).Contents (Elt F)),
    unary main_call6_c main_call6_v8 ((broadcastInDim S2080 ![] bcast_S_S2080) : (⟨S_, .i32⟩ : BufTy).Contents (Elt F) → (⟨S2080, .i32⟩ : BufTy).Contents (Elt F)),
    binary main_call6_v7 main_call6_v8 main_call6_v9 ((cmpi .ne) : (⟨S2080, .i32⟩ : BufTy).Contents (Elt F) → (⟨S2080, .i32⟩ : BufTy).Contents (Elt F) → (⟨S2080, .i1⟩ : BufTy).Contents (Elt F)),
    binary main_call6_v5 main_call6_v9 main_call6_v10 (andi : (⟨S2080, .i1⟩ : BufTy).Contents (Elt F) → (⟨S2080, .i1⟩ : BufTy).Contents (Elt F) → (⟨S2080, .i1⟩ : BufTy).Contents (Elt F)),
    nullary main_call6_c_0 ((constantI S_ 32 1#32) : (⟨S_, .i32⟩ : BufTy).Contents (Elt F)),
    unary main_call6_c_0 main_call6_v11 ((broadcastInDim S2080 ![] bcast_S_S2080) : (⟨S_, .i32⟩ : BufTy).Contents (Elt F) → (⟨S2080, .i32⟩ : BufTy).Contents (Elt F)),
    binary main_call6_v1 main_call6_v11 main_call6_v12 (subi : (⟨S2080, .i32⟩ : BufTy).Contents (Elt F) → (⟨S2080, .i32⟩ : BufTy).Contents (Elt F) → (⟨S2080, .i32⟩ : BufTy).Contents (Elt F)),
    ternary main_call6_v10 main_call6_v12 main_call6_v1 main_v18 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_8 (constantI S_ 32 64#32),
    unary main_c_8 main_call7_v0 (id : (⟨S_, .i32⟩ : BufTy).Contents (Elt F) → (⟨S_, .i32⟩ : BufTy).Contents (Elt F)),
    nullary main_call7_c ((constantI S_ 32 0#32) : (⟨S_, .i32⟩ : BufTy).Contents (Elt F)),
    binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    nullary main_call7_c_0 ((constantI S_ 32 1#32) : (⟨S_, .i32⟩ : BufTy).Contents (Elt F)),
    ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call7_v2 main_call7_v3 ((broadcastInDim S2080 ![] bcast_S_S2080) : (⟨S_, .i32⟩ : BufTy).Contents (Elt F) → (⟨S2080, .i32⟩ : BufTy).Contents (Elt F)),
    binary main_v18 main_call7_v3 main_call7_v4 (Host.remsi : (⟨S2080, .i32⟩ : BufTy).Contents (Elt F) → (⟨S2080, .i32⟩ : BufTy).Contents (Elt F) → (⟨S2080, .i32⟩ : BufTy).Contents (Elt F)),
    nullary main_call7_c_1 ((constantI S_ 32 0#32) : (⟨S_, .i32⟩ : BufTy).Contents (Elt F)),
    unary main_call7_c_1 main_call7_v5 ((broadcastInDim S2080 ![] bcast_S_S2080) : (⟨S_, .i32⟩ : BufTy).Contents (Elt F) → (⟨S2080, .i32⟩ : BufTy).Contents (Elt F)),
    binary main_call7_v4 main_call7_v5 main_call7_v6 ((cmpi .ne) : (⟨S2080, .i32⟩ : BufTy).Contents (Elt F) → (⟨S2080, .i32⟩ : BufTy).Contents (Elt F) → (⟨S2080, .i1⟩ : BufTy).Contents (Elt F)),
    nullary main_call7_c_2 ((constantI S_ 32 0#32) : (⟨S_, .i32⟩ : BufTy).Contents (Elt F)),
    unary main_call7_c_2 main_call7_v7 ((broadcastInDim S2080 ![] bcast_S_S2080) : (⟨S_, .i32⟩ : BufTy).Contents (Elt F) → (⟨S2080, .i32⟩ : BufTy).Contents (Elt F)),
    binary main_call7_v4 main_call7_v7 main_call7_v8 ((cmpi .slt) : (⟨S2080, .i32⟩ : BufTy).Contents (Elt F) → (⟨S2080, .i32⟩ : BufTy).Contents (Elt F) → (⟨S2080, .i1⟩ : BufTy).Contents (Elt F)),
    nullary main_call7_c_3 ((constantI S_ 32 0#32) : (⟨S_, .i32⟩ : BufTy).Contents (Elt F)),
    binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    unary main_call7_v9 main_call7_v10 ((broadcastInDim S2080 ![] bcast_S_S2080) : (⟨S_, .i1⟩ : BufTy).Contents (Elt F) → (⟨S2080, .i1⟩ : BufTy).Contents (Elt F)),
    binary main_call7_v8 main_call7_v10 main_call7_v11 ((cmpi .ne) : (⟨S2080, .i1⟩ : BufTy).Contents (Elt F) → (⟨S2080, .i1⟩ : BufTy).Contents (Elt F) → (⟨S2080, .i1⟩ : BufTy).Contents (Elt F)),
    binary main_call7_v11 main_call7_v6 main_call7_v12 (andi : (⟨S2080, .i1⟩ : BufTy).Contents (Elt F) → (⟨S2080, .i1⟩ : BufTy).Contents (Elt F) → (⟨S2080, .i1⟩ : BufTy).Contents (Elt F)),
    unary main_call7_v2 main_call7_v13 ((broadcastInDim S2080 ![] bcast_S_S2080) : (⟨S_, .i32⟩ : BufTy).Contents (Elt F) → (⟨S2080, .i32⟩ : BufTy).Contents (Elt F)),
    binary main_call7_v4 main_call7_v13 main_call7_v14 (addi : (⟨S2080, .i32⟩ : BufTy).Contents (Elt F) → (⟨S2080, .i32⟩ : BufTy).Contents (Elt F) → (⟨S2080, .i32⟩ : BufTy).Contents (Elt F)),
    ternary main_call7_v12 main_call7_v14 main_call7_v4 main_v19 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    nullary main_c_9 (constantI S_ 32 0#32),
    unary main_c_9 main_v20 (broadcastInDim S2080 ![] bcast_S_S2080 : (⟨S_, .i32⟩ : BufTy).Contents (Elt F) → (⟨S2080, .i32⟩ : BufTy).Contents (Elt F)),
    binary main_v17 main_v20 main_v21 (cmpi .slt : (⟨S2080, .i32⟩ : BufTy).Contents (Elt F) → (⟨S2080, .i32⟩ : BufTy).Contents (Elt F) → (⟨S2080, .i1⟩ : BufTy).Contents (Elt F)),
    nullary main_c_10 (constantI S_ 32 64#32),
    unary main_c_10 main_v22 (broadcastInDim S2080 ![] bcast_S_S2080 : (⟨S_, .i32⟩ : BufTy).Contents (Elt F) → (⟨S2080, .i32⟩ : BufTy).Contents (Elt F)),
    binary main_v17 main_v22 main_v23 (addi : (⟨S2080, .i32⟩ : BufTy).Contents (Elt F) → (⟨S2080, .i32⟩ : BufTy).Contents (Elt F) → (⟨S2080, .i32⟩ : BufTy).Contents (Elt F)),
    ternary main_v21 main_v23 main_v17 main_v24 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)) ]

/-- The next 14 operations: the column index vector's wrap, the two gathers, their product, the first matrix product. -/
abbrev opsB {F : FTy → Type} [FloatOps F] : List (HloOp τ sig (Elt F)) :=
  [ unary main_v24 main_v25 (broadcastInDim S2080x1 ![0] bcast_S2080_S2080x1_0 : (⟨S2080, .i32⟩ : BufTy).Contents (Elt F) → (⟨S2080x1, .i32⟩ : BufTy).Contents (Elt F)),
    binary main_arg2 main_v25 main_v26 ((fun x i => Host.gather gather_S64x65536_S2080x1_S2080x65536_1_0_n_n_0_1_165536 x i) : (⟨S64x65536, .f32⟩ : BufTy).Contents (Elt F) → (⟨S2080x1, .i32⟩ : BufTy).Contents (Elt F) → (⟨S2080x65536, .f32⟩ : BufTy).Contents (Elt F)),
    nullary main_c_11 (constantI S_ 32 0#32),
    unary main_c_11 main_v27 (broadcastInDim S2080 ![] bcast_S_S2080 : (⟨S_, .i32⟩ : BufTy).Contents (Elt F) → (⟨S2080, .i32⟩ : BufTy).Contents (Elt F)),
    binary main_v19 main_v27 main_v28 (cmpi .slt : (⟨S2080, .i32⟩ : BufTy).Contents (Elt F) → (⟨S2080, .i32⟩ : BufTy).Contents (Elt F) → (⟨S2080, .i1⟩ : BufTy).Contents (Elt F)),
    nullary main_c_12 (constantI S_ 32 64#32),
    unary main_c_12 main_v29 (broadcastInDim S2080 ![] bcast_S_S2080 : (⟨S_, .i32⟩ : BufTy).Contents (Elt F) → (⟨S2080, .i32⟩ : BufTy).Contents (Elt F)),
    binary main_v19 main_v29 main_v30 (addi : (⟨S2080, .i32⟩ : BufTy).Contents (Elt F) → (⟨S2080, .i32⟩ : BufTy).Contents (Elt F) → (⟨S2080, .i32⟩ : BufTy).Contents (Elt F)),
    ternary main_v28 main_v30 main_v19 main_v31 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    unary main_v31 main_v32 (broadcastInDim S2080x1 ![0] bcast_S2080_S2080x1_0 : (⟨S2080, .i32⟩ : BufTy).Contents (Elt F) → (⟨S2080x1, .i32⟩ : BufTy).Contents (Elt F)),
    binary main_arg2 main_v32 main_v33 ((fun x i => Host.gather gather_S64x65536_S2080x1_S2080x65536_1_0_n_n_0_1_165536 x i) : (⟨S64x65536, .f32⟩ : BufTy).Contents (Elt F) → (⟨S2080x1, .i32⟩ : BufTy).Contents (Elt F) → (⟨S2080x65536, .f32⟩ : BufTy).Contents (Elt F)),
    binary main_v26 main_v33 main_v34 (mulf : (⟨S2080x65536, .f32⟩ : BufTy).Contents (Elt F) → (⟨S2080x65536, .f32⟩ : BufTy).Contents (Elt F) → (⟨S2080x65536, .f32⟩ : BufTy).Contents (Elt F)),
    unary main_arg3 main_v35 ((transpose S32x2080 [1, 0] · transposes_S2080x32_S32x2080_1_0) : (⟨S2080x32, .f32⟩ : BufTy).Contents (Elt F) → (⟨S32x2080, .f32⟩ : BufTy).Contents (Elt F)),
    binary main_v35 main_v34 main_v36 ((fun l r => Host.dotGeneral dot_S32x2080_S2080x65536_S32x65536_1_0_0_1_n_n none l r) : (⟨S32x2080, .f32⟩ : BufTy).Contents (Elt F) → (⟨S2080x65536, .f32⟩ : BufTy).Contents (Elt F) → (⟨S32x65536, .f32⟩ : BufTy).Contents (Elt F)) ]

/-- The last 4 operations: the concatenation, the second matrix product, the broadcast and the sum. -/
abbrev opsC {F : FTy → Type} [FloatOps F] : List (HloOp τ sig (Elt F)) :=
  [ binary main_arg2 main_v36 main_v37 ((fun a b => concatenate S96x65536 0 [⟨S64x65536, a⟩, ⟨S32x65536, b⟩] concatenates_S64x65536_S32x65536_S96x65536_d0) : (⟨S64x65536, .f32⟩ : BufTy).Contents (Elt F) → (⟨S32x65536, .f32⟩ : BufTy).Contents (Elt F) → (⟨S96x65536, .f32⟩ : BufTy).Contents (Elt F)),
    binary main_arg1 main_v37 main_v38 ((fun l r => Host.dotGeneral dot_S2048x96_S96x65536_S2048x65536_1_0_0_1_n_n none l r) : (⟨S2048x96, .f32⟩ : BufTy).Contents (Elt F) → (⟨S96x65536, .f32⟩ : BufTy).Contents (Elt F) → (⟨S2048x65536, .f32⟩ : BufTy).Contents (Elt F)),
    unary main_arg0 main_v39 (broadcastInDim S2048x65536 ![0, 1] bcast_S2048x1_S2048x65536_0_1 : (⟨S2048x1, .f32⟩ : BufTy).Contents (Elt F) → (⟨S2048x65536, .f32⟩ : BufTy).Contents (Elt F)),
    binary main_v39 main_v38 main_v40 (addf : (⟨S2048x65536, .f32⟩ : BufTy).Contents (Elt F) → (⟨S2048x65536, .f32⟩ : BufTy).Contents (Elt F) → (⟨S2048x65536, .f32⟩ : BufTy).Contents (Elt F)) ]

theorem ops_split : (ops (F := Ideal)) = opsA (F := Ideal) ++ (opsB (F := Ideal) ++ opsC (F := Ideal)) := rfl

/-- Two lines folded one after the other are their concatenation folded as one. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

-- the pure operations stay folded while a fold over a window is compared with the staged values: the two
-- sides are then the same tree of operations, compared head by head, and no operation's body is opened
attribute [local irreducible] constant constantI broadcastInDim iotaInDim addi subi andi cmpi cmpf select shapeCast extui maxsi signi mulf addf transpose concatenate Host.reduceWindow Host.scatter Host.gather Host.divsi Host.remsi in
set_option maxRecDepth 8192 in
set_option maxHeartbeats 4000000 in
/-- After the first window the row index vector's buffer holds its staged value. -/
theorem v24_eqA (V : Valuation τ sig (Elt Ideal)) :
    after (opsA (F := Ideal)) V (main_v24 : DevRef τ sig) = RefStages.val_v24 := by
  after_results_simp
  rfl

attribute [local irreducible] constant constantI broadcastInDim iotaInDim addi subi andi cmpi cmpf select shapeCast extui maxsi signi mulf addf transpose concatenate Host.reduceWindow Host.scatter Host.gather Host.divsi Host.remsi in
set_option maxRecDepth 8192 in
set_option maxHeartbeats 4000000 in
/-- After the first window the column remainder's buffer holds its staged value. -/
theorem v19_eqA (V : Valuation τ sig (Elt Ideal)) :
    after (opsA (F := Ideal)) V (main_v19 : DevRef τ sig) = RefStages.val_v19 := by
  after_results_simp
  rfl

set_option maxHeartbeats 4000000 in
theorem arg0_eqA (V : Valuation τ sig (Elt Ideal)) :
    after (opsA (F := Ideal)) V (main_arg0 : DevRef τ sig) = V (main_arg0 : DevRef τ sig) := by
  after_results_simp

set_option maxHeartbeats 4000000 in
theorem arg1_eqA (V : Valuation τ sig (Elt Ideal)) :
    after (opsA (F := Ideal)) V (main_arg1 : DevRef τ sig) = V (main_arg1 : DevRef τ sig) := by
  after_results_simp

set_option maxHeartbeats 4000000 in
theorem arg2_eqA (V : Valuation τ sig (Elt Ideal)) :
    after (opsA (F := Ideal)) V (main_arg2 : DevRef τ sig) = V (main_arg2 : DevRef τ sig) := by
  after_results_simp

set_option maxHeartbeats 4000000 in
theorem arg3_eqA (V : Valuation τ sig (Elt Ideal)) :
    after (opsA (F := Ideal)) V (main_arg3 : DevRef τ sig) = V (main_arg3 : DevRef τ sig) := by
  after_results_simp

attribute [local irreducible] constant constantI broadcastInDim iotaInDim addi subi andi cmpi cmpf select shapeCast extui maxsi signi mulf addf transpose concatenate Host.reduceWindow Host.scatter Host.gather Host.divsi Host.remsi in
set_option maxRecDepth 8192 in
set_option maxHeartbeats 4000000 in
/-- The second window from any contents holding the two staged integer vectors: the first matrix product's
    buffer ends at its staged value of the arguments' contents. -/
theorem v36_eqB (U : Valuation τ sig (Elt Ideal))
    (h24 : U (main_v24 : DevRef τ sig) = RefStages.val_v24) (h19 : U (main_v19 : DevRef τ sig) = RefStages.val_v19) :
    after (opsB (F := Ideal)) U (main_v36 : DevRef τ sig)
      = RefStages.val_v36 (U (main_arg2 : DevRef τ sig)) (U (main_arg3 : DevRef τ sig)) := by
  after_results_simp
  rw [h24, h19]
  rfl

set_option maxHeartbeats 4000000 in
theorem arg0_eqB (V : Valuation τ sig (Elt Ideal)) :
    after (opsB (F := Ideal)) V (main_arg0 : DevRef τ sig) = V (main_arg0 : DevRef τ sig) := by
  after_results_simp

set_option maxHeartbeats 4000000 in
theorem arg1_eqB (V : Valuation τ sig (Elt Ideal)) :
    after (opsB (F := Ideal)) V (main_arg1 : DevRef τ sig) = V (main_arg1 : DevRef τ sig) := by
  after_results_simp

set_option maxHeartbeats 4000000 in
theorem arg2_eqB (V : Valuation τ sig (Elt Ideal)) :
    after (opsB (F := Ideal)) V (main_arg2 : DevRef τ sig) = V (main_arg2 : DevRef τ sig) := by
  after_results_simp

set_option maxHeartbeats 4000000 in
theorem arg3_eqB (V : Valuation τ sig (Elt Ideal)) :
    after (opsB (F := Ideal)) V (main_arg3 : DevRef τ sig) = V (main_arg3 : DevRef τ sig) := by
  after_results_simp

attribute [local irreducible] constant constantI broadcastInDim iotaInDim addi subi andi cmpi cmpf select shapeCast extui maxsi signi mulf addf transpose concatenate Host.reduceWindow Host.scatter Host.gather Host.divsi Host.remsi in
set_option maxRecDepth 8192 in
set_option maxHeartbeats 4000000 in
/-- The third window from any contents holding the first matrix product's staged value: the result buffer ends
    at the last staged value. The concatenation is the window's first operation, so that its operands are read
    from the window's initial contents. -/
theorem v40_eqC (U : Valuation τ sig (Elt Ideal))
    (c : (⟨S2048x1, .f32⟩ : BufTy).Contents (Elt Ideal)) (Q : (⟨S2048x96, .f32⟩ : BufTy).Contents (Elt Ideal))
    (phi : (⟨S64x65536, .f32⟩ : BufTy).Contents (Elt Ideal)) (theta : (⟨S2080x32, .f32⟩ : BufTy).Contents (Elt Ideal))
    (h0 : U (main_arg0 : DevRef τ sig) = c) (h1 : U (main_arg1 : DevRef τ sig) = Q) (h2 : U (main_arg2 : DevRef τ sig) = phi)
    (h36 : U (main_v36 : DevRef τ sig) = RefStages.val_v36 phi theta) :
    after (opsC (F := Ideal)) U (main_v40 : DevRef τ sig) = RefStages.val_v40 c Q phi theta := by
  after_results_simp
  rw [h0, h1, h2, h36]
  rfl

/-- The fold of the 142 operations at the result buffer is the last staged value of the arguments' contents. -/
theorem v40_eq (V : Valuation τ sig (Elt Ideal)) :
    after (ops (F := Ideal)) V (main_v40 : DevRef τ sig)
      = RefStages.val_v40 (V (main_arg0 : DevRef τ sig)) (V (main_arg1 : DevRef τ sig)) (V (main_arg2 : DevRef τ sig)) (V (main_arg3 : DevRef τ sig)) := by
  rw [ops_split, after_app, after_app]
  refine v40_eqC _ _ _ _ _ ?_ ?_ ?_ ?_
  · rw [arg0_eqB, arg0_eqA]
  · rw [arg1_eqB, arg1_eqA]
  · rw [arg2_eqB, arg2_eqA]
  · rw [v36_eqB _ (v24_eqA V) (v19_eqA V), arg2_eqA, arg3_eqA]

set_option maxHeartbeats 4000000 in
/-- No operation writes argument 0: it keeps its contents. -/
theorem arg0_eq (V : Valuation τ sig (Elt Ideal)) :
    after (ops (F := Ideal)) V (main_arg0 : DevRef τ sig) = V (main_arg0 : DevRef τ sig) := by
  after_results_simp

set_option maxHeartbeats 4000000 in
/-- No operation writes argument 1: it keeps its contents. -/
theorem arg1_eq (V : Valuation τ sig (Elt Ideal)) :
    after (ops (F := Ideal)) V (main_arg1 : DevRef τ sig) = V (main_arg1 : DevRef τ sig) := by
  after_results_simp

set_option maxHeartbeats 4000000 in
/-- No operation writes argument 2: it keeps its contents. -/
theorem arg2_eq (V : Valuation τ sig (Elt Ideal)) :
    after (ops (F := Ideal)) V (main_arg2 : DevRef τ sig) = V (main_arg2 : DevRef τ sig) := by
  after_results_simp

set_option maxHeartbeats 4000000 in
/-- No operation writes argument 3: it keeps its contents. -/
theorem arg3_eq (V : Valuation τ sig (Elt Ideal)) :
    after (ops (F := Ideal)) V (main_arg3 : DevRef τ sig) = V (main_arg3 : DevRef τ sig) := by
  after_results_simp

/-- On every device, from any memory with zero counters: every weakly fair execution of @main terminates with the
    result at the staged value of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = RefStages.val_v40 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h c main_v40).trans (v40_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.lean ====
/- The proof of `Cert.Claim` (proofs.«166319_j26499948216761_1_alg».proof.Defs).

   Both programs compute  out[p, n] = c[p] + Σ_m Q[p, m] · z[m, n],  z = phi stacked over quad,
   quad[k, n] = Σ_{i ≤ j} theta[(i, j), k] · phi[i, n] · phi[j, n].
   The kernel builds, on the host, a symmetric [64, 64, 32] array from theta by two overwriting scatters at literal
   upper-triangular index pairs, weighs it 1 on the diagonal and 1/2 off it, and reads the quadratic form inside
   the grid as phi[i, n] · (Σ_j W[i, j, k] · phi[j, n]) summed over i, one [2048, 512] column block per grid point. The
   reference computes the same index pairs on the host (a prefix count of the triangular mask, a bincount and a second
   prefix count, then quotient and remainder by 64), gathers the two rows of phi and contracts with theta.
   Proved here: the two index enumerations are the one strictly increasing enumeration of the upper-triangular
   positions; the symmetric array holds theta[r, k] at (row r, col r) and (col r, row r); and for finite phi and
   theta the symmetric quadratic form with halved off-diagonal weights is the sum once over the pairs i ≤ j. The three
   frames are the generated frames of the two kernel programs and the reference's run with its result dropped; the
   idealization rewrote nothing. -/
import proofs.«166319_j26499948216761_1_alg».proof.Defs
import proofs.«166319_j26499948216761_1_alg».proof.Proof.Gen.Kernel
import proofs.«166319_j26499948216761_1_alg».proof.Proof.Gen.Kernel.Skeleton
import proofs.«166319_j26499948216761_1_alg».proof.Proof.Gen.Kernel.Launch
import proofs.«166319_j26499948216761_1_alg».proof.Proof.Gen.Kernel.Points
import proofs.«166319_j26499948216761_1_alg».proof.Proof.Gen.Kernel.Frame
import proofs.«166319_j26499948216761_1_alg».proof.Proof.Gen.KernelIdeal
import proofs.«166319_j26499948216761_1_alg».proof.Proof.Gen.KernelIdeal.Skeleton
import proofs.«166319_j26499948216761_1_alg».proof.Proof.Gen.KernelIdeal.Launch
import proofs.«166319_j26499948216761_1_alg».proof.Proof.Gen.KernelIdeal.Points
import proofs.«166319_j26499948216761_1_alg».proof.Proof.Gen.KernelIdeal.Frame
import proofs.«166319_j26499948216761_1_alg».proof.Proof.Gen.ReferenceIdeal
import proofs.«166319_j26499948216761_1_alg».proof.Proof.Gen.Pre_finite_inputs
import proofs.«166319_j26499948216761_1_alg».proof.Proof.Bridge
import proofs.«166319_j26499948216761_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- The kernel's run leaves its result array at the specification's entries of the arrays the region finds; the
    reference's run leaves its result at its composed term of the (agreeing) arguments; the two are one array. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]
  exact Cert.Bridge.result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
